-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v133)) (v1 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_v112) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S2x200000 : Shape := ⟨2, ![2, 200000]⟩
abbrev S200000x8 : Shape := ⟨2, ![200000, 8]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S136x1 : Shape := ⟨2, ![136, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S200000x8 : S_.BroadcastsInDim S200000x8 (![] : Fin 0 → Fin S200000x8.rank)
  reducesTo_S200000x8_S_d0_1 : S200000x8.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S136x1 : S_.BroadcastsInDim S136x1 (![] : Fin 0 → Fin S136x1.rank)
  reducesTo_S136x1_S_d0_1 : S136x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S136x1 .f32) (main_v50 : FVec F S136x1 .f32) : IVec S_ 1 :=
  let main_v51 : IVec S136x1 1 := cmpf .olt main_v49 main_v50
  let main_c_19 : IVec S_ 1 := constantI S_ 1 1#1
  let main_v52 : IVec S_ 1 := (fun x v => Host.reduce IntOp.andi x v reducesTo_S136x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S64 .f32) (main_arg10 : FVec F S64x64 .f32) (main_arg11 : FVec F S64 .f32) (main_arg12 : FVec F S136x1 .f32) (main_arg13 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S136x1 .f32 := Host.absf main_arg12
  let main_cst_18 : FVec F S_ .f32 := constant S_ .f32 0x7F800000#32
  let main_v50 : FVec F S136x1 .f32 := broadcastInDim S136x1 ![] bcast_S_S136x1 main_cst_18
  fn_part3 (F := F) main_arg13 main_v48 main_v49 main_v50

def fn_part1 {F : FTy → Type} [FloatOps F] (main_arg6 : FVec F S128x64 .f32) (main_arg7 : FVec F S64 .f32) (main_arg8 : FVec F S64x64 .f32) (main_arg9 : FVec F S64 .f32) (main_arg10 : FVec F S64x64 .f32) (main_arg11 : FVec F S64 .f32) (main_arg12 : FVec F S136x1 .f32) (main_arg13 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x256 .f32) (main_arg1 : IVec S2x1600000 32) (main_arg2 : IVec S2x200000 32) (main_arg3 : FVec F S200000x8 .f32) (main_arg4 : FVec F S256x128 .f32) (main_arg5 : FVec F S128 .f32) (main_arg6 : FVec F S128x64 .f32) (main_arg7 : FVec F S64 .f32) (main_arg8 : FVec F S64x64 .f32) (main_arg9 : FVec F S64 .f32) (main_arg10 : FVec F S64x64 .f32) (main_arg11 : FVec F S64 .f32) (main_arg12 : FVec F S136x1 .f32) (main_arg13 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S200000x8 .f32 := Host.absf main_arg3
  let main_cst_0 : FVec F S_ .f32 := constant S_ .f32 0x7F800000#32
  let main_v5 : FVec F S200000x8 .f32 := broadcastInDim S200000x8 ![] bcast_S_S200000x8 main_cst_0
  let main_v6 : IVec S200000x8 1 := cmpf .olt main_v4 main_v5
  let main_c_1 : IVec S_ 1 := constantI S_ 1 1#1
  let main_v7 : IVec S_ 1 := (fun x v => Host.reduce IntOp.andi x v reducesTo_S200000x8_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S100000x256 : Shape := ⟨2, ![100000, 256]⟩
abbrev S2x1600000 : Shape := ⟨2, ![2, 1600000]⟩
abbrev S2x200000 : Shape := ⟨2, ![2, 200000]⟩
abbrev S200000x8 : Shape := ⟨2, ![200000, 8]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S136x1 : Shape := ⟨2, ![136, 1]⟩
abbrev S1 : Shape := ⟨1, ![1]⟩
abbrev S1x1600000 : Shape := ⟨2, ![1, 1600000]⟩
abbrev S1600000 : Shape := ⟨1, ![1600000]⟩
abbrev S100000x128 : Shape := ⟨2, ![100000, 128]⟩
abbrev S5000x256 : Shape := ⟨2, ![5000, 256]⟩
abbrev S5000x128 : Shape := ⟨2, ![5000, 128]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200000x136 : Shape := ⟨2, ![200000, 136]⟩
abbrev S5000x136 : Shape := ⟨2, ![5000, 136]⟩
abbrev S5000x1 : Shape := ⟨2, ![5000, 1]⟩
abbrev S1x1 : Shape := ⟨2, ![1, 1]⟩

abbrev nBuf : Space → Nat
  | .hbm => 183
  | .vmem => 40
  | .smem => 0
  | _ => 0

abbrev hbmTy0_0 (i : Nat) : BufTy := match i % 128 with
  | 0 => ⟨S100000x256, .f32⟩
  | 1 => ⟨S2x1600000, .i32⟩
  | 2 => ⟨S2x200000, .i32⟩
  | 3 => ⟨S200000x8, .f32⟩
  | 4 => ⟨S256x128, .f32⟩
  | 5 => ⟨S128, .f32⟩
  | 6 => ⟨S128x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S136x1, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S100000x128, .f32⟩
  | 19 => ⟨S100000x64, .f32⟩
  | 20 => ⟨S_, .f32⟩
  | 21 => ⟨S64, .f32⟩
  | 22 => ⟨S100000x64, .f32⟩
  | 23 => ⟨S_, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S_, .f32⟩
  | 34 => ⟨S1600000, .f32⟩
  | 35 => ⟨S100000, .f32⟩
  | 36 => ⟨S_, .f32⟩
  | 37 => ⟨S100000, .f32⟩
  | 38 => ⟨S100000, .f32⟩
  | 39 => ⟨S100000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000, .f32⟩
  | 58 => ⟨S1600000, .f32⟩
  | 59 => ⟨S_, .f32⟩
  | 60 => ⟨S100000x64, .f32⟩
  | 61 => ⟨S1600000x1, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x64, .f32⟩
  | 71 => ⟨S1600000x64, .f32⟩
  | 72 => ⟨S1600000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S100000x64, .f32⟩
  | 82 => ⟨S_, .f32⟩
  | 83 => ⟨S100000, .f32⟩
  | 84 => ⟨S100000, .f32⟩
  | 85 => ⟨S100000x1, .f32⟩
  | 86 => ⟨S100000x64, .f32⟩
  | 87 => ⟨S100000x64, .f32⟩
  | 88 => ⟨S100000x64, .f32⟩
  | 89 => ⟨S100000x64, .f32⟩
  | 90 => ⟨S100000x64, .f32⟩
  | 91 => ⟨S_, .f32⟩
  | 92 => ⟨S100000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S_, .f32⟩
  | 102 => ⟨S1600000, .f32⟩
  | 103 => ⟨S100000, .f32⟩
  | 104 => ⟨S_, .f32⟩
  | 105 => ⟨S100000, .f32⟩
  | 106 => ⟨S100000, .f32⟩
  | 107 => ⟨S100000, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000, .f32⟩
  | 126 => ⟨S1600000, .f32⟩
  | 127 => ⟨S_, .f32⟩
  | _ => ⟨S100000x256, .f32⟩

abbrev hbmTy0_1 (i : Nat) : BufTy := match i % 128 with
  | 0 => ⟨S100000x64, .f32⟩
  | 1 => ⟨S1600000x1, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x64, .f32⟩
  | 11 => ⟨S1600000x64, .f32⟩
  | 12 => ⟨S1600000x64, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S100000x64, .f32⟩
  | 22 => ⟨S_, .f32⟩
  | 23 => ⟨S100000, .f32⟩
  | 24 => ⟨S100000, .f32⟩
  | 25 => ⟨S100000x1, .f32⟩
  | 26 => ⟨S100000x64, .f32⟩
  | 27 => ⟨S100000x64, .f32⟩
  | 28 => ⟨S100000x64, .f32⟩
  | 29 => ⟨S100000x64, .f32⟩
  | 30 => ⟨S1x200000, .i32⟩
  | 31 => ⟨S200000, .i32⟩
  | 32 => ⟨S1x200000, .i32⟩
  | 33 => ⟨S200000, .i32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S200000x64, .f32⟩
  | 43 => ⟨S_, .i32⟩
  | 44 => ⟨S200000, .i32⟩
  | 45 => ⟨S200000, .i1⟩
  | 46 => ⟨S_, .i32⟩
  | 47 => ⟨S200000, .i32⟩
  | 48 => ⟨S200000, .i32⟩
  | 49 => ⟨S200000, .i32⟩
  | 50 => ⟨S200000x1, .i32⟩
  | 51 => ⟨S200000x64, .f32⟩
  | 52 => ⟨S200000x136, .f32⟩
  | 53 => ⟨S200000x1, .f32⟩
  | 54 => ⟨S200000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x64, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S64x64, .f32⟩
  | .local _ .vmem, ⟨26, _⟩ => ⟨S64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S64, .f32⟩
  | .local _ .vmem, ⟨32, _⟩ => ⟨S5000x64, .f32⟩
  | .local _ .vmem, ⟨33, _⟩ => ⟨S5000x64, .f32⟩
  | .local _ .vmem, ⟨34, _⟩ => ⟨S5000x136, .f32⟩
  | .local _ .vmem, ⟨35, _⟩ => ⟨S5000x136, .f32⟩
  | .local _ .vmem, ⟨36, _⟩ => ⟨S136x1, .f32⟩
  | .local _ .vmem, ⟨37, _⟩ => ⟨S1, .f32⟩
  | .local _ .vmem, ⟨38, _⟩ => ⟨S5000x1, .f32⟩
  | .local _ .vmem, ⟨39, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_11 : Ref sig .tc := ⟨.hbm, 73, rfl⟩
abbrev main_v46 : Ref sig .tc := ⟨.hbm, 74, rfl⟩
abbrev main_v47 : Ref sig .tc := ⟨.hbm, 75, rfl⟩
abbrev main_c_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_13 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_c_15 : Ref sig .tc := ⟨.hbm, 93, rfl⟩
abbrev main_v62 : Ref sig .tc := ⟨.hbm, 94, rfl⟩
abbrev main_v63 : Ref sig .tc := ⟨.hbm, 95, rfl⟩
abbrev main_c_16 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_17 : Ref sig .tc := ⟨.hbm, 101, rfl⟩
abbrev main_v68 : Ref sig .tc := ⟨.hbm, 102, rfl⟩
abbrev main_v69 : Ref sig .tc := ⟨.hbm, 103, rfl⟩
abbrev main_cst_18 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_19 : Ref sig .tc := ⟨.hbm, 108, rfl⟩
abbrev main_v73 : Ref sig .tc := ⟨.hbm, 109, rfl⟩
abbrev main_v74 : Ref sig .tc := ⟨.hbm, 110, rfl⟩
abbrev main_c_20 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_21 : Ref sig .tc := ⟨.hbm, 117, rfl⟩
abbrev main_v80 : Ref sig .tc := ⟨.hbm, 118, rfl⟩
abbrev main_v81 : Ref sig .tc := ⟨.hbm, 119, rfl⟩
abbrev main_c_22 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_23 : Ref sig .tc := ⟨.hbm, 127, rfl⟩
abbrev main_v88 : Ref sig .tc := ⟨.hbm, 128, rfl⟩
abbrev main_v89 : Ref sig .tc := ⟨.hbm, 129, rfl⟩
abbrev main_c_24 : Ref sig .tc := ⟨.hbm, 130, rfl⟩
abbrev main_v90 : Ref sig .tc := ⟨.hbm, 131, rfl⟩
abbrev main_v91 : Ref sig .tc := ⟨.hbm, 132, rfl⟩
abbrev main_c_25 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_c_26 : Ref sig .tc := ⟨.hbm, 141, rfl⟩
abbrev main_v99 : Ref sig .tc := ⟨.hbm, 142, rfl⟩
abbrev main_v100 : Ref sig .tc := ⟨.hbm, 143, rfl⟩
abbrev main_c_27 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_28 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c_29 : Ref sig .tc := ⟨.hbm, 162, rfl⟩
abbrev main_v117 : Ref sig .tc := ⟨.hbm, 163, rfl⟩
abbrev main_v118 : Ref sig .tc := ⟨.hbm, 164, rfl⟩
abbrev main_c_30 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_c_31 : Ref sig .tc := ⟨.hbm, 171, rfl⟩
abbrev main_v124 : Ref sig .tc := ⟨.hbm, 172, rfl⟩
abbrev main_v125 : Ref sig .tc := ⟨.hbm, 173, rfl⟩
abbrev main_c_32 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg3_0 : Ref sig .tc := ⟨.vmem, 38, rfl⟩
abbrev cc6_stg3_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem3_0 : DmaSem sig := 38
abbrev cc6_sem3_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![40], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x136 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S136x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S64 : S_.BroadcastsInDim S64 (![] : Fin 0 → Fin S64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64_S64 : S64.ShapeCasts S64
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x64_S200000x64_S200000x8_S200000x136_d1 : Shape.Concatenates [S200000x64, S200000x64, S200000x8] S200000x136 1
  inb_S5000x136_S5000x136_0_0 : ∀ a, (![0, 0] : Fin 2 → Nat) a + S5000x136.size a ≤ S5000x136.size a
  h_S5000x136 : 0 < S5000x136.numel
  shapeCasts_S5000x136_S5000x136 : S5000x136.ShapeCasts S5000x136
  inb_S136x1_S136x1_0_0 : ∀ a, (![0, 0] : Fin 2 → Nat) a + S136x1.size a ≤ S136x1.size a
  h_S136x1 : 0 < S136x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S200000x1_S200000 : S200000x1.ShapeCasts S200000
  dot_S5000x256_S256x128_S5000x128_1_0_0_1_n_n_wf : DotDims.WF S5000x256 S256x128 S5000x128 [1] [0] [0] [1] [] []
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S200000x1_S200000x64_1_0_n_n_0_1_164_wf : GatherDims.WF S100000x64 S200000x1 S200000x64 [1] [0] [] [0] [] 1 ![1, 64]
  dot_S5000x136_S136x1_S5000x1_1_0_0_1_n_n_wf : DotDims.WF S5000x136 S136x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x136.size a ≤ S200000x136.size a
  hwx6_0 : ∀ i : grid6.Coords, EltTy.bits .f32 = 32 ∨ (Rect.block (s := S200000x136) S5000x136.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S136x1.size a ≤ S136x1.size a
  hwx6_1 : ∀ i : grid6.Coords, EltTy.bits .f32 = 32 ∨ (Rect.block (s := S136x1) S136x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1.size a ≤ S1.size a
  hwx6_2 : ∀ i : grid6.Coords, EltTy.bits .f32 = 32 ∨ (Rect.block (s := S1) S1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S200000x1.size a
  hwx6_3 : ∀ i : grid6.Coords, EltTy.bits .f32 = 32 ∨ (Rect.block (s := S200000x1) S5000x1.size (cc6_transform_3 i) (hinb6_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S5000x136_S136x1_S5000x1_1_0_0_1_n_n : DotDims S5000x136 S136x1 S5000x1 where
  lhsContracting := [1]
  rhsContracting := [0]
  lhsNonContracting := [0]
  rhsNonContracting := [1]
  lhsBatch := []
  rhsBatch := []
  wf := dot_S5000x136_S136x1_S5000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v6) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v111) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v112) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v131) S5000x136.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S136x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg13) S1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v132) S5000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S2x200000 : Shape := ⟨2, ![2, 200000]⟩
abbrev S200000x8 : Shape := ⟨2, ![200000, 8]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S136x1 : Shape := ⟨2, ![136, 1]⟩
abbrev S1 : Shape := ⟨1, ![1]⟩
abbrev S1x1600000 : Shape := ⟨2, ![1, 1600000]⟩
abbrev S1600000 : Shape := ⟨1, ![1600000]⟩
abbrev S100000x128 : Shape := ⟨2, ![100000, 128]⟩
abbrev S1x128 : Shape := ⟨2, ![1, 128]⟩
abbrev S_ : Shape := ⟨0, ![]⟩
abbrev S100000x64 : Shape := ⟨2, ![100000, 64]⟩
abbrev S1x64 : Shape := ⟨2, ![1, 64]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200000x136 : Shape := ⟨2, ![200000, 136]⟩
abbrev S1x1 : Shape := ⟨2, ![1, 1]⟩

abbrev nBuf : Space → Nat
  | .hbm => 222
  | .vmem => 0
  | .smem => 0
  | _ => 0

abbrev hbmTy0_0 (i : Nat) : BufTy := match i % 128 with
  | 0 => ⟨S100000x256, .f32⟩
  | 1 => ⟨S2x1600000, .i32⟩
  | 2 => ⟨S2x200000, .i32⟩
  | 3 => ⟨S200000x8, .f32⟩
  | 4 => ⟨S256x128, .f32⟩
  | 5 => ⟨S128, .f32⟩
  | 6 => ⟨S128x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S136x1, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .i1⟩
  | 25 => ⟨S_, .f32⟩
  | 26 => ⟨S100000x128, .f32⟩
  | 27 => ⟨S100000x128, .f32⟩
  | 28 => ⟨S100000x128, .f32⟩
  | 29 => ⟨S100000x64, .f32⟩
  | 30 => ⟨S1x64, .f32⟩
  | 31 => ⟨S100000x64, .f32⟩
  | 32 => ⟨S100000x64, .f32⟩
  | 33 => ⟨S_, .f32⟩
  | 34 => ⟨S100000x64, .f32⟩
  | 35 => ⟨S100000x64, .i1⟩
  | 36 => ⟨S_, .f32⟩
  | 37 => ⟨S100000x64, .f32⟩
  | 38 => ⟨S100000x64, .f32⟩
  | 39 => ⟨S100000x64, .f32⟩
  | 40 => ⟨S100000x64, .f32⟩
  | 41 => ⟨S_, .f32⟩
  | 42 => ⟨S100000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S_, .f32⟩
  | 52 => ⟨S1600000, .f32⟩
  | 53 => ⟨S100000, .f32⟩
  | 54 => ⟨S_, .f32⟩
  | 55 => ⟨S100000, .f32⟩
  | 56 => ⟨S100000, .f32⟩
  | 57 => ⟨S100000, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000, .f32⟩
  | 76 => ⟨S1600000, .f32⟩
  | 77 => ⟨S_, .f32⟩
  | 78 => ⟨S100000x64, .f32⟩
  | 79 => ⟨S1600000x1, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S1600000x64, .f32⟩
  | 90 => ⟨S1600000x64, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S100000x64, .f32⟩
  | 100 => ⟨S_, .f32⟩
  | 101 => ⟨S100000, .f32⟩
  | 102 => ⟨S100000, .f32⟩
  | 103 => ⟨S100000x1, .f32⟩
  | 104 => ⟨S100000x64, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .i1⟩
  | 113 => ⟨S_, .f32⟩
  | 114 => ⟨S100000x64, .f32⟩
  | 115 => ⟨S100000x64, .f32⟩
  | 116 => ⟨S100000x64, .f32⟩
  | 117 => ⟨S100000x64, .f32⟩
  | 118 => ⟨S_, .f32⟩
  | 119 => ⟨S100000, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x256, .f32⟩

abbrev hbmTy0_1 (i : Nat) : BufTy := match i % 128 with
  | 0 => ⟨S_, .f32⟩
  | 1 => ⟨S1600000, .f32⟩
  | 2 => ⟨S100000, .f32⟩
  | 3 => ⟨S_, .f32⟩
  | 4 => ⟨S100000, .f32⟩
  | 5 => ⟨S100000, .f32⟩
  | 6 => ⟨S100000, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000, .f32⟩
  | 25 => ⟨S1600000, .f32⟩
  | 26 => ⟨S_, .f32⟩
  | 27 => ⟨S100000x64, .f32⟩
  | 28 => ⟨S1600000x1, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x64, .f32⟩
  | 38 => ⟨S1600000x64, .f32⟩
  | 39 => ⟨S1600000x64, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S100000x64, .f32⟩
  | 49 => ⟨S_, .f32⟩
  | 50 => ⟨S100000, .f32⟩
  | 51 => ⟨S100000, .f32⟩
  | 52 => ⟨S100000x1, .f32⟩
  | 53 => ⟨S100000x64, .f32⟩
  | 54 => ⟨S100000x64, .f32⟩
  | 55 => ⟨S100000x64, .f32⟩
  | 56 => ⟨S1x64, .f32⟩
  | 57 => ⟨S100000x64, .f32⟩
  | 58 => ⟨S100000x64, .f32⟩
  | 59 => ⟨S_, .f32⟩
  | 60 => ⟨S100000x64, .f32⟩
  | 61 => ⟨S100000x64, .i1⟩
  | 62 => ⟨S_, .f32⟩
  | 63 => ⟨S100000x64, .f32⟩
  | 64 => ⟨S100000x64, .f32⟩
  | 65 => ⟨S100000x64, .f32⟩
  | 66 => ⟨S1x200000, .i32⟩
  | 67 => ⟨S200000, .i32⟩
  | 68 => ⟨S_, .i32⟩
  | 69 => ⟨S200000, .i32⟩
  | 70 => ⟨S200000, .i1⟩
  | 71 => ⟨S_, .i32⟩
  | 72 => ⟨S200000, .i32⟩
  | 73 => ⟨S200000, .i32⟩
  | 74 => ⟨S200000, .i32⟩
  | 75 => ⟨S200000x1, .i32⟩
  | 76 => ⟨S200000x64, .f32⟩
  | 77 => ⟨S1x200000, .i32⟩
  | 78 => ⟨S200000, .i32⟩
  | 79 => ⟨S_, .i32⟩
  | 80 => ⟨S200000, .i32⟩
  | 81 => ⟨S200000, .i1⟩
  | 82 => ⟨S_, .i32⟩
  | 83 => ⟨S200000, .i32⟩
  | 84 => ⟨S200000, .i32⟩
  | 85 => ⟨S200000, .i32⟩
  | 86 => ⟨S200000x1, .i32⟩
  | 87 => ⟨S200000x64, .f32⟩
  | 88 => ⟨S200000x136, .f32⟩
  | 89 => ⟨S200000x1, .f32⟩
  | 90 => ⟨S1x1, .f32⟩
  | 91 => ⟨S200000x1, .f32⟩
  | 92 => ⟨S200000x1, .f32⟩
  | 93 => ⟨S200000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_c : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_c_12 : Ref sig .tc := ⟨.hbm, 80, rfl⟩
abbrev main_v52 : Ref sig .tc := ⟨.hbm, 81, rfl⟩
abbrev main_v53 : Ref sig .tc := ⟨.hbm, 82, rfl⟩
abbrev main_c_13 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_c_15 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_17 : Ref sig .tc := ⟨.hbm, 110, rfl⟩
abbrev main_v77 : Ref sig .tc := ⟨.hbm, 111, rfl⟩
abbrev main_v78 : Ref sig .tc := ⟨.hbm, 112, rfl⟩
abbrev main_cst_18 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_19 : Ref sig .tc := ⟨.hbm, 118, rfl⟩
abbrev main_v83 : Ref sig .tc := ⟨.hbm, 119, rfl⟩
abbrev main_c_20 : Ref sig .tc := ⟨.hbm, 120, rfl⟩
abbrev main_v84 : Ref sig .tc := ⟨.hbm, 121, rfl⟩
abbrev main_v85 : Ref sig .tc := ⟨.hbm, 122, rfl⟩
abbrev main_c_21 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_22 : Ref sig .tc := ⟨.hbm, 128, rfl⟩
abbrev main_v90 : Ref sig .tc := ⟨.hbm, 129, rfl⟩
abbrev main_v91 : Ref sig .tc := ⟨.hbm, 130, rfl⟩
abbrev main_cst_23 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_c_24 : Ref sig .tc := ⟨.hbm, 135, rfl⟩
abbrev main_v95 : Ref sig .tc := ⟨.hbm, 136, rfl⟩
abbrev main_v96 : Ref sig .tc := ⟨.hbm, 137, rfl⟩
abbrev main_c_25 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_c_26 : Ref sig .tc := ⟨.hbm, 144, rfl⟩
abbrev main_v102 : Ref sig .tc := ⟨.hbm, 145, rfl⟩
abbrev main_v103 : Ref sig .tc := ⟨.hbm, 146, rfl⟩
abbrev main_c_27 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_28 : Ref sig .tc := ⟨.hbm, 154, rfl⟩
abbrev main_v110 : Ref sig .tc := ⟨.hbm, 155, rfl⟩
abbrev main_v111 : Ref sig .tc := ⟨.hbm, 156, rfl⟩
abbrev main_c_29 : Ref sig .tc := ⟨.hbm, 157, rfl⟩
abbrev main_v112 : Ref sig .tc := ⟨.hbm, 158, rfl⟩
abbrev main_v113 : Ref sig .tc := ⟨.hbm, 159, rfl⟩
abbrev main_c_30 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_c_31 : Ref sig .tc := ⟨.hbm, 168, rfl⟩
abbrev main_v121 : Ref sig .tc := ⟨.hbm, 169, rfl⟩
abbrev main_v122 : Ref sig .tc := ⟨.hbm, 170, rfl⟩
abbrev main_c_32 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_33 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_34 : Ref sig .tc := ⟨.hbm, 187, rfl⟩
abbrev main_v137 : Ref sig .tc := ⟨.hbm, 188, rfl⟩
abbrev main_v138 : Ref sig .tc := ⟨.hbm, 189, rfl⟩
abbrev main_cst_35 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_c_36 : Ref sig .tc := ⟨.hbm, 196, rfl⟩
abbrev main_v144 : Ref sig .tc := ⟨.hbm, 197, rfl⟩
abbrev main_v145 : Ref sig .tc := ⟨.hbm, 198, rfl⟩
abbrev main_c_37 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_c_38 : Ref sig .tc := ⟨.hbm, 207, rfl⟩
abbrev main_v153 : Ref sig .tc := ⟨.hbm, 208, rfl⟩
abbrev main_v154 : Ref sig .tc := ⟨.hbm, 209, rfl⟩
abbrev main_c_39 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x64_S200000x64_S200000x8_S200000x136_d1 : Shape.Concatenates [S200000x64, S200000x64, S200000x8] S200000x136 1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  dot_S100000x256_S256x128_S100000x128_1_0_0_1_n_n_wf : DotDims.WF S100000x256 S256x128 S100000x128 [1] [0] [0] [1] [] []
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S200000x1_S200000x64_1_0_n_n_0_1_164_wf : GatherDims.WF S100000x64 S200000x1 S200000x64 [1] [0] [] [0] [] 1 ![1, 64]
  dot_S200000x136_S136x1_S200000x1_1_0_0_1_n_n_wf : DotDims.WF S200000x136 S136x1 S200000x1 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S200000x136_S136x1_S200000x1_1_0_0_1_n_n : DotDims S200000x136 S136x1 S200000x1 where
  lhsContracting := [1]
  rhsContracting := [0]
  lhsNonContracting := [0]
  rhsNonContracting := [1]
  lhsBatch := []
  rhsBatch := []
  wf := dot_S200000x136_S136x1_S200000x1_1_0_0_1_n_n_wf

class Facts : Prop extends Facts₀ where

variable [Facts]
-- ==== Proof.KB.Region0.lean ====
/-
  Pallas call 0 of the program, taken alone: its grid walks the row blocks of the first operand, 5000 rows at a
  time; at every grid point the body reads the current row block and the small operands whole, and overwrites the
  whole 5000-row block of the result with one value computed from what it read. This file states what each
  staging buffer holds around the body at a grid point, proves the body's Hoare triple against those contents,
  and packages both as the proof data and the per-point obligation the pipeline's launch theorem asks for. The
  buffer contents on entry to the call are a parameter `V`.
-/
import proofs.«148738_j38654705664133_1_alg».proof.Proof.Gen.Kernel.Launch
import proofs.«148738_j38654705664133_1_alg».proof.Proof.Gen.Kernel.Skeleton
import proofs.«148738_j38654705664133_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` addresses, cut out of the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand's staging buffer holds the operand's current block at every grid point, whether the pipeline copied
    it in at that point or left it from an earlier one (then the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An operand's staging buffer holds the operand's current block at every grid point, whether the pipeline copied
    it in at that point or left it from an earlier one (then the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An operand's staging buffer holds the operand's current block at every grid point, whether the pipeline copied
    it in at that point or left it from an earlier one (then the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev rin0_0 : Rect S5000x256 := Rect.unit (s := S5000x256) ![0, 0] S5000x256.size inb_S5000x256_S5000x256_0_0
abbrev rin0_1 : Rect S256x128 := Rect.unit (s := S256x128) ![0, 0] S256x128.size inb_S256x128_S256x128_0_0
abbrev rin0_2 : Rect S128 := Rect.unit (s := S128) ![0] S128.size inb_S128_S128_0
abbrev rout0 : Rect S5000x128 := Rect.unit (s := S5000x128) ![0, 0] S5000x128.size inb_S5000x128_S5000x128_0_0

/-- What the result's staging buffer holds after the body, as a function of the operand blocks: the one whole-block
    store, read back. -/
def out0 (x0 : Vec F S5000x256 .f32) (x1 : Vec F S256x128 .f32) (x2 : Vec F S128 .f32) : Vec F S5000x128 .f32 :=
  View.canon [⟨rout0, k0_pay1 (View.ld x0 rin0_0) (View.ld x1 rin0_1) (View.ld x2 rin0_2)⟩]

/-- That one store covers the buffer. -/
theorem cover0 (p0 : Vec F S5000x128 .f32) (y : S5000x128.Idx) :
    ∃ pc ∈ ([⟨rout0, p0⟩] : List (View.Piece (Elt F) S5000x128 .f32)), y ∈ pc.1.set :=
  View.cover_of_tiled [⟨rout0, p0⟩] S5000x128.size (by rfl) y

set_option maxHeartbeats 4000000 in
/-- The body's triple: from the operand buffers at `x…` and the result buffer at anything, it runs to the end without a
    fault, leaves the operand buffers as they were and the result buffer at `out0` of the operands. -/
theorem sound_kernel0 (c : Dev nD) (E : Set ℕ) (i : grid0.Coords) (a0 : Memref sig .tc .vmem S5000x256 .f32) (h0 : a0.IsWhole) (a1 : Memref sig .tc .vmem S256x128 .f32) (h1 : a1.IsWhole) (a2 : Memref sig .tc .vmem S128 .f32) (h2 : a2.IsWhole) (a3 : Memref sig .tc .vmem S5000x128 .f32) (h3 : a3.IsWhole)
    (x0 : Vec F S5000x256 .f32) (x1 : Vec F S256x128 .f32) (x2 : Vec F S128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out0 x0 x1 x2)) -∗ K ⟨⟩))
      ⊢ wp frame (wpE (defs₀ (F := F)) Variants.none c none) E (cc0__dense_kernel i a0 h0 a1 h1 a2 h2 a3 h3) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The proof data of this call on core `c`: every window's array as the call finds it; after the body at point `t` an
    operand's buffer still holds its block and the result's buffer holds `out0` of the operand blocks; beside the windows
    only the untouched rest of the scoped memory and the generator register; nothing owed to another core. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the pipeline hands the body at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it expects back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any grid point the operand buffers hold their blocks, so the body's triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point obligation of the launch theorem. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.Region1.lean ====
/-
  Pallas call 1 of the program, taken alone: its grid walks the row blocks of the first operand, 5000 rows at a
  time; at every grid point the body reads the current row block and the small operands whole, and overwrites the
  whole 5000-row block of the result with one value computed from what it read. This file states what each
  staging buffer holds around the body at a grid point, proves the body's Hoare triple against those contents,
  and packages both as the proof data and the per-point obligation the pipeline's launch theorem asks for. The
  buffer contents on entry to the call are a parameter `V`.
-/
import proofs.«148738_j38654705664133_1_alg».proof.Proof.Gen.Kernel.Launch
import proofs.«148738_j38654705664133_1_alg».proof.Proof.Gen.Kernel.Skeleton
import proofs.«148738_j38654705664133_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` addresses, cut out of the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand's staging buffer holds the operand's current block at every grid point, whether the pipeline copied
    it in at that point or left it from an earlier one (then the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An operand's staging buffer holds the operand's current block at every grid point, whether the pipeline copied
    it in at that point or left it from an earlier one (then the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An operand's staging buffer holds the operand's current block at every grid point, whether the pipeline copied
    it in at that point or left it from an earlier one (then the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes through. -/
abbrev rin1_0 : Rect S5000x128 := Rect.unit (s := S5000x128) ![0, 0] S5000x128.size inb_S5000x128_S5000x128_0_0
abbrev rin1_1 : Rect S128x64 := Rect.unit (s := S128x64) ![0, 0] S128x64.size inb_S128x64_S128x64_0_0
abbrev rin1_2 : Rect S64 := Rect.unit (s := S64) ![0] S64.size inb_S64_S64_0
abbrev rout1 : Rect S5000x64 := Rect.unit (s := S5000x64) ![0, 0] S5000x64.size inb_S5000x64_S5000x64_0_0

/-- What the result's staging buffer holds after the body, as a function of the operand blocks: the one whole-block
    store, read back. -/
def out1 (x0 : Vec F S5000x128 .f32) (x1 : Vec F S128x64 .f32) (x2 : Vec F S64 .f32) : Vec F S5000x64 .f32 :=
  View.canon [⟨rout1, k1_pay1 (View.ld x0 rin1_0) (View.ld x1 rin1_1) (View.ld x2 rin1_2)⟩]

/-- That one store covers the buffer. -/
theorem cover1 (p0 : Vec F S5000x64 .f32) (y : S5000x64.Idx) :
    ∃ pc ∈ ([⟨rout1, p0⟩] : List (View.Piece (Elt F) S5000x64 .f32)), y ∈ pc.1.set :=
  View.cover_of_tiled [⟨rout1, p0⟩] S5000x64.size (by rfl) y

set_option maxHeartbeats 4000000 in
/-- The body's triple: from the operand buffers at `x…` and the result buffer at anything, it runs to the end without a
    fault, leaves the operand buffers as they were and the result buffer at `out1` of the operands. -/
theorem sound_kernel1 (c : Dev nD) (E : Set ℕ) (i : grid1.Coords) (a0 : Memref sig .tc .vmem S5000x128 .f32) (h0 : a0.IsWhole) (a1 : Memref sig .tc .vmem S128x64 .f32) (h1 : a1.IsWhole) (a2 : Memref sig .tc .vmem S64 .f32) (h2 : a2.IsWhole) (a3 : Memref sig .tc .vmem S5000x64 .f32) (h3 : a3.IsWhole)
    (x0 : Vec F S5000x128 .f32) (x1 : Vec F S128x64 .f32) (x2 : Vec F S64 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1 x0 x1 x2)) -∗ K ⟨⟩))
      ⊢ wp frame (wpE (defs₀ (F := F)) Variants.none c none) E (cc1__dense_kernel i a0 h0 a1 h1 a2 h2 a3 h3) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The proof data of this call on core `c`: every window's array as the call finds it; after the body at point `t` an
    operand's buffer still holds its block and the result's buffer holds `out1` of the operand blocks; beside the windows
    only the untouched rest of the scoped memory and the generator register; nothing owed to another core. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the pipeline hands the body at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it expects back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At any grid point the operand buffers hold their blocks, so the body's triple applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point obligation of the launch theorem. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Region2.lean ====
/-
  Pallas call 2 of the program, taken alone: its grid walks the row blocks of the first operand, 5000 rows at a
  time; at every grid point the body reads the current row block and the small operands whole, and overwrites the
  whole 5000-row block of the result with one value computed from what it read. This file states what each
  staging buffer holds around the body at a grid point, proves the body's Hoare triple against those contents,
  and packages both as the proof data and the per-point obligation the pipeline's launch theorem asks for. The
  buffer contents on entry to the call are a parameter `V`.
-/
import proofs.«148738_j38654705664133_1_alg».proof.Proof.Gen.Kernel.Launch
import proofs.«148738_j38654705664133_1_alg».proof.Proof.Gen.Kernel.Skeleton
import proofs.«148738_j38654705664133_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` addresses, cut out of the window's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An operand's staging buffer holds the operand's current block at every grid point, whether the pipeline copied
    it in at that point or left it from an earlier one (then the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An operand's staging buffer holds the operand's current block at every grid point, whether the pipeline copied
    it in at that point or left it from an earlier one (then the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An operand's staging buffer holds the operand's current block at every grid point, whether the pipeline copied
    it in at that point or left it from an earlier one (then the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body reads and writes through. -/
abbrev rin2_0 : Rect S5000x64 := Rect.unit (s := S5000x64) ![0, 0] S5000x64.size inb_S5000x64_S5000x64_0_0
abbrev rin2_1 : Rect S64x64 := Rect.unit (s := S64x64) ![0, 0] S64x64.size inb_S64x64_S64x64_0_0
abbrev rin2_2 : Rect S64 := Rect.unit (s := S64) ![0] S64.size inb_S64_S64_0
abbrev rout2 : Rect S5000x64 := Rect.unit (s := S5000x64) ![0, 0] S5000x64.size inb_S5000x64_S5000x64_0_0

/-- What the result's staging buffer holds after the body, as a function of the operand blocks: the one whole-block
    store, read back. -/
def out2 (x0 : Vec F S5000x64 .f32) (x1 : Vec F S64x64 .f32) (x2 : Vec F S64 .f32) : Vec F S5000x64 .f32 :=
  View.canon [⟨rout2, k2_pay1 (View.ld x0 rin2_0) (View.ld x1 rin2_1) (View.ld x2 rin2_2)⟩]

/-- That one store covers the buffer. -/
theorem cover2 (p0 : Vec F S5000x64 .f32) (y : S5000x64.Idx) :
    ∃ pc ∈ ([⟨rout2, p0⟩] : List (View.Piece (Elt F) S5000x64 .f32)), y ∈ pc.1.set :=
  View.cover_of_tiled [⟨rout2, p0⟩] S5000x64.size (by rfl) y

set_option maxHeartbeats 4000000 in
/-- The body's triple: from the operand buffers at `x…` and the result buffer at anything, it runs to the end without a
    fault, leaves the operand buffers as they were and the result buffer at `out2` of the operands. -/
theorem sound_kernel2 (c : Dev nD) (E : Set ℕ) (i : grid2.Coords) (a0 : Memref sig .tc .vmem S5000x64 .f32) (h0 : a0.IsWhole) (a1 : Memref sig .tc .vmem S64x64 .f32) (h1 : a1.IsWhole) (a2 : Memref sig .tc .vmem S64 .f32) (h2 : a2.IsWhole) (a3 : Memref sig .tc .vmem S5000x64 .f32) (h3 : a3.IsWhole)
    (x0 : Vec F S5000x64 .f32) (x1 : Vec F S64x64 .f32) (x2 : Vec F S64 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out2 x0 x1 x2)) -∗ K ⟨⟩))
      ⊢ wp frame (wpE (defs₀ (F := F)) Variants.none c none) E (cc2__dense_kernel i a0 h0 a1 h1 a2 h2 a3 h3) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The proof data of this call on core `c`: every window's array as the call finds it; after the body at point `t` an
    operand's buffer still holds its block and the result's buffer holds `out2` of the operand blocks; beside the windows
    only the untouched rest of the scoped memory and the generator register; nothing owed to another core. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the pipeline hands the body at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it expects back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At any grid point the operand buffers hold their blocks, so the body's triple applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point obligation of the launch theorem. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.Region3.lean ====
/-
  Pallas call 3 of the program, taken alone: its grid walks the row blocks of the first operand, 5000 rows at a
  time; at every grid point the body reads the current row block and the small operands whole, and overwrites the
  whole 5000-row block of the result with one value computed from what it read. This file states what each
  staging buffer holds around the body at a grid point, proves the body's Hoare triple against those contents,
  and packages both as the proof data and the per-point obligation the pipeline's launch theorem asks for. The
  buffer contents on entry to the call are a parameter `V`.
-/
import proofs.«148738_j38654705664133_1_alg».proof.Proof.Gen.Kernel.Launch
import proofs.«148738_j38654705664133_1_alg».proof.Proof.Gen.Kernel.Skeleton
import proofs.«148738_j38654705664133_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` addresses, cut out of the window's array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An operand's staging buffer holds the operand's current block at every grid point, whether the pipeline copied
    it in at that point or left it from an earlier one (then the block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An operand's staging buffer holds the operand's current block at every grid point, whether the pipeline copied
    it in at that point or left it from an earlier one (then the block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body reads and writes through. -/
abbrev rin3_0 : Rect S5000x64 := Rect.unit (s := S5000x64) ![0, 0] S5000x64.size inb_S5000x64_S5000x64_0_0
abbrev rin3_1 : Rect S64 := Rect.unit (s := S64) ![0] S64.size inb_S64_S64_0
abbrev rout3 : Rect S5000x64 := Rect.unit (s := S5000x64) ![0, 0] S5000x64.size inb_S5000x64_S5000x64_0_0

/-- What the result's staging buffer holds after the body, as a function of the operand blocks: the one whole-block
    store, read back. -/
def out3 (x0 : Vec F S5000x64 .f32) (x1 : Vec F S64 .f32) : Vec F S5000x64 .f32 :=
  View.canon [⟨rout3, k3_pay1 (View.ld x0 rin3_0) (View.ld x1 rin3_1)⟩]

/-- That one store covers the buffer. -/
theorem cover3 (p0 : Vec F S5000x64 .f32) (y : S5000x64.Idx) :
    ∃ pc ∈ ([⟨rout3, p0⟩] : List (View.Piece (Elt F) S5000x64 .f32)), y ∈ pc.1.set :=
  View.cover_of_tiled [⟨rout3, p0⟩] S5000x64.size (by rfl) y

set_option maxHeartbeats 4000000 in
/-- The body's triple: from the operand buffers at `x…` and the result buffer at anything, it runs to the end without a
    fault, leaves the operand buffers as they were and the result buffer at `out3` of the operands. -/
theorem sound_kernel3 (c : Dev nD) (E : Set ℕ) (i : grid3.Coords) (a0 : Memref sig .tc .vmem S5000x64 .f32) (h0 : a0.IsWhole) (a1 : Memref sig .tc .vmem S64 .f32) (h1 : a1.IsWhole) (a2 : Memref sig .tc .vmem S5000x64 .f32) (h2 : a2.IsWhole)
    (x0 : Vec F S5000x64 .f32) (x1 : Vec F S64 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out3 x0 x1)) -∗ K ⟨⟩))
      ⊢ wp frame (wpE (defs₀ (F := F)) Variants.none c none) E (cc3__biasact_kernel i a0 h0 a1 h1 a2 h2) K := by
  simp only [cc3__biasact_kernel_eq_skeleton]; unfold cc3__biasact_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-- The proof data of this call on core `c`: every window's array as the call finds it; after the body at point `t` an
    operand's buffer still holds its block and the result's buffer holds `out3` of the operand blocks; beside the windows
    only the untouched rest of the scoped memory and the generator register; nothing owed to another core. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the pipeline hands the body at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it expects back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- At any grid point the operand buffers hold their blocks, so the body's triple applies; the rest passes through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The per-point obligation of the launch theorem. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KB.Region4.lean ====
/-
  Pallas call 4 of the program, taken alone: its grid walks the row blocks of the first operand, 5000 rows at a
  time; at every grid point the body reads the current row block and the small operands whole, and overwrites the
  whole 5000-row block of the result with one value computed from what it read. This file states what each
  staging buffer holds around the body at a grid point, proves the body's Hoare triple against those contents,
  and packages both as the proof data and the per-point obligation the pipeline's launch theorem asks for. The
  buffer contents on entry to the call are a parameter `V`.
-/
import proofs.«148738_j38654705664133_1_alg».proof.Proof.Gen.Kernel.Launch
import proofs.«148738_j38654705664133_1_alg».proof.Proof.Gen.Kernel.Skeleton
import proofs.«148738_j38654705664133_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` addresses, cut out of the window's array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An operand's staging buffer holds the operand's current block at every grid point, whether the pipeline copied
    it in at that point or left it from an earlier one (then the block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An operand's staging buffer holds the operand's current block at every grid point, whether the pipeline copied
    it in at that point or left it from an earlier one (then the block index has not moved). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An operand's staging buffer holds the operand's current block at every grid point, whether the pipeline copied
    it in at that point or left it from an earlier one (then the block index has not moved). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body reads and writes through. -/
abbrev rin4_0 : Rect S5000x64 := Rect.unit (s := S5000x64) ![0, 0] S5000x64.size inb_S5000x64_S5000x64_0_0
abbrev rin4_1 : Rect S64x64 := Rect.unit (s := S64x64) ![0, 0] S64x64.size inb_S64x64_S64x64_0_0
abbrev rin4_2 : Rect S64 := Rect.unit (s := S64) ![0] S64.size inb_S64_S64_0
abbrev rout4 : Rect S5000x64 := Rect.unit (s := S5000x64) ![0, 0] S5000x64.size inb_S5000x64_S5000x64_0_0

/-- What the result's staging buffer holds after the body, as a function of the operand blocks: the one whole-block
    store, read back. -/
def out4 (x0 : Vec F S5000x64 .f32) (x1 : Vec F S64x64 .f32) (x2 : Vec F S64 .f32) : Vec F S5000x64 .f32 :=
  View.canon [⟨rout4, k4_pay1 (View.ld x0 rin4_0) (View.ld x1 rin4_1) (View.ld x2 rin4_2)⟩]

/-- That one store covers the buffer. -/
theorem cover4 (p0 : Vec F S5000x64 .f32) (y : S5000x64.Idx) :
    ∃ pc ∈ ([⟨rout4, p0⟩] : List (View.Piece (Elt F) S5000x64 .f32)), y ∈ pc.1.set :=
  View.cover_of_tiled [⟨rout4, p0⟩] S5000x64.size (by rfl) y

set_option maxHeartbeats 4000000 in
/-- The body's triple: from the operand buffers at `x…` and the result buffer at anything, it runs to the end without a
    fault, leaves the operand buffers as they were and the result buffer at `out4` of the operands. -/
theorem sound_kernel4 (c : Dev nD) (E : Set ℕ) (i : grid4.Coords) (a0 : Memref sig .tc .vmem S5000x64 .f32) (h0 : a0.IsWhole) (a1 : Memref sig .tc .vmem S64x64 .f32) (h1 : a1.IsWhole) (a2 : Memref sig .tc .vmem S64 .f32) (h2 : a2.IsWhole) (a3 : Memref sig .tc .vmem S5000x64 .f32) (h3 : a3.IsWhole)
    (x0 : Vec F S5000x64 .f32) (x1 : Vec F S64x64 .f32) (x2 : Vec F S64 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out4 x0 x1 x2)) -∗ K ⟨⟩))
      ⊢ wp frame (wpE (defs₀ (F := F)) Variants.none c none) E (cc4__dense_kernel i a0 h0 a1 h1 a2 h2 a3 h3) K := by
  simp only [cc4__dense_kernel_eq_skeleton]; unfold cc4__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4 _)

/-- The proof data of this call on core `c`: every window's array as the call finds it; after the body at point `t` an
    operand's buffer still holds its block and the result's buffer holds `out4` of the operand blocks; beside the windows
    only the untouched rest of the scoped memory and the generator register; nothing owed to another core. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the pipeline hands the body at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it expects back. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- At any grid point the operand buffers hold their blocks, so the body's triple applies; the rest passes through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point obligation of the launch theorem. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.KB.Region5.lean ====
/-
  Pallas call 5 of the program, taken alone: its grid walks the row blocks of the first operand, 5000 rows at a
  time; at every grid point the body reads the current row block and the small operands whole, and overwrites the
  whole 5000-row block of the result with one value computed from what it read. This file states what each
  staging buffer holds around the body at a grid point, proves the body's Hoare triple against those contents,
  and packages both as the proof data and the per-point obligation the pipeline's launch theorem asks for. The
  buffer contents on entry to the call are a parameter `V`.
-/
import proofs.«148738_j38654705664133_1_alg».proof.Proof.Gen.Kernel.Launch
import proofs.«148738_j38654705664133_1_alg».proof.Proof.Gen.Kernel.Skeleton
import proofs.«148738_j38654705664133_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` addresses, cut out of the window's array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An operand's staging buffer holds the operand's current block at every grid point, whether the pipeline copied
    it in at that point or left it from an earlier one (then the block index has not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An operand's staging buffer holds the operand's current block at every grid point, whether the pipeline copied
    it in at that point or left it from an earlier one (then the block index has not moved). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body reads and writes through. -/
abbrev rin5_0 : Rect S5000x64 := Rect.unit (s := S5000x64) ![0, 0] S5000x64.size inb_S5000x64_S5000x64_0_0
abbrev rin5_1 : Rect S64 := Rect.unit (s := S64) ![0] S64.size inb_S64_S64_0
abbrev rout5 : Rect S5000x64 := Rect.unit (s := S5000x64) ![0, 0] S5000x64.size inb_S5000x64_S5000x64_0_0

/-- What the result's staging buffer holds after the body, as a function of the operand blocks: the one whole-block
    store, read back. -/
def out5 (x0 : Vec F S5000x64 .f32) (x1 : Vec F S64 .f32) : Vec F S5000x64 .f32 :=
  View.canon [⟨rout5, k5_pay1 (View.ld x0 rin5_0) (View.ld x1 rin5_1)⟩]

/-- That one store covers the buffer. -/
theorem cover5 (p0 : Vec F S5000x64 .f32) (y : S5000x64.Idx) :
    ∃ pc ∈ ([⟨rout5, p0⟩] : List (View.Piece (Elt F) S5000x64 .f32)), y ∈ pc.1.set :=
  View.cover_of_tiled [⟨rout5, p0⟩] S5000x64.size (by rfl) y

set_option maxHeartbeats 4000000 in
/-- The body's triple: from the operand buffers at `x…` and the result buffer at anything, it runs to the end without a
    fault, leaves the operand buffers as they were and the result buffer at `out5` of the operands. -/
theorem sound_kernel5 (c : Dev nD) (E : Set ℕ) (i : grid5.Coords) (a0 : Memref sig .tc .vmem S5000x64 .f32) (h0 : a0.IsWhole) (a1 : Memref sig .tc .vmem S64 .f32) (h1 : a1.IsWhole) (a2 : Memref sig .tc .vmem S5000x64 .f32) (h2 : a2.IsWhole)
    (x0 : Vec F S5000x64 .f32) (x1 : Vec F S64 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out5 x0 x1)) -∗ K ⟨⟩))
      ⊢ wp frame (wpE (defs₀ (F := F)) Variants.none c none) E (cc5__biasact_kernel i a0 h0 a1 h1 a2 h2) K := by
  simp only [cc5__biasact_kernel_eq_skeleton]; unfold cc5__biasact_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5 _)

/-- The proof data of this call on core `c`: every window's array as the call finds it; after the body at point `t` an
    operand's buffer still holds its block and the result's buffer holds `out5` of the operand blocks; beside the windows
    only the untouched rest of the scoped memory and the generator register; nothing owed to another core. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the pipeline hands the body at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it expects back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- At any grid point the operand buffers hold their blocks, so the body's triple applies; the rest passes through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The per-point obligation of the launch theorem. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.KB.Region6.lean ====
/-
  Pallas call 6 of the program, taken alone: its grid walks the row blocks of the first operand, 5000 rows at a
  time; at every grid point the body reads the current row block and the small operands whole, and overwrites the
  whole 5000-row block of the result with one value computed from what it read. This file states what each
  staging buffer holds around the body at a grid point, proves the body's Hoare triple against those contents,
  and packages both as the proof data and the per-point obligation the pipeline's launch theorem asks for. The
  buffer contents on entry to the call are a parameter `V`.
-/
import proofs.«148738_j38654705664133_1_alg».proof.Proof.Gen.Kernel.Launch
import proofs.«148738_j38654705664133_1_alg».proof.Proof.Gen.Kernel.Skeleton
import proofs.«148738_j38654705664133_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` addresses, cut out of the window's array as the call finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An operand's staging buffer holds the operand's current block at every grid point, whether the pipeline copied
    it in at that point or left it from an earlier one (then the block index has not moved). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An operand's staging buffer holds the operand's current block at every grid point, whether the pipeline copied
    it in at that point or left it from an earlier one (then the block index has not moved). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- An operand's staging buffer holds the operand's current block at every grid point, whether the pipeline copied
    it in at that point or left it from an earlier one (then the block index has not moved). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body reads and writes through. -/
abbrev rin6_0 : Rect S5000x136 := Rect.unit (s := S5000x136) ![0, 0] S5000x136.size inb_S5000x136_S5000x136_0_0
abbrev rin6_1 : Rect S136x1 := Rect.unit (s := S136x1) ![0, 0] S136x1.size inb_S136x1_S136x1_0_0
abbrev rin6_2 : Rect S1 := Rect.unit (s := S1) ![0] S1.size inb_S1_S1_0
abbrev rout6 : Rect S5000x1 := Rect.unit (s := S5000x1) ![0, 0] S5000x1.size inb_S5000x1_S5000x1_0_0

/-- What the result's staging buffer holds after the body, as a function of the operand blocks: the one whole-block
    store, read back. -/
def out6 (x0 : Vec F S5000x136 .f32) (x1 : Vec F S136x1 .f32) (x2 : Vec F S1 .f32) : Vec F S5000x1 .f32 :=
  View.canon [⟨rout6, k6_pay1 (View.ld x0 rin6_0) (View.ld x1 rin6_1) (View.ld x2 rin6_2)⟩]

/-- That one store covers the buffer. -/
theorem cover6 (p0 : Vec F S5000x1 .f32) (y : S5000x1.Idx) :
    ∃ pc ∈ ([⟨rout6, p0⟩] : List (View.Piece (Elt F) S5000x1 .f32)), y ∈ pc.1.set :=
  View.cover_of_tiled [⟨rout6, p0⟩] S5000x1.size (by rfl) y

set_option maxHeartbeats 4000000 in
/-- The body's triple: from the operand buffers at `x…` and the result buffer at anything, it runs to the end without a
    fault, leaves the operand buffers as they were and the result buffer at `out6` of the operands. -/
theorem sound_kernel6 (c : Dev nD) (E : Set ℕ) (i : grid6.Coords) (a0 : Memref sig .tc .vmem S5000x136 .f32) (h0 : a0.IsWhole) (a1 : Memref sig .tc .vmem S136x1 .f32) (h1 : a1.IsWhole) (a2 : Memref sig .tc .vmem S1 .f32) (h2 : a2.IsWhole) (a3 : Memref sig .tc .vmem S5000x1 .f32) (h3 : a3.IsWhole)
    (x0 : Vec F S5000x136 .f32) (x1 : Vec F S136x1 .f32) (x2 : Vec F S1 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out6 x0 x1 x2)) -∗ K ⟨⟩))
      ⊢ wp frame (wpE (defs₀ (F := F)) Variants.none c none) E (cc6__dense_kernel i a0 h0 a1 h1 a2 h2 a3 h3) K := by
  simp only [cc6__dense_kernel_eq_skeleton]; unfold cc6__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6 _)

/-- The proof data of this call on core `c`: every window's array as the call finds it; after the body at point `t` an
    operand's buffer still holds its block and the result's buffer holds `out6` of the operand blocks; beside the windows
    only the untouched rest of the scoped memory and the generator register; nothing owed to another core. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the pipeline hands the body at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it expects back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- At any grid point the operand buffers hold their blocks, so the body's triple applies; the rest passes through. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point obligation of the launch theorem. -/
theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.KB.Bounds.lean ====
/-
  The contents of every TensorCore buffer at each of the sixteen boundaries between the fifteen pieces the
  program runs as: eight stretches of host operations and seven pallas calls. The contents are a fold from the
  launch memory. A host stretch maps the contents before it to the contents after it operation by operation. A
  pallas call leaves every buffer as it found it except its own window arrays, which end at what the pipeline's
  write-backs leave. For each pallas call the two facts the exit of the call needs are stated: its arrays hold
  the pipeline's final contents, and every other buffer is unchanged.
-/
import proofs.«148738_j38654705664133_1_alg».proof.Proof.KB.Region0
import proofs.«148738_j38654705664133_1_alg».proof.Proof.KB.Region1
import proofs.«148738_j38654705664133_1_alg».proof.Proof.KB.Region2
import proofs.«148738_j38654705664133_1_alg».proof.Proof.KB.Region3
import proofs.«148738_j38654705664133_1_alg».proof.Proof.KB.Region4
import proofs.«148738_j38654705664133_1_alg».proof.Proof.KB.Region5
import proofs.«148738_j38654705664133_1_alg».proof.Proof.KB.Region6

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The sixteen boundaries -/

/-- Boundary 0: the buffers of core `c` as launched. -/
abbrev W0 : Dev nD → Valuation τ sig (Elt F) := fun c b => (s₀ m ρ).mem ((c : Dev nD), b)
/-- Boundary 0 read at the TensorCore's references. -/
abbrev V0 : (c : Dev nD) → (b : Ref sig .tc) → Buf (Elt F) ((c : Thread nD τ).loc b) := fun c b => W0 m ρ c b

/-- Boundary 1: boundary 0 pushed through the host stretch `main_part0_ops0`. -/
abbrev W1 : Dev nD → Valuation τ sig (Elt F) := fun c => StableHlo.after main_part0_ops0 (W0 m ρ c)
/-- Boundary 1 read at the TensorCore's references. -/
abbrev V1 : (c : Dev nD) → (b : Ref sig .tc) → Buf (Elt F) ((c : Thread nD τ).loc b) := fun c b => W1 m ρ c b

/-- Boundary 2, the exit of pallas call 0: each of its window arrays holds what the pipeline leaves there after
    the last grid point (an operand as entered, the result with every write-back folded in), and every other
    buffer holds what it held at boundary 1. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Boundary 2 read at the TensorCore's references. -/
abbrev V2 : (c : Dev nD) → (b : Ref sig .tc) → Buf (Elt F) ((c : Thread nD τ).loc b) := fun c b => W2 m ρ c b
/-- At the exit of pallas call 0 each window array holds the pipeline's final contents. -/
theorem hF0 (c : Dev nD) (w : Fin cfg0.W) : (dat0 (V1 m ρ) c).arrAt w cfg0.N = V2 m ρ c (Pipeline.arrRef spec0 w) :=
  (W2_arr m ρ c w).symm
/-- At the exit of pallas call 0 a buffer that is none of its window arrays is unchanged. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Boundary 3, the exit of pallas call 1: each of its window arrays holds what the pipeline leaves there after
    the last grid point (an operand as entered, the result with every write-back folded in), and every other
    buffer holds what it held at boundary 2. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- Boundary 3 read at the TensorCore's references. -/
abbrev V3 : (c : Dev nD) → (b : Ref sig .tc) → Buf (Elt F) ((c : Thread nD τ).loc b) := fun c b => W3 m ρ c b
/-- At the exit of pallas call 1 each window array holds the pipeline's final contents. -/
theorem hF1 (c : Dev nD) (w : Fin cfg1.W) : (dat1 (V2 m ρ) c).arrAt w cfg1.N = V3 m ρ c (Pipeline.arrRef spec1 w) :=
  (W3_arr m ρ c w).symm
/-- At the exit of pallas call 1 a buffer that is none of its window arrays is unchanged. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- Boundary 4: boundary 3 pushed through the host stretch `main_part0_ops1`. -/
abbrev W4 : Dev nD → Valuation τ sig (Elt F) := fun c => StableHlo.after main_part0_ops1 (W3 m ρ c)
/-- Boundary 4 read at the TensorCore's references. -/
abbrev V4 : (c : Dev nD) → (b : Ref sig .tc) → Buf (Elt F) ((c : Thread nD τ).loc b) := fun c b => W4 m ρ c b

/-- Boundary 5, the exit of pallas call 2: each of its window arrays holds what the pipeline leaves there after
    the last grid point (an operand as entered, the result with every write-back folded in), and every other
    buffer holds what it held at boundary 4. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- Boundary 5 read at the TensorCore's references. -/
abbrev V5 : (c : Dev nD) → (b : Ref sig .tc) → Buf (Elt F) ((c : Thread nD τ).loc b) := fun c b => W5 m ρ c b
/-- At the exit of pallas call 2 each window array holds the pipeline's final contents. -/
theorem hF2 (c : Dev nD) (w : Fin cfg2.W) : (dat2 (V4 m ρ) c).arrAt w cfg2.N = V5 m ρ c (Pipeline.arrRef spec2 w) :=
  (W5_arr m ρ c w).symm
/-- At the exit of pallas call 2 a buffer that is none of its window arrays is unchanged. -/
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- Boundary 6: boundary 5 pushed through the host stretch `main_part0_ops2`. -/
abbrev W6 : Dev nD → Valuation τ sig (Elt F) := fun c => StableHlo.after main_part0_ops2 (W5 m ρ c)
/-- Boundary 6 read at the TensorCore's references. -/
abbrev V6 : (c : Dev nD) → (b : Ref sig .tc) → Buf (Elt F) ((c : Thread nD τ).loc b) := fun c b => W6 m ρ c b

/-- Boundary 7: boundary 6 pushed through the host stretch `main_part1_ops0`. -/
abbrev W7 : Dev nD → Valuation τ sig (Elt F) := fun c => StableHlo.after main_part1_ops0 (W6 m ρ c)
/-- Boundary 7 read at the TensorCore's references. -/
abbrev V7 : (c : Dev nD) → (b : Ref sig .tc) → Buf (Elt F) ((c : Thread nD τ).loc b) := fun c b => W7 m ρ c b

/-- Boundary 8, the exit of pallas call 3: each of its window arrays holds what the pipeline leaves there after
    the last grid point (an operand as entered, the result with every write-back folded in), and every other
    buffer holds what it held at boundary 7. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- Boundary 8 read at the TensorCore's references. -/
abbrev V8 : (c : Dev nD) → (b : Ref sig .tc) → Buf (Elt F) ((c : Thread nD τ).loc b) := fun c b => W8 m ρ c b
/-- At the exit of pallas call 3 each window array holds the pipeline's final contents. -/
theorem hF3 (c : Dev nD) (w : Fin cfg3.W) : (dat3 (V7 m ρ) c).arrAt w cfg3.N = V8 m ρ c (Pipeline.arrRef spec3 w) :=
  (W8_arr m ρ c w).symm
/-- At the exit of pallas call 3 a buffer that is none of its window arrays is unchanged. -/
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- Boundary 9, the exit of pallas call 4: each of its window arrays holds what the pipeline leaves there after
    the last grid point (an operand as entered, the result with every write-back folded in), and every other
    buffer holds what it held at boundary 8. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- Boundary 9 read at the TensorCore's references. -/
abbrev V9 : (c : Dev nD) → (b : Ref sig .tc) → Buf (Elt F) ((c : Thread nD τ).loc b) := fun c b => W9 m ρ c b
/-- At the exit of pallas call 4 each window array holds the pipeline's final contents. -/
theorem hF4 (c : Dev nD) (w : Fin cfg4.W) : (dat4 (V8 m ρ) c).arrAt w cfg4.N = V9 m ρ c (Pipeline.arrRef spec4 w) :=
  (W9_arr m ρ c w).symm
/-- At the exit of pallas call 4 a buffer that is none of its window arrays is unchanged. -/
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- Boundary 10: boundary 9 pushed through the host stretch `main_part1_ops1`. -/
abbrev W10 : Dev nD → Valuation τ sig (Elt F) := fun c => StableHlo.after main_part1_ops1 (W9 m ρ c)
/-- Boundary 10 read at the TensorCore's references. -/
abbrev V10 : (c : Dev nD) → (b : Ref sig .tc) → Buf (Elt F) ((c : Thread nD τ).loc b) := fun c b => W10 m ρ c b

/-- Boundary 11: boundary 10 pushed through the host stretch `main_part2_ops0`. -/
abbrev W11 : Dev nD → Valuation τ sig (Elt F) := fun c => StableHlo.after main_part2_ops0 (W10 m ρ c)
/-- Boundary 11 read at the TensorCore's references. -/
abbrev V11 : (c : Dev nD) → (b : Ref sig .tc) → Buf (Elt F) ((c : Thread nD τ).loc b) := fun c b => W11 m ρ c b

/-- Boundary 12, the exit of pallas call 5: each of its window arrays holds what the pipeline leaves there after
    the last grid point (an operand as entered, the result with every write-back folded in), and every other
    buffer holds what it held at boundary 11. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- Boundary 12 read at the TensorCore's references. -/
abbrev V12 : (c : Dev nD) → (b : Ref sig .tc) → Buf (Elt F) ((c : Thread nD τ).loc b) := fun c b => W12 m ρ c b
/-- At the exit of pallas call 5 each window array holds the pipeline's final contents. -/
theorem hF5 (c : Dev nD) (w : Fin cfg5.W) : (dat5 (V11 m ρ) c).arrAt w cfg5.N = V12 m ρ c (Pipeline.arrRef spec5 w) :=
  (W12_arr m ρ c w).symm
/-- At the exit of pallas call 5 a buffer that is none of its window arrays is unchanged. -/
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- Boundary 13: boundary 12 pushed through the host stretch `main_part2_ops1`. -/
abbrev W13 : Dev nD → Valuation τ sig (Elt F) := fun c => StableHlo.after main_part2_ops1 (W12 m ρ c)
/-- Boundary 13 read at the TensorCore's references. -/
abbrev V13 : (c : Dev nD) → (b : Ref sig .tc) → Buf (Elt F) ((c : Thread nD τ).loc b) := fun c b => W13 m ρ c b

/-- Boundary 14, the exit of pallas call 6: each of its window arrays holds what the pipeline leaves there after
    the last grid point (an operand as entered, the result with every write-back folded in), and every other
    buffer holds what it held at boundary 13. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- Boundary 14 read at the TensorCore's references. -/
abbrev V14 : (c : Dev nD) → (b : Ref sig .tc) → Buf (Elt F) ((c : Thread nD τ).loc b) := fun c b => W14 m ρ c b
/-- At the exit of pallas call 6 each window array holds the pipeline's final contents. -/
theorem hF6 (c : Dev nD) (w : Fin cfg6.W) : (dat6 (V13 m ρ) c).arrAt w cfg6.N = V14 m ρ c (Pipeline.arrRef spec6 w) :=
  (W14_arr m ρ c w).symm
/-- At the exit of pallas call 6 a buffer that is none of its window arrays is unchanged. -/
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- Boundary 15: boundary 14 pushed through the host stretch `main_part2_ops2`. -/
abbrev W15 : Dev nD → Valuation τ sig (Elt F) := fun c => StableHlo.after main_part2_ops2 (W14 m ρ c)
/-- Boundary 15 read at the TensorCore's references. -/
abbrev V15 : (c : Dev nD) → (b : Ref sig .tc) → Buf (Elt F) ((c : Thread nD τ).loc b) := fun c b => W15 m ρ c b

end Cert.Kernel.Fr

end
-- ==== Proof.KB.Segs.lean ====
/-
  The program's run cut into fifteen pieces the launch theorem for several pallas calls composes: a host piece per
  stretch of host operations and a region piece per pallas call, each entered from the thread state the piece before
  it leaves. The thread state between pieces is: every unscoped TensorCore buffer at the boundary's contents, the
  core's generator register at some state, and the core owing no signal to any other core. A host piece carries
  that state through its operations. A region piece splits its window arrays out of the unscoped buffers on entry,
  hands the generator register to the pipeline's invariant and takes it back, and on exit puts the arrays back at
  the contents the pipeline left. The last fact of the file: the program is the run of these pieces, in order.
-/
import proofs.«148738_j38654705664133_1_alg».proof.Proof.KB.Bounds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of all seven pipelines and the thread state -/

/-- No pipeline has a prefetched table, so every table assignment is admissible. -/
abbrev adm : (p : Fin 7) → (pcfgs (F := F) p).Adm := fun p => (cfgs p).toPCfg_adm
/-- Every pipeline's proof data, each taken at the contents its pallas call is entered from. A literal case split,
    so that the launch theorem's configuration at a numeral reduces to that pallas call's own. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V7 m ρ) c
  | ⟨4, _⟩ => fun c => dat4 (V8 m ρ) c
  | ⟨5, _⟩ => fun c => dat5 (V11 m ρ) c
  | ⟨6, _⟩ => fun c => dat6 (V13 m ρ) c
abbrev 𝒱₀ : Variants := Variants.none
/-- No core owes another core a signal, so no semaphore pair is assigned a level. -/
abbrev L : GSem nD τ sig → Finset Unit := fun _ => ∅
abbrev lv : GSem nD τ sig → Unit → ℕ := fun _ _ => 0
/-- What accompanies the buffers through every piece: the generator register at some state, and the core's record
    of signals owed, at nothing. -/
abbrev R (c : Dev nD) : sProp 𝕄 := iprop((∃ r, prngReg c r) ∗ ∃ W, owes (c : Thread nD τ) (0 : CellTallies nD τ sig Unit) W)
/-- A stretch of host operations as a piece of the run: from every unscoped buffer at contents `W` to every unscoped
    buffer at those contents pushed through the operations, `R` unchanged beside them. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## No host operation allocates a buffer -/

theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part2_ops1_fresh : (main_part2_ops1 : List (HloOp τ sig (Elt F))).Forall fun op => op.fresh = ∅ := by
  simp only [List.Forall]; repeat' constructor
theorem main_part2_ops2_fresh : (main_part2_ops2 : List (HloOp τ sig (Elt F))).Forall fun op => op.fresh = ∅ := by
  simp only [List.Forall]; repeat' constructor

/-- The thread state the run ends in, without the record of signals owed: every unscoped buffer at the last
    boundary's contents and the generator register at some state. -/
abbrev Tₙ (c : Dev nD) : sProp 𝕄 := iprop(StableHlo.held (c : Thread nD τ) (Pipeline.ucRefs τ sig) (W15 m ρ c) ∗ ∃ r, prngReg c r)

/-! ## The pallas calls as pieces of the run -/

-- applying a library lemma stated over the pinned configuration needs unification to unfold plain definitions
-- inside the types of unassigned terms
set_option backward.isDefEq.respectTransparency.types false in
/-- Pallas call 0: entered from every unscoped buffer at boundary 1, left with every unscoped buffer at boundary
    2. On entry its window arrays are split out of the unscoped buffers and the generator register goes into the
    pipeline's invariant. On exit the register comes back and the arrays rejoin the other buffers at the exit
    contents. Nothing is owed throughout and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions
-- inside the types of unassigned terms
set_option backward.isDefEq.respectTransparency.types false in
/-- Pallas call 1: entered from every unscoped buffer at boundary 2, left with every unscoped buffer at boundary
    3. On entry its window arrays are split out of the unscoped buffers and the generator register goes into the
    pipeline's invariant. On exit the register comes back and the arrays rejoin the other buffers at the exit
    contents. Nothing is owed throughout and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions
-- inside the types of unassigned terms
set_option backward.isDefEq.respectTransparency.types false in
/-- Pallas call 2: entered from every unscoped buffer at boundary 4, left with every unscoped buffer at boundary
    5. On entry its window arrays are split out of the unscoped buffers and the generator register goes into the
    pipeline's invariant. On exit the register comes back and the arrays rejoin the other buffers at the exit
    contents. Nothing is owed throughout and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions
-- inside the types of unassigned terms
set_option backward.isDefEq.respectTransparency.types false in
/-- Pallas call 3: entered from every unscoped buffer at boundary 7, left with every unscoped buffer at boundary
    8. On entry its window arrays are split out of the unscoped buffers and the generator register goes into the
    pipeline's invariant. On exit the register comes back and the arrays rejoin the other buffers at the exit
    contents. Nothing is owed throughout and the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions
-- inside the types of unassigned terms
set_option backward.isDefEq.respectTransparency.types false in
/-- Pallas call 4: entered from every unscoped buffer at boundary 8, left with every unscoped buffer at boundary
    9. On entry its window arrays are split out of the unscoped buffers and the generator register goes into the
    pipeline's invariant. On exit the register comes back and the arrays rejoin the other buffers at the exit
    contents. Nothing is owed throughout and the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions
-- inside the types of unassigned terms
set_option backward.isDefEq.respectTransparency.types false in
/-- Pallas call 5: entered from every unscoped buffer at boundary 11, left with every unscoped buffer at boundary
    12. On entry its window arrays are split out of the unscoped buffers and the generator register goes into the
    pipeline's invariant. On exit the register comes back and the arrays rejoin the other buffers at the exit
    contents. Nothing is owed throughout and the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions
-- inside the types of unassigned terms
set_option backward.isDefEq.respectTransparency.types false in
/-- Pallas call 6: entered from every unscoped buffer at boundary 13, left with every unscoped buffer at boundary
    14. On entry its window arrays are split out of the unscoped buffers and the generator register goes into the
    pipeline's invariant. On exit the register comes back and the arrays rejoin the other buffers at the exit
    contents. Nothing is owed throughout and the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its pieces -/

/-- The fifteen pieces in program order: a host piece per stretch from its boundary's contents, a region piece per
    pallas call. -/
abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .region (reg1 m ρ),
    .host (hseg main_part0_ops1 main_part0_ops1_sub main_part0_ops1_fresh (W3 m ρ)),
    .region (reg2 m ρ),
    .host (hseg main_part0_ops2 main_part0_ops2_sub main_part0_ops2_fresh (W5 m ρ)),
    .host (hseg main_part1_ops0 main_part1_ops0_sub main_part1_ops0_fresh (W6 m ρ)),
    .region (reg3 m ρ),
    .region (reg4 m ρ),
    .host (hseg main_part1_ops1 main_part1_ops1_sub main_part1_ops1_fresh (W9 m ρ)),
    .host (hseg main_part2_ops0 main_part2_ops0_sub main_part2_ops0_fresh (W10 m ρ)),
    .region (reg5 m ρ),
    .host (hseg main_part2_ops1 main_part2_ops1_sub main_part2_ops1_fresh (W12 m ρ)),
    .region (reg6 m ρ),
    .host (hseg main_part2_ops2 main_part2_ops2_sub main_part2_ops2_fresh (W14 m ρ)) ]
/-- The program is the run of its pieces: it is the chain of its items, and the run of the pieces is the same chain. -/
theorem main_run (c : Dev nD) : main (F := F) c = Pipeline.Seg.run (segs m ρ) := (main_chain_windows c).trans (by chain_rfl)

end Cert.Kernel.Fr

end
-- ==== Proof.KB.Run.lean ====
/-
  The run of the whole program. From any launch memory, with every semaphore counter at zero, every weakly fair
  execution of the program on the TensorCores terminates without fault, and in every final state each unscoped
  TensorCore buffer holds the contents the sixteenth boundary names. The proof hands the fifteen pieces to the
  launch theorem for a program of several pallas calls: the pieces' thread states chain one into the next, the
  first is made from what the launch deals out, and the last is read against the final state buffer by buffer.
-/
import proofs.«148738_j38654705664133_1_alg».proof.Proof.KB.Segs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The exit state of the last piece is the final thread state beside the record of signals owed, at nothing: the
    same three conjuncts, bracketed the other way. -/
theorem last_link (c : Dev nD) :
    iprop(StableHlo.held (c : Thread nD τ) (Pipeline.ucRefs τ sig) (W15 m ρ c) ∗ R (F := F) c) ⊢
      iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

-- the launch theorem's implicit arguments are found by unifying its conclusion with the statement, which needs
-- unification to unfold plain definitions inside the types of unassigned terms
set_option backward.isDefEq.respectTransparency.types false in
/-- Every weakly fair execution of the program from launch memory `m` terminates, and every final state has each
    unscoped TensorCore buffer of each core at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

end Cert.Kernel.Fr

end
-- ==== Proof.KB.Args.lean ====
/-
  The program's fourteen arguments end as launched. An argument is one of the first fourteen references in HBM.
  No host operation writes an argument: each writes one reference, and that reference comes after the fourteen.
  No pallas call changes an argument: an argument that is one of its window arrays is an operand, which the
  pipeline only reads, and an argument that is none of its window arrays is bypassed. So the contents of an
  argument's buffer at the last boundary walk back, boundary by boundary, to the launch memory.
-/
import proofs.«148738_j38654705664133_1_alg».proof.Proof.KB.Bounds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Host stretches -/

/-- A reference that fails `P` keeps its contents through a line of operations each of which writes exactly one
    reference, that reference satisfying `P`. -/
theorem after_keeps {P : Ref sig .tc → Prop} (ops : List (HloOp τ sig (Elt F))) (V : Valuation τ sig (Elt F))
    (hW : ops.Forall fun op => ∃ y : Ref sig .tc, P y ∧ op.writes = {Proc.devRef .tc y}) {r : Ref sig .tc} (hr : ¬ P r) :
    StableHlo.after ops V (Proc.devRef .tc r) = V (Proc.devRef .tc r) :=
  StableHlo.after_of_forall_not_mem ops V fun op hop hb => by
    obtain ⟨y, hy, he⟩ := (List.forall_iff_forall_mem.mp hW) op hop
    rw [he, Finset.mem_singleton] at hb
    obtain rfl : r = y := Proc.devRef_injective _ hb
    exact hr hy

/-- Each operation of `main_part0_ops0` writes one reference, and it is not among the first fourteen. -/
theorem main_part0_ops0_writes : (main_part0_ops0 : List (HloOp τ sig (Elt F))).Forall fun op =>
    ∃ y : Ref sig .tc, 14 ≤ y.idx.val ∧ op.writes = {Proc.devRef .tc y} :=
  ⟨⟨_, by decide, rfl⟩, ⟨_, by decide, rfl⟩, ⟨_, by decide, rfl⟩, ⟨_, by decide, rfl⟩⟩

/-- Each operation of `main_part0_ops1` writes one reference, and it is not among the first fourteen. -/
theorem main_part0_ops1_writes : (main_part0_ops1 : List (HloOp τ sig (Elt F))).Forall fun op =>
    ∃ y : Ref sig .tc, 14 ≤ y.idx.val ∧ op.writes = {Proc.devRef .tc y} :=
  ⟨⟨_, by decide, rfl⟩, ⟨_, by decide, rfl⟩⟩

/-- Each operation of `main_part0_ops2` writes one reference, and it is not among the first fourteen. -/
theorem main_part0_ops2_writes : (main_part0_ops2 : List (HloOp τ sig (Elt F))).Forall fun op =>
    ∃ y : Ref sig .tc, 14 ≤ y.idx.val ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩

/-- Each operation of `main_part1_ops0` writes one reference, and it is not among the first fourteen. -/
theorem main_part1_ops0_writes : (main_part1_ops0 : List (HloOp τ sig (Elt F))).Forall fun op =>
    ∃ y : Ref sig .tc, 14 ≤ y.idx.val ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩

/-- Each operation of `main_part1_ops1` writes one reference, and it is not among the first fourteen. -/
theorem main_part1_ops1_writes : (main_part1_ops1 : List (HloOp τ sig (Elt F))).Forall fun op =>
    ∃ y : Ref sig .tc, 14 ≤ y.idx.val ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩

/-- Each operation of `main_part2_ops0` writes one reference, and it is not among the first fourteen. -/
theorem main_part2_ops0_writes : (main_part2_ops0 : List (HloOp τ sig (Elt F))).Forall fun op =>
    ∃ y : Ref sig .tc, 14 ≤ y.idx.val ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩

/-- Each operation of `main_part2_ops1` writes one reference, and it is not among the first fourteen. -/
theorem main_part2_ops1_writes : (main_part2_ops1 : List (HloOp τ sig (Elt F))).Forall fun op =>
    ∃ y : Ref sig .tc, 14 ≤ y.idx.val ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩

/-- Each operation of `main_part2_ops2` writes one reference, and it is not among the first fourteen. -/
theorem main_part2_ops2_writes : (main_part2_ops2 : List (HloOp τ sig (Elt F))).Forall fun op =>
    ∃ y : Ref sig .tc, 14 ≤ y.idx.val ∧ op.writes = {Proc.devRef .tc y} :=
  ⟨_, by decide, rfl⟩

/-! ## Pallas calls -/

/-- A window array of pallas call 0 that is among the first fourteen references is an operand's. -/
theorem arg_in0 : ∀ w : Fin cfg0.W, (Pipeline.arrRef spec0 w).idx.val < 14 → (cfg0.win w).isOut = false := by decide
/-- Pallas call 0 leaves every argument's buffer as it found it. -/
theorem W2_arg (c : Dev nD) (r : Ref sig .tc) (hr : r.idx.val < 14) :
    W2 m ρ c (Proc.devRef .tc r) = W1 m ρ c (Proc.devRef .tc r) := by
  by_cases h : ∃ w, Pipeline.arrRef spec0 w = r
  · obtain ⟨w, rfl⟩ := h
    exact (W2_arr m ρ c w).trans (((dat0 (V1 m ρ) c).arrAt_in w (arg_in0 w hr) _).trans (A_eq0 (V1 m ρ) c w))
  · exact W2_of_ne m ρ c r fun w e => h ⟨w, e⟩

/-- A window array of pallas call 1 that is among the first fourteen references is an operand's. -/
theorem arg_in1 : ∀ w : Fin cfg1.W, (Pipeline.arrRef spec1 w).idx.val < 14 → (cfg1.win w).isOut = false := by decide
/-- Pallas call 1 leaves every argument's buffer as it found it. -/
theorem W3_arg (c : Dev nD) (r : Ref sig .tc) (hr : r.idx.val < 14) :
    W3 m ρ c (Proc.devRef .tc r) = W2 m ρ c (Proc.devRef .tc r) := by
  by_cases h : ∃ w, Pipeline.arrRef spec1 w = r
  · obtain ⟨w, rfl⟩ := h
    exact (W3_arr m ρ c w).trans (((dat1 (V2 m ρ) c).arrAt_in w (arg_in1 w hr) _).trans (A_eq1 (V2 m ρ) c w))
  · exact W3_of_ne m ρ c r fun w e => h ⟨w, e⟩

/-- A window array of pallas call 2 that is among the first fourteen references is an operand's. -/
theorem arg_in2 : ∀ w : Fin cfg2.W, (Pipeline.arrRef spec2 w).idx.val < 14 → (cfg2.win w).isOut = false := by decide
/-- Pallas call 2 leaves every argument's buffer as it found it. -/
theorem W5_arg (c : Dev nD) (r : Ref sig .tc) (hr : r.idx.val < 14) :
    W5 m ρ c (Proc.devRef .tc r) = W4 m ρ c (Proc.devRef .tc r) := by
  by_cases h : ∃ w, Pipeline.arrRef spec2 w = r
  · obtain ⟨w, rfl⟩ := h
    exact (W5_arr m ρ c w).trans (((dat2 (V4 m ρ) c).arrAt_in w (arg_in2 w hr) _).trans (A_eq2 (V4 m ρ) c w))
  · exact W5_of_ne m ρ c r fun w e => h ⟨w, e⟩

/-- A window array of pallas call 3 that is among the first fourteen references is an operand's. -/
theorem arg_in3 : ∀ w : Fin cfg3.W, (Pipeline.arrRef spec3 w).idx.val < 14 → (cfg3.win w).isOut = false := by decide
/-- Pallas call 3 leaves every argument's buffer as it found it. -/
theorem W8_arg (c : Dev nD) (r : Ref sig .tc) (hr : r.idx.val < 14) :
    W8 m ρ c (Proc.devRef .tc r) = W7 m ρ c (Proc.devRef .tc r) := by
  by_cases h : ∃ w, Pipeline.arrRef spec3 w = r
  · obtain ⟨w, rfl⟩ := h
    exact (W8_arr m ρ c w).trans (((dat3 (V7 m ρ) c).arrAt_in w (arg_in3 w hr) _).trans (A_eq3 (V7 m ρ) c w))
  · exact W8_of_ne m ρ c r fun w e => h ⟨w, e⟩

/-- A window array of pallas call 4 that is among the first fourteen references is an operand's. -/
theorem arg_in4 : ∀ w : Fin cfg4.W, (Pipeline.arrRef spec4 w).idx.val < 14 → (cfg4.win w).isOut = false := by decide
/-- Pallas call 4 leaves every argument's buffer as it found it. -/
theorem W9_arg (c : Dev nD) (r : Ref sig .tc) (hr : r.idx.val < 14) :
    W9 m ρ c (Proc.devRef .tc r) = W8 m ρ c (Proc.devRef .tc r) := by
  by_cases h : ∃ w, Pipeline.arrRef spec4 w = r
  · obtain ⟨w, rfl⟩ := h
    exact (W9_arr m ρ c w).trans (((dat4 (V8 m ρ) c).arrAt_in w (arg_in4 w hr) _).trans (A_eq4 (V8 m ρ) c w))
  · exact W9_of_ne m ρ c r fun w e => h ⟨w, e⟩

/-- A window array of pallas call 5 that is among the first fourteen references is an operand's. -/
theorem arg_in5 : ∀ w : Fin cfg5.W, (Pipeline.arrRef spec5 w).idx.val < 14 → (cfg5.win w).isOut = false := by decide
/-- Pallas call 5 leaves every argument's buffer as it found it. -/
theorem W12_arg (c : Dev nD) (r : Ref sig .tc) (hr : r.idx.val < 14) :
    W12 m ρ c (Proc.devRef .tc r) = W11 m ρ c (Proc.devRef .tc r) := by
  by_cases h : ∃ w, Pipeline.arrRef spec5 w = r
  · obtain ⟨w, rfl⟩ := h
    exact (W12_arr m ρ c w).trans (((dat5 (V11 m ρ) c).arrAt_in w (arg_in5 w hr) _).trans (A_eq5 (V11 m ρ) c w))
  · exact W12_of_ne m ρ c r fun w e => h ⟨w, e⟩

/-- A window array of pallas call 6 that is among the first fourteen references is an operand's. -/
theorem arg_in6 : ∀ w : Fin cfg6.W, (Pipeline.arrRef spec6 w).idx.val < 14 → (cfg6.win w).isOut = false := by decide
/-- Pallas call 6 leaves every argument's buffer as it found it. -/
theorem W14_arg (c : Dev nD) (r : Ref sig .tc) (hr : r.idx.val < 14) :
    W14 m ρ c (Proc.devRef .tc r) = W13 m ρ c (Proc.devRef .tc r) := by
  by_cases h : ∃ w, Pipeline.arrRef spec6 w = r
  · obtain ⟨w, rfl⟩ := h
    exact (W14_arr m ρ c w).trans (((dat6 (V13 m ρ) c).arrAt_in w (arg_in6 w hr) _).trans (A_eq6 (V13 m ρ) c w))
  · exact W14_of_ne m ρ c r fun w e => h ⟨w, e⟩

/-! ## From the last boundary back to the launch -/

/-- An argument's buffer holds at the last boundary what it held at launch. -/
theorem W15_arg (c : Dev nD) (r : Ref sig .tc) (hr : r.idx.val < 14) :
    W15 m ρ c (Proc.devRef .tc r) = W0 m ρ c (Proc.devRef .tc r) :=
  have hn : ¬ 14 ≤ r.idx.val := Nat.not_le.mpr hr
  calc W15 m ρ c (Proc.devRef .tc r)
    _ = W14 m ρ c (Proc.devRef .tc r) := after_keeps (P := fun y => 14 ≤ y.idx.val) main_part2_ops2 (W14 m ρ c) main_part2_ops2_writes hn
    _ = W13 m ρ c (Proc.devRef .tc r) := W14_arg m ρ c r hr
    _ = W12 m ρ c (Proc.devRef .tc r) := after_keeps (P := fun y => 14 ≤ y.idx.val) main_part2_ops1 (W12 m ρ c) main_part2_ops1_writes hn
    _ = W11 m ρ c (Proc.devRef .tc r) := W12_arg m ρ c r hr
    _ = W10 m ρ c (Proc.devRef .tc r) := after_keeps (P := fun y => 14 ≤ y.idx.val) main_part2_ops0 (W10 m ρ c) main_part2_ops0_writes hn
    _ = W9 m ρ c (Proc.devRef .tc r) := after_keeps (P := fun y => 14 ≤ y.idx.val) main_part1_ops1 (W9 m ρ c) main_part1_ops1_writes hn
    _ = W8 m ρ c (Proc.devRef .tc r) := W9_arg m ρ c r hr
    _ = W7 m ρ c (Proc.devRef .tc r) := W8_arg m ρ c r hr
    _ = W6 m ρ c (Proc.devRef .tc r) := after_keeps (P := fun y => 14 ≤ y.idx.val) main_part1_ops0 (W6 m ρ c) main_part1_ops0_writes hn
    _ = W5 m ρ c (Proc.devRef .tc r) := after_keeps (P := fun y => 14 ≤ y.idx.val) main_part0_ops2 (W5 m ρ c) main_part0_ops2_writes hn
    _ = W4 m ρ c (Proc.devRef .tc r) := W5_arg m ρ c r hr
    _ = W3 m ρ c (Proc.devRef .tc r) := after_keeps (P := fun y => 14 ≤ y.idx.val) main_part0_ops1 (W3 m ρ c) main_part0_ops1_writes hn
    _ = W2 m ρ c (Proc.devRef .tc r) := W3_arg m ρ c r hr
    _ = W1 m ρ c (Proc.devRef .tc r) := W2_arg m ρ c r hr
    _ = W0 m ρ c (Proc.devRef .tc r) := after_keeps (P := fun y => 14 ≤ y.idx.val) main_part0_ops0 (W0 m ρ c) main_part0_ops0_writes hn

theorem W15_main_arg0 (c : Dev nD) : W15 m ρ c (Proc.devRef .tc main_arg0) = m ((c : Thread nD τ).loc main_arg0) :=
  (W15_arg m ρ c main_arg0 (by decide)).trans rfl
theorem W15_main_arg1 (c : Dev nD) : W15 m ρ c (Proc.devRef .tc main_arg1) = m ((c : Thread nD τ).loc main_arg1) :=
  (W15_arg m ρ c main_arg1 (by decide)).trans rfl
theorem W15_main_arg2 (c : Dev nD) : W15 m ρ c (Proc.devRef .tc main_arg2) = m ((c : Thread nD τ).loc main_arg2) :=
  (W15_arg m ρ c main_arg2 (by decide)).trans rfl
theorem W15_main_arg3 (c : Dev nD) : W15 m ρ c (Proc.devRef .tc main_arg3) = m ((c : Thread nD τ).loc main_arg3) :=
  (W15_arg m ρ c main_arg3 (by decide)).trans rfl
theorem W15_main_arg4 (c : Dev nD) : W15 m ρ c (Proc.devRef .tc main_arg4) = m ((c : Thread nD τ).loc main_arg4) :=
  (W15_arg m ρ c main_arg4 (by decide)).trans rfl
theorem W15_main_arg5 (c : Dev nD) : W15 m ρ c (Proc.devRef .tc main_arg5) = m ((c : Thread nD τ).loc main_arg5) :=
  (W15_arg m ρ c main_arg5 (by decide)).trans rfl
theorem W15_main_arg6 (c : Dev nD) : W15 m ρ c (Proc.devRef .tc main_arg6) = m ((c : Thread nD τ).loc main_arg6) :=
  (W15_arg m ρ c main_arg6 (by decide)).trans rfl
theorem W15_main_arg7 (c : Dev nD) : W15 m ρ c (Proc.devRef .tc main_arg7) = m ((c : Thread nD τ).loc main_arg7) :=
  (W15_arg m ρ c main_arg7 (by decide)).trans rfl
theorem W15_main_arg8 (c : Dev nD) : W15 m ρ c (Proc.devRef .tc main_arg8) = m ((c : Thread nD τ).loc main_arg8) :=
  (W15_arg m ρ c main_arg8 (by decide)).trans rfl
theorem W15_main_arg9 (c : Dev nD) : W15 m ρ c (Proc.devRef .tc main_arg9) = m ((c : Thread nD τ).loc main_arg9) :=
  (W15_arg m ρ c main_arg9 (by decide)).trans rfl
theorem W15_main_arg10 (c : Dev nD) : W15 m ρ c (Proc.devRef .tc main_arg10) = m ((c : Thread nD τ).loc main_arg10) :=
  (W15_arg m ρ c main_arg10 (by decide)).trans rfl
theorem W15_main_arg11 (c : Dev nD) : W15 m ρ c (Proc.devRef .tc main_arg11) = m ((c : Thread nD τ).loc main_arg11) :=
  (W15_arg m ρ c main_arg11 (by decide)).trans rfl
theorem W15_main_arg12 (c : Dev nD) : W15 m ρ c (Proc.devRef .tc main_arg12) = m ((c : Thread nD τ).loc main_arg12) :=
  (W15_arg m ρ c main_arg12 (by decide)).trans rfl
theorem W15_main_arg13 (c : Dev nD) : W15 m ρ c (Proc.devRef .tc main_arg13) = m ((c : Thread nD τ).loc main_arg13) :=
  (W15_arg m ρ c main_arg13 (by decide)).trans rfl

end Cert.Kernel.Fr

end
-- ==== Proof.FrameKB.lean ====
/-
  The frame of the word-level kernel program: under the precondition (not used) every weakly fair execution terminates
  without fault, and each of the fourteen argument arrays ends as launched. The run of the program ends with every
  unscoped buffer at the last boundary's contents; no host operation writes an argument and every pallas call only
  reads arguments, so the last boundary's contents at an argument are the launch contents.
-/
import proofs.«148738_j38654705664133_1_alg».proof.Defs
import proofs.«148738_j38654705664133_1_alg».proof.Proof.Gen.Kernel
import proofs.«148738_j38654705664133_1_alg».proof.Proof.Gen.Pre_finite_inputs
import proofs.«148738_j38654705664133_1_alg».proof.Proof.KB.Run
import proofs.«148738_j38654705664133_1_alg».proof.Proof.KB.Args

set_option maxRecDepth 16384

noncomputable section

namespace Cert.Proof

open Idealize.ShloMosaic Idealize.ShloMosaic.TcCoe Idealize.SL.Sem

theorem frame_kb : Cert.frame_Kernel := fun m ρ _ =>
  (θ_run (Cert.Kernel.defs (F := Bits)) _ _).mono (fun r h c => ⟨
    (h c _ (Cert.Kernel.Fr.mem_uc Cert.Kernel.main_arg0 (by decide))).trans (Cert.Kernel.Fr.W15_main_arg0 m ρ c),
    (h c _ (Cert.Kernel.Fr.mem_uc Cert.Kernel.main_arg1 (by decide))).trans (Cert.Kernel.Fr.W15_main_arg1 m ρ c),
    (h c _ (Cert.Kernel.Fr.mem_uc Cert.Kernel.main_arg2 (by decide))).trans (Cert.Kernel.Fr.W15_main_arg2 m ρ c),
    (h c _ (Cert.Kernel.Fr.mem_uc Cert.Kernel.main_arg3 (by decide))).trans (Cert.Kernel.Fr.W15_main_arg3 m ρ c),
    (h c _ (Cert.Kernel.Fr.mem_uc Cert.Kernel.main_arg4 (by decide))).trans (Cert.Kernel.Fr.W15_main_arg4 m ρ c),
    (h c _ (Cert.Kernel.Fr.mem_uc Cert.Kernel.main_arg5 (by decide))).trans (Cert.Kernel.Fr.W15_main_arg5 m ρ c),
    (h c _ (Cert.Kernel.Fr.mem_uc Cert.Kernel.main_arg6 (by decide))).trans (Cert.Kernel.Fr.W15_main_arg6 m ρ c),
    (h c _ (Cert.Kernel.Fr.mem_uc Cert.Kernel.main_arg7 (by decide))).trans (Cert.Kernel.Fr.W15_main_arg7 m ρ c),
    (h c _ (Cert.Kernel.Fr.mem_uc Cert.Kernel.main_arg8 (by decide))).trans (Cert.Kernel.Fr.W15_main_arg8 m ρ c),
    (h c _ (Cert.Kernel.Fr.mem_uc Cert.Kernel.main_arg9 (by decide))).trans (Cert.Kernel.Fr.W15_main_arg9 m ρ c),
    (h c _ (Cert.Kernel.Fr.mem_uc Cert.Kernel.main_arg10 (by decide))).trans (Cert.Kernel.Fr.W15_main_arg10 m ρ c),
    (h c _ (Cert.Kernel.Fr.mem_uc Cert.Kernel.main_arg11 (by decide))).trans (Cert.Kernel.Fr.W15_main_arg11 m ρ c),
    (h c _ (Cert.Kernel.Fr.mem_uc Cert.Kernel.main_arg12 (by decide))).trans (Cert.Kernel.Fr.W15_main_arg12 m ρ c),
    (h c _ (Cert.Kernel.Fr.mem_uc Cert.Kernel.main_arg13 (by decide))).trans (Cert.Kernel.Fr.W15_main_arg13 m ρ c)⟩)
    (Cert.Kernel.Fr.run_main (F := Bits) m ρ)

end Cert.Proof

end
-- ==== Proof.KI.Region0.lean ====
/-
  Pallas call 0 of the program, taken alone: its grid walks the row blocks of the first operand, 5000 rows at a
  time; at every grid point the body reads the current row block and the small operands whole, and overwrites the
  whole 5000-row block of the result with one value computed from what it read. This file states what each
  staging buffer holds around the body at a grid point, proves the body's Hoare triple against those contents,
  and packages both as the proof data and the per-point obligation the pipeline's launch theorem asks for. The
  buffer contents on entry to the call are a parameter `V`.
-/
import proofs.«148738_j38654705664133_1_alg».proof.Proof.Gen.KernelIdeal.Launch
import proofs.«148738_j38654705664133_1_alg».proof.Proof.Gen.KernelIdeal.Skeleton
import proofs.«148738_j38654705664133_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` addresses, cut out of the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand's staging buffer holds the operand's current block at every grid point, whether the pipeline copied
    it in at that point or left it from an earlier one (then the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An operand's staging buffer holds the operand's current block at every grid point, whether the pipeline copied
    it in at that point or left it from an earlier one (then the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An operand's staging buffer holds the operand's current block at every grid point, whether the pipeline copied
    it in at that point or left it from an earlier one (then the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev rin0_0 : Rect S5000x256 := Rect.unit (s := S5000x256) ![0, 0] S5000x256.size inb_S5000x256_S5000x256_0_0
abbrev rin0_1 : Rect S256x128 := Rect.unit (s := S256x128) ![0, 0] S256x128.size inb_S256x128_S256x128_0_0
abbrev rin0_2 : Rect S128 := Rect.unit (s := S128) ![0] S128.size inb_S128_S128_0
abbrev rout0 : Rect S5000x128 := Rect.unit (s := S5000x128) ![0, 0] S5000x128.size inb_S5000x128_S5000x128_0_0

/-- What the result's staging buffer holds after the body, as a function of the operand blocks: the one whole-block
    store, read back. -/
def out0 (x0 : Vec F S5000x256 .f32) (x1 : Vec F S256x128 .f32) (x2 : Vec F S128 .f32) : Vec F S5000x128 .f32 :=
  View.canon [⟨rout0, k0_pay1 (View.ld x0 rin0_0) (View.ld x1 rin0_1) (View.ld x2 rin0_2)⟩]

/-- That one store covers the buffer. -/
theorem cover0 (p0 : Vec F S5000x128 .f32) (y : S5000x128.Idx) :
    ∃ pc ∈ ([⟨rout0, p0⟩] : List (View.Piece (Elt F) S5000x128 .f32)), y ∈ pc.1.set :=
  View.cover_of_tiled [⟨rout0, p0⟩] S5000x128.size (by rfl) y

set_option maxHeartbeats 4000000 in
/-- The body's triple: from the operand buffers at `x…` and the result buffer at anything, it runs to the end without a
    fault, leaves the operand buffers as they were and the result buffer at `out0` of the operands. -/
theorem sound_kernel0 (c : Dev nD) (E : Set ℕ) (i : grid0.Coords) (a0 : Memref sig .tc .vmem S5000x256 .f32) (h0 : a0.IsWhole) (a1 : Memref sig .tc .vmem S256x128 .f32) (h1 : a1.IsWhole) (a2 : Memref sig .tc .vmem S128 .f32) (h2 : a2.IsWhole) (a3 : Memref sig .tc .vmem S5000x128 .f32) (h3 : a3.IsWhole)
    (x0 : Vec F S5000x256 .f32) (x1 : Vec F S256x128 .f32) (x2 : Vec F S128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out0 x0 x1 x2)) -∗ K ⟨⟩))
      ⊢ wp frame (wpE (defs₀ (F := F)) Variants.none c none) E (cc0__dense_kernel i a0 h0 a1 h1 a2 h2 a3 h3) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The proof data of this call on core `c`: every window's array as the call finds it; after the body at point `t` an
    operand's buffer still holds its block and the result's buffer holds `out0` of the operand blocks; beside the windows
    only the untouched rest of the scoped memory and the generator register; nothing owed to another core. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the pipeline hands the body at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it expects back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any grid point the operand buffers hold their blocks, so the body's triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point obligation of the launch theorem. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1.lean ====
/-
  Pallas call 1 of the program, taken alone: its grid walks the row blocks of the first operand, 5000 rows at a
  time; at every grid point the body reads the current row block and the small operands whole, and overwrites the
  whole 5000-row block of the result with one value computed from what it read. This file states what each
  staging buffer holds around the body at a grid point, proves the body's Hoare triple against those contents,
  and packages both as the proof data and the per-point obligation the pipeline's launch theorem asks for. The
  buffer contents on entry to the call are a parameter `V`.
-/
import proofs.«148738_j38654705664133_1_alg».proof.Proof.Gen.KernelIdeal.Launch
import proofs.«148738_j38654705664133_1_alg».proof.Proof.Gen.KernelIdeal.Skeleton
import proofs.«148738_j38654705664133_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` addresses, cut out of the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand's staging buffer holds the operand's current block at every grid point, whether the pipeline copied
    it in at that point or left it from an earlier one (then the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An operand's staging buffer holds the operand's current block at every grid point, whether the pipeline copied
    it in at that point or left it from an earlier one (then the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An operand's staging buffer holds the operand's current block at every grid point, whether the pipeline copied
    it in at that point or left it from an earlier one (then the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes through. -/
abbrev rin1_0 : Rect S5000x128 := Rect.unit (s := S5000x128) ![0, 0] S5000x128.size inb_S5000x128_S5000x128_0_0
abbrev rin1_1 : Rect S128x64 := Rect.unit (s := S128x64) ![0, 0] S128x64.size inb_S128x64_S128x64_0_0
abbrev rin1_2 : Rect S64 := Rect.unit (s := S64) ![0] S64.size inb_S64_S64_0
abbrev rout1 : Rect S5000x64 := Rect.unit (s := S5000x64) ![0, 0] S5000x64.size inb_S5000x64_S5000x64_0_0

/-- What the result's staging buffer holds after the body, as a function of the operand blocks: the one whole-block
    store, read back. -/
def out1 (x0 : Vec F S5000x128 .f32) (x1 : Vec F S128x64 .f32) (x2 : Vec F S64 .f32) : Vec F S5000x64 .f32 :=
  View.canon [⟨rout1, k1_pay1 (View.ld x0 rin1_0) (View.ld x1 rin1_1) (View.ld x2 rin1_2)⟩]

/-- That one store covers the buffer. -/
theorem cover1 (p0 : Vec F S5000x64 .f32) (y : S5000x64.Idx) :
    ∃ pc ∈ ([⟨rout1, p0⟩] : List (View.Piece (Elt F) S5000x64 .f32)), y ∈ pc.1.set :=
  View.cover_of_tiled [⟨rout1, p0⟩] S5000x64.size (by rfl) y

set_option maxHeartbeats 4000000 in
/-- The body's triple: from the operand buffers at `x…` and the result buffer at anything, it runs to the end without a
    fault, leaves the operand buffers as they were and the result buffer at `out1` of the operands. -/
theorem sound_kernel1 (c : Dev nD) (E : Set ℕ) (i : grid1.Coords) (a0 : Memref sig .tc .vmem S5000x128 .f32) (h0 : a0.IsWhole) (a1 : Memref sig .tc .vmem S128x64 .f32) (h1 : a1.IsWhole) (a2 : Memref sig .tc .vmem S64 .f32) (h2 : a2.IsWhole) (a3 : Memref sig .tc .vmem S5000x64 .f32) (h3 : a3.IsWhole)
    (x0 : Vec F S5000x128 .f32) (x1 : Vec F S128x64 .f32) (x2 : Vec F S64 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1 x0 x1 x2)) -∗ K ⟨⟩))
      ⊢ wp frame (wpE (defs₀ (F := F)) Variants.none c none) E (cc1__dense_kernel i a0 h0 a1 h1 a2 h2 a3 h3) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The proof data of this call on core `c`: every window's array as the call finds it; after the body at point `t` an
    operand's buffer still holds its block and the result's buffer holds `out1` of the operand blocks; beside the windows
    only the untouched rest of the scoped memory and the generator register; nothing owed to another core. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the pipeline hands the body at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it expects back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At any grid point the operand buffers hold their blocks, so the body's triple applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point obligation of the launch theorem. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Region2.lean ====
/-
  Pallas call 2 of the program, taken alone: its grid walks the row blocks of the first operand, 5000 rows at a
  time; at every grid point the body reads the current row block and the small operands whole, and overwrites the
  whole 5000-row block of the result with one value computed from what it read. This file states what each
  staging buffer holds around the body at a grid point, proves the body's Hoare triple against those contents,
  and packages both as the proof data and the per-point obligation the pipeline's launch theorem asks for. The
  buffer contents on entry to the call are a parameter `V`.
-/
import proofs.«148738_j38654705664133_1_alg».proof.Proof.Gen.KernelIdeal.Launch
import proofs.«148738_j38654705664133_1_alg».proof.Proof.Gen.KernelIdeal.Skeleton
import proofs.«148738_j38654705664133_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` addresses, cut out of the window's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An operand's staging buffer holds the operand's current block at every grid point, whether the pipeline copied
    it in at that point or left it from an earlier one (then the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An operand's staging buffer holds the operand's current block at every grid point, whether the pipeline copied
    it in at that point or left it from an earlier one (then the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An operand's staging buffer holds the operand's current block at every grid point, whether the pipeline copied
    it in at that point or left it from an earlier one (then the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body reads and writes through. -/
abbrev rin2_0 : Rect S5000x64 := Rect.unit (s := S5000x64) ![0, 0] S5000x64.size inb_S5000x64_S5000x64_0_0
abbrev rin2_1 : Rect S64x64 := Rect.unit (s := S64x64) ![0, 0] S64x64.size inb_S64x64_S64x64_0_0
abbrev rin2_2 : Rect S64 := Rect.unit (s := S64) ![0] S64.size inb_S64_S64_0
abbrev rout2 : Rect S5000x64 := Rect.unit (s := S5000x64) ![0, 0] S5000x64.size inb_S5000x64_S5000x64_0_0

/-- What the result's staging buffer holds after the body, as a function of the operand blocks: the one whole-block
    store, read back. -/
def out2 (x0 : Vec F S5000x64 .f32) (x1 : Vec F S64x64 .f32) (x2 : Vec F S64 .f32) : Vec F S5000x64 .f32 :=
  View.canon [⟨rout2, k2_pay1 (View.ld x0 rin2_0) (View.ld x1 rin2_1) (View.ld x2 rin2_2)⟩]

/-- That one store covers the buffer. -/
theorem cover2 (p0 : Vec F S5000x64 .f32) (y : S5000x64.Idx) :
    ∃ pc ∈ ([⟨rout2, p0⟩] : List (View.Piece (Elt F) S5000x64 .f32)), y ∈ pc.1.set :=
  View.cover_of_tiled [⟨rout2, p0⟩] S5000x64.size (by rfl) y

set_option maxHeartbeats 4000000 in
/-- The body's triple: from the operand buffers at `x…` and the result buffer at anything, it runs to the end without a
    fault, leaves the operand buffers as they were and the result buffer at `out2` of the operands. -/
theorem sound_kernel2 (c : Dev nD) (E : Set ℕ) (i : grid2.Coords) (a0 : Memref sig .tc .vmem S5000x64 .f32) (h0 : a0.IsWhole) (a1 : Memref sig .tc .vmem S64x64 .f32) (h1 : a1.IsWhole) (a2 : Memref sig .tc .vmem S64 .f32) (h2 : a2.IsWhole) (a3 : Memref sig .tc .vmem S5000x64 .f32) (h3 : a3.IsWhole)
    (x0 : Vec F S5000x64 .f32) (x1 : Vec F S64x64 .f32) (x2 : Vec F S64 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out2 x0 x1 x2)) -∗ K ⟨⟩))
      ⊢ wp frame (wpE (defs₀ (F := F)) Variants.none c none) E (cc2__dense_kernel i a0 h0 a1 h1 a2 h2 a3 h3) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The proof data of this call on core `c`: every window's array as the call finds it; after the body at point `t` an
    operand's buffer still holds its block and the result's buffer holds `out2` of the operand blocks; beside the windows
    only the untouched rest of the scoped memory and the generator register; nothing owed to another core. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the pipeline hands the body at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it expects back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At any grid point the operand buffers hold their blocks, so the body's triple applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point obligation of the launch theorem. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Region3.lean ====
/-
  Pallas call 3 of the program, taken alone: its grid walks the row blocks of the first operand, 5000 rows at a
  time; at every grid point the body reads the current row block and the small operands whole, and overwrites the
  whole 5000-row block of the result with one value computed from what it read. This file states what each
  staging buffer holds around the body at a grid point, proves the body's Hoare triple against those contents,
  and packages both as the proof data and the per-point obligation the pipeline's launch theorem asks for. The
  buffer contents on entry to the call are a parameter `V`.
-/
import proofs.«148738_j38654705664133_1_alg».proof.Proof.Gen.KernelIdeal.Launch
import proofs.«148738_j38654705664133_1_alg».proof.Proof.Gen.KernelIdeal.Skeleton
import proofs.«148738_j38654705664133_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` addresses, cut out of the window's array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An operand's staging buffer holds the operand's current block at every grid point, whether the pipeline copied
    it in at that point or left it from an earlier one (then the block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An operand's staging buffer holds the operand's current block at every grid point, whether the pipeline copied
    it in at that point or left it from an earlier one (then the block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body reads and writes through. -/
abbrev rin3_0 : Rect S5000x64 := Rect.unit (s := S5000x64) ![0, 0] S5000x64.size inb_S5000x64_S5000x64_0_0
abbrev rin3_1 : Rect S64 := Rect.unit (s := S64) ![0] S64.size inb_S64_S64_0
abbrev rout3 : Rect S5000x64 := Rect.unit (s := S5000x64) ![0, 0] S5000x64.size inb_S5000x64_S5000x64_0_0

/-- What the result's staging buffer holds after the body, as a function of the operand blocks: the one whole-block
    store, read back. -/
def out3 (x0 : Vec F S5000x64 .f32) (x1 : Vec F S64 .f32) : Vec F S5000x64 .f32 :=
  View.canon [⟨rout3, k3_pay1 (View.ld x0 rin3_0) (View.ld x1 rin3_1)⟩]

/-- That one store covers the buffer. -/
theorem cover3 (p0 : Vec F S5000x64 .f32) (y : S5000x64.Idx) :
    ∃ pc ∈ ([⟨rout3, p0⟩] : List (View.Piece (Elt F) S5000x64 .f32)), y ∈ pc.1.set :=
  View.cover_of_tiled [⟨rout3, p0⟩] S5000x64.size (by rfl) y

set_option maxHeartbeats 4000000 in
/-- The body's triple: from the operand buffers at `x…` and the result buffer at anything, it runs to the end without a
    fault, leaves the operand buffers as they were and the result buffer at `out3` of the operands. -/
theorem sound_kernel3 (c : Dev nD) (E : Set ℕ) (i : grid3.Coords) (a0 : Memref sig .tc .vmem S5000x64 .f32) (h0 : a0.IsWhole) (a1 : Memref sig .tc .vmem S64 .f32) (h1 : a1.IsWhole) (a2 : Memref sig .tc .vmem S5000x64 .f32) (h2 : a2.IsWhole)
    (x0 : Vec F S5000x64 .f32) (x1 : Vec F S64 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out3 x0 x1)) -∗ K ⟨⟩))
      ⊢ wp frame (wpE (defs₀ (F := F)) Variants.none c none) E (cc3__biasact_kernel i a0 h0 a1 h1 a2 h2) K := by
  simp only [cc3__biasact_kernel_eq_skeleton]; unfold cc3__biasact_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-- The proof data of this call on core `c`: every window's array as the call finds it; after the body at point `t` an
    operand's buffer still holds its block and the result's buffer holds `out3` of the operand blocks; beside the windows
    only the untouched rest of the scoped memory and the generator register; nothing owed to another core. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the pipeline hands the body at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it expects back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- At any grid point the operand buffers hold their blocks, so the body's triple applies; the rest passes through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The per-point obligation of the launch theorem. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Region4.lean ====
/-
  Pallas call 4 of the program, taken alone: its grid walks the row blocks of the first operand, 5000 rows at a
  time; at every grid point the body reads the current row block and the small operands whole, and overwrites the
  whole 5000-row block of the result with one value computed from what it read. This file states what each
  staging buffer holds around the body at a grid point, proves the body's Hoare triple against those contents,
  and packages both as the proof data and the per-point obligation the pipeline's launch theorem asks for. The
  buffer contents on entry to the call are a parameter `V`.
-/
import proofs.«148738_j38654705664133_1_alg».proof.Proof.Gen.KernelIdeal.Launch
import proofs.«148738_j38654705664133_1_alg».proof.Proof.Gen.KernelIdeal.Skeleton
import proofs.«148738_j38654705664133_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` addresses, cut out of the window's array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An operand's staging buffer holds the operand's current block at every grid point, whether the pipeline copied
    it in at that point or left it from an earlier one (then the block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An operand's staging buffer holds the operand's current block at every grid point, whether the pipeline copied
    it in at that point or left it from an earlier one (then the block index has not moved). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An operand's staging buffer holds the operand's current block at every grid point, whether the pipeline copied
    it in at that point or left it from an earlier one (then the block index has not moved). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body reads and writes through. -/
abbrev rin4_0 : Rect S5000x64 := Rect.unit (s := S5000x64) ![0, 0] S5000x64.size inb_S5000x64_S5000x64_0_0
abbrev rin4_1 : Rect S64x64 := Rect.unit (s := S64x64) ![0, 0] S64x64.size inb_S64x64_S64x64_0_0
abbrev rin4_2 : Rect S64 := Rect.unit (s := S64) ![0] S64.size inb_S64_S64_0
abbrev rout4 : Rect S5000x64 := Rect.unit (s := S5000x64) ![0, 0] S5000x64.size inb_S5000x64_S5000x64_0_0

/-- What the result's staging buffer holds after the body, as a function of the operand blocks: the one whole-block
    store, read back. -/
def out4 (x0 : Vec F S5000x64 .f32) (x1 : Vec F S64x64 .f32) (x2 : Vec F S64 .f32) : Vec F S5000x64 .f32 :=
  View.canon [⟨rout4, k4_pay1 (View.ld x0 rin4_0) (View.ld x1 rin4_1) (View.ld x2 rin4_2)⟩]

/-- That one store covers the buffer. -/
theorem cover4 (p0 : Vec F S5000x64 .f32) (y : S5000x64.Idx) :
    ∃ pc ∈ ([⟨rout4, p0⟩] : List (View.Piece (Elt F) S5000x64 .f32)), y ∈ pc.1.set :=
  View.cover_of_tiled [⟨rout4, p0⟩] S5000x64.size (by rfl) y

set_option maxHeartbeats 4000000 in
/-- The body's triple: from the operand buffers at `x…` and the result buffer at anything, it runs to the end without a
    fault, leaves the operand buffers as they were and the result buffer at `out4` of the operands. -/
theorem sound_kernel4 (c : Dev nD) (E : Set ℕ) (i : grid4.Coords) (a0 : Memref sig .tc .vmem S5000x64 .f32) (h0 : a0.IsWhole) (a1 : Memref sig .tc .vmem S64x64 .f32) (h1 : a1.IsWhole) (a2 : Memref sig .tc .vmem S64 .f32) (h2 : a2.IsWhole) (a3 : Memref sig .tc .vmem S5000x64 .f32) (h3 : a3.IsWhole)
    (x0 : Vec F S5000x64 .f32) (x1 : Vec F S64x64 .f32) (x2 : Vec F S64 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out4 x0 x1 x2)) -∗ K ⟨⟩))
      ⊢ wp frame (wpE (defs₀ (F := F)) Variants.none c none) E (cc4__dense_kernel i a0 h0 a1 h1 a2 h2 a3 h3) K := by
  simp only [cc4__dense_kernel_eq_skeleton]; unfold cc4__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4 _)

/-- The proof data of this call on core `c`: every window's array as the call finds it; after the body at point `t` an
    operand's buffer still holds its block and the result's buffer holds `out4` of the operand blocks; beside the windows
    only the untouched rest of the scoped memory and the generator register; nothing owed to another core. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the pipeline hands the body at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it expects back. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- At any grid point the operand buffers hold their blocks, so the body's triple applies; the rest passes through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point obligation of the launch theorem. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Region5.lean ====
/-
  Pallas call 5 of the program, taken alone: its grid walks the row blocks of the first operand, 5000 rows at a
  time; at every grid point the body reads the current row block and the small operands whole, and overwrites the
  whole 5000-row block of the result with one value computed from what it read. This file states what each
  staging buffer holds around the body at a grid point, proves the body's Hoare triple against those contents,
  and packages both as the proof data and the per-point obligation the pipeline's launch theorem asks for. The
  buffer contents on entry to the call are a parameter `V`.
-/
import proofs.«148738_j38654705664133_1_alg».proof.Proof.Gen.KernelIdeal.Launch
import proofs.«148738_j38654705664133_1_alg».proof.Proof.Gen.KernelIdeal.Skeleton
import proofs.«148738_j38654705664133_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` addresses, cut out of the window's array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An operand's staging buffer holds the operand's current block at every grid point, whether the pipeline copied
    it in at that point or left it from an earlier one (then the block index has not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An operand's staging buffer holds the operand's current block at every grid point, whether the pipeline copied
    it in at that point or left it from an earlier one (then the block index has not moved). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body reads and writes through. -/
abbrev rin5_0 : Rect S5000x64 := Rect.unit (s := S5000x64) ![0, 0] S5000x64.size inb_S5000x64_S5000x64_0_0
abbrev rin5_1 : Rect S64 := Rect.unit (s := S64) ![0] S64.size inb_S64_S64_0
abbrev rout5 : Rect S5000x64 := Rect.unit (s := S5000x64) ![0, 0] S5000x64.size inb_S5000x64_S5000x64_0_0

/-- What the result's staging buffer holds after the body, as a function of the operand blocks: the one whole-block
    store, read back. -/
def out5 (x0 : Vec F S5000x64 .f32) (x1 : Vec F S64 .f32) : Vec F S5000x64 .f32 :=
  View.canon [⟨rout5, k5_pay1 (View.ld x0 rin5_0) (View.ld x1 rin5_1)⟩]

/-- That one store covers the buffer. -/
theorem cover5 (p0 : Vec F S5000x64 .f32) (y : S5000x64.Idx) :
    ∃ pc ∈ ([⟨rout5, p0⟩] : List (View.Piece (Elt F) S5000x64 .f32)), y ∈ pc.1.set :=
  View.cover_of_tiled [⟨rout5, p0⟩] S5000x64.size (by rfl) y

set_option maxHeartbeats 4000000 in
/-- The body's triple: from the operand buffers at `x…` and the result buffer at anything, it runs to the end without a
    fault, leaves the operand buffers as they were and the result buffer at `out5` of the operands. -/
theorem sound_kernel5 (c : Dev nD) (E : Set ℕ) (i : grid5.Coords) (a0 : Memref sig .tc .vmem S5000x64 .f32) (h0 : a0.IsWhole) (a1 : Memref sig .tc .vmem S64 .f32) (h1 : a1.IsWhole) (a2 : Memref sig .tc .vmem S5000x64 .f32) (h2 : a2.IsWhole)
    (x0 : Vec F S5000x64 .f32) (x1 : Vec F S64 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out5 x0 x1)) -∗ K ⟨⟩))
      ⊢ wp frame (wpE (defs₀ (F := F)) Variants.none c none) E (cc5__biasact_kernel i a0 h0 a1 h1 a2 h2) K := by
  simp only [cc5__biasact_kernel_eq_skeleton]; unfold cc5__biasact_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5 _)

/-- The proof data of this call on core `c`: every window's array as the call finds it; after the body at point `t` an
    operand's buffer still holds its block and the result's buffer holds `out5` of the operand blocks; beside the windows
    only the untouched rest of the scoped memory and the generator register; nothing owed to another core. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the pipeline hands the body at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it expects back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- At any grid point the operand buffers hold their blocks, so the body's triple applies; the rest passes through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The per-point obligation of the launch theorem. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.Region6.lean ====
/-
  Pallas call 6 of the program, taken alone: its grid walks the row blocks of the first operand, 5000 rows at a
  time; at every grid point the body reads the current row block and the small operands whole, and overwrites the
  whole 5000-row block of the result with one value computed from what it read. This file states what each
  staging buffer holds around the body at a grid point, proves the body's Hoare triple against those contents,
  and packages both as the proof data and the per-point obligation the pipeline's launch theorem asks for. The
  buffer contents on entry to the call are a parameter `V`.
-/
import proofs.«148738_j38654705664133_1_alg».proof.Proof.Gen.KernelIdeal.Launch
import proofs.«148738_j38654705664133_1_alg».proof.Proof.Gen.KernelIdeal.Skeleton
import proofs.«148738_j38654705664133_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` addresses, cut out of the window's array as the call finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An operand's staging buffer holds the operand's current block at every grid point, whether the pipeline copied
    it in at that point or left it from an earlier one (then the block index has not moved). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An operand's staging buffer holds the operand's current block at every grid point, whether the pipeline copied
    it in at that point or left it from an earlier one (then the block index has not moved). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- An operand's staging buffer holds the operand's current block at every grid point, whether the pipeline copied
    it in at that point or left it from an earlier one (then the block index has not moved). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body reads and writes through. -/
abbrev rin6_0 : Rect S5000x136 := Rect.unit (s := S5000x136) ![0, 0] S5000x136.size inb_S5000x136_S5000x136_0_0
abbrev rin6_1 : Rect S136x1 := Rect.unit (s := S136x1) ![0, 0] S136x1.size inb_S136x1_S136x1_0_0
abbrev rin6_2 : Rect S1 := Rect.unit (s := S1) ![0] S1.size inb_S1_S1_0
abbrev rout6 : Rect S5000x1 := Rect.unit (s := S5000x1) ![0, 0] S5000x1.size inb_S5000x1_S5000x1_0_0

/-- What the result's staging buffer holds after the body, as a function of the operand blocks: the one whole-block
    store, read back. -/
def out6 (x0 : Vec F S5000x136 .f32) (x1 : Vec F S136x1 .f32) (x2 : Vec F S1 .f32) : Vec F S5000x1 .f32 :=
  View.canon [⟨rout6, k6_pay1 (View.ld x0 rin6_0) (View.ld x1 rin6_1) (View.ld x2 rin6_2)⟩]

/-- That one store covers the buffer. -/
theorem cover6 (p0 : Vec F S5000x1 .f32) (y : S5000x1.Idx) :
    ∃ pc ∈ ([⟨rout6, p0⟩] : List (View.Piece (Elt F) S5000x1 .f32)), y ∈ pc.1.set :=
  View.cover_of_tiled [⟨rout6, p0⟩] S5000x1.size (by rfl) y

set_option maxHeartbeats 4000000 in
/-- The body's triple: from the operand buffers at `x…` and the result buffer at anything, it runs to the end without a
    fault, leaves the operand buffers as they were and the result buffer at `out6` of the operands. -/
theorem sound_kernel6 (c : Dev nD) (E : Set ℕ) (i : grid6.Coords) (a0 : Memref sig .tc .vmem S5000x136 .f32) (h0 : a0.IsWhole) (a1 : Memref sig .tc .vmem S136x1 .f32) (h1 : a1.IsWhole) (a2 : Memref sig .tc .vmem S1 .f32) (h2 : a2.IsWhole) (a3 : Memref sig .tc .vmem S5000x1 .f32) (h3 : a3.IsWhole)
    (x0 : Vec F S5000x136 .f32) (x1 : Vec F S136x1 .f32) (x2 : Vec F S1 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out6 x0 x1 x2)) -∗ K ⟨⟩))
      ⊢ wp frame (wpE (defs₀ (F := F)) Variants.none c none) E (cc6__dense_kernel i a0 h0 a1 h1 a2 h2 a3 h3) K := by
  simp only [cc6__dense_kernel_eq_skeleton]; unfold cc6__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6 _)

/-- The proof data of this call on core `c`: every window's array as the call finds it; after the body at point `t` an
    operand's buffer still holds its block and the result's buffer holds `out6` of the operand blocks; beside the windows
    only the untouched rest of the scoped memory and the generator register; nothing owed to another core. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the pipeline hands the body at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it expects back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- At any grid point the operand buffers hold their blocks, so the body's triple applies; the rest passes through. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point obligation of the launch theorem. -/
theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.KI.Bounds.lean ====
/-
  The contents of every TensorCore buffer at each of the sixteen boundaries between the fifteen pieces the
  program runs as: eight stretches of host operations and seven pallas calls. The contents are a fold from the
  launch memory. A host stretch maps the contents before it to the contents after it operation by operation. A
  pallas call leaves every buffer as it found it except its own window arrays, which end at what the pipeline's
  write-backs leave. For each pallas call the two facts the exit of the call needs are stated: its arrays hold
  the pipeline's final contents, and every other buffer is unchanged.
-/
import proofs.«148738_j38654705664133_1_alg».proof.Proof.KI.Region0
import proofs.«148738_j38654705664133_1_alg».proof.Proof.KI.Region1
import proofs.«148738_j38654705664133_1_alg».proof.Proof.KI.Region2
import proofs.«148738_j38654705664133_1_alg».proof.Proof.KI.Region3
import proofs.«148738_j38654705664133_1_alg».proof.Proof.KI.Region4
import proofs.«148738_j38654705664133_1_alg».proof.Proof.KI.Region5
import proofs.«148738_j38654705664133_1_alg».proof.Proof.KI.Region6

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The sixteen boundaries -/

/-- Boundary 0: the buffers of core `c` as launched. -/
abbrev W0 : Dev nD → Valuation τ sig (Elt F) := fun c b => (s₀ m ρ).mem ((c : Dev nD), b)
/-- Boundary 0 read at the TensorCore's references. -/
abbrev V0 : (c : Dev nD) → (b : Ref sig .tc) → Buf (Elt F) ((c : Thread nD τ).loc b) := fun c b => W0 m ρ c b

/-- Boundary 1: boundary 0 pushed through the host stretch `main_part0_ops0`. -/
abbrev W1 : Dev nD → Valuation τ sig (Elt F) := fun c => StableHlo.after main_part0_ops0 (W0 m ρ c)
/-- Boundary 1 read at the TensorCore's references. -/
abbrev V1 : (c : Dev nD) → (b : Ref sig .tc) → Buf (Elt F) ((c : Thread nD τ).loc b) := fun c b => W1 m ρ c b

/-- Boundary 2, the exit of pallas call 0: each of its window arrays holds what the pipeline leaves there after
    the last grid point (an operand as entered, the result with every write-back folded in), and every other
    buffer holds what it held at boundary 1. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Boundary 2 read at the TensorCore's references. -/
abbrev V2 : (c : Dev nD) → (b : Ref sig .tc) → Buf (Elt F) ((c : Thread nD τ).loc b) := fun c b => W2 m ρ c b
/-- At the exit of pallas call 0 each window array holds the pipeline's final contents. -/
theorem hF0 (c : Dev nD) (w : Fin cfg0.W) : (dat0 (V1 m ρ) c).arrAt w cfg0.N = V2 m ρ c (Pipeline.arrRef spec0 w) :=
  (W2_arr m ρ c w).symm
/-- At the exit of pallas call 0 a buffer that is none of its window arrays is unchanged. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Boundary 3, the exit of pallas call 1: each of its window arrays holds what the pipeline leaves there after
    the last grid point (an operand as entered, the result with every write-back folded in), and every other
    buffer holds what it held at boundary 2. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- Boundary 3 read at the TensorCore's references. -/
abbrev V3 : (c : Dev nD) → (b : Ref sig .tc) → Buf (Elt F) ((c : Thread nD τ).loc b) := fun c b => W3 m ρ c b
/-- At the exit of pallas call 1 each window array holds the pipeline's final contents. -/
theorem hF1 (c : Dev nD) (w : Fin cfg1.W) : (dat1 (V2 m ρ) c).arrAt w cfg1.N = V3 m ρ c (Pipeline.arrRef spec1 w) :=
  (W3_arr m ρ c w).symm
/-- At the exit of pallas call 1 a buffer that is none of its window arrays is unchanged. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- Boundary 4: boundary 3 pushed through the host stretch `main_part0_ops1`. -/
abbrev W4 : Dev nD → Valuation τ sig (Elt F) := fun c => StableHlo.after main_part0_ops1 (W3 m ρ c)
/-- Boundary 4 read at the TensorCore's references. -/
abbrev V4 : (c : Dev nD) → (b : Ref sig .tc) → Buf (Elt F) ((c : Thread nD τ).loc b) := fun c b => W4 m ρ c b

/-- Boundary 5, the exit of pallas call 2: each of its window arrays holds what the pipeline leaves there after
    the last grid point (an operand as entered, the result with every write-back folded in), and every other
    buffer holds what it held at boundary 4. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- Boundary 5 read at the TensorCore's references. -/
abbrev V5 : (c : Dev nD) → (b : Ref sig .tc) → Buf (Elt F) ((c : Thread nD τ).loc b) := fun c b => W5 m ρ c b
/-- At the exit of pallas call 2 each window array holds the pipeline's final contents. -/
theorem hF2 (c : Dev nD) (w : Fin cfg2.W) : (dat2 (V4 m ρ) c).arrAt w cfg2.N = V5 m ρ c (Pipeline.arrRef spec2 w) :=
  (W5_arr m ρ c w).symm
/-- At the exit of pallas call 2 a buffer that is none of its window arrays is unchanged. -/
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- Boundary 6: boundary 5 pushed through the host stretch `main_part0_ops2`. -/
abbrev W6 : Dev nD → Valuation τ sig (Elt F) := fun c => StableHlo.after main_part0_ops2 (W5 m ρ c)
/-- Boundary 6 read at the TensorCore's references. -/
abbrev V6 : (c : Dev nD) → (b : Ref sig .tc) → Buf (Elt F) ((c : Thread nD τ).loc b) := fun c b => W6 m ρ c b

/-- Boundary 7: boundary 6 pushed through the host stretch `main_part1_ops0`. -/
abbrev W7 : Dev nD → Valuation τ sig (Elt F) := fun c => StableHlo.after main_part1_ops0 (W6 m ρ c)
/-- Boundary 7 read at the TensorCore's references. -/
abbrev V7 : (c : Dev nD) → (b : Ref sig .tc) → Buf (Elt F) ((c : Thread nD τ).loc b) := fun c b => W7 m ρ c b

/-- Boundary 8, the exit of pallas call 3: each of its window arrays holds what the pipeline leaves there after
    the last grid point (an operand as entered, the result with every write-back folded in), and every other
    buffer holds what it held at boundary 7. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- Boundary 8 read at the TensorCore's references. -/
abbrev V8 : (c : Dev nD) → (b : Ref sig .tc) → Buf (Elt F) ((c : Thread nD τ).loc b) := fun c b => W8 m ρ c b
/-- At the exit of pallas call 3 each window array holds the pipeline's final contents. -/
theorem hF3 (c : Dev nD) (w : Fin cfg3.W) : (dat3 (V7 m ρ) c).arrAt w cfg3.N = V8 m ρ c (Pipeline.arrRef spec3 w) :=
  (W8_arr m ρ c w).symm
/-- At the exit of pallas call 3 a buffer that is none of its window arrays is unchanged. -/
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- Boundary 9, the exit of pallas call 4: each of its window arrays holds what the pipeline leaves there after
    the last grid point (an operand as entered, the result with every write-back folded in), and every other
    buffer holds what it held at boundary 8. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- Boundary 9 read at the TensorCore's references. -/
abbrev V9 : (c : Dev nD) → (b : Ref sig .tc) → Buf (Elt F) ((c : Thread nD τ).loc b) := fun c b => W9 m ρ c b
/-- At the exit of pallas call 4 each window array holds the pipeline's final contents. -/
theorem hF4 (c : Dev nD) (w : Fin cfg4.W) : (dat4 (V8 m ρ) c).arrAt w cfg4.N = V9 m ρ c (Pipeline.arrRef spec4 w) :=
  (W9_arr m ρ c w).symm
/-- At the exit of pallas call 4 a buffer that is none of its window arrays is unchanged. -/
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- Boundary 10: boundary 9 pushed through the host stretch `main_part1_ops1`. -/
abbrev W10 : Dev nD → Valuation τ sig (Elt F) := fun c => StableHlo.after main_part1_ops1 (W9 m ρ c)
/-- Boundary 10 read at the TensorCore's references. -/
abbrev V10 : (c : Dev nD) → (b : Ref sig .tc) → Buf (Elt F) ((c : Thread nD τ).loc b) := fun c b => W10 m ρ c b

/-- Boundary 11: boundary 10 pushed through the host stretch `main_part2_ops0`. -/
abbrev W11 : Dev nD → Valuation τ sig (Elt F) := fun c => StableHlo.after main_part2_ops0 (W10 m ρ c)
/-- Boundary 11 read at the TensorCore's references. -/
abbrev V11 : (c : Dev nD) → (b : Ref sig .tc) → Buf (Elt F) ((c : Thread nD τ).loc b) := fun c b => W11 m ρ c b

/-- Boundary 12, the exit of pallas call 5: each of its window arrays holds what the pipeline leaves there after
    the last grid point (an operand as entered, the result with every write-back folded in), and every other
    buffer holds what it held at boundary 11. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- Boundary 12 read at the TensorCore's references. -/
abbrev V12 : (c : Dev nD) → (b : Ref sig .tc) → Buf (Elt F) ((c : Thread nD τ).loc b) := fun c b => W12 m ρ c b
/-- At the exit of pallas call 5 each window array holds the pipeline's final contents. -/
theorem hF5 (c : Dev nD) (w : Fin cfg5.W) : (dat5 (V11 m ρ) c).arrAt w cfg5.N = V12 m ρ c (Pipeline.arrRef spec5 w) :=
  (W12_arr m ρ c w).symm
/-- At the exit of pallas call 5 a buffer that is none of its window arrays is unchanged. -/
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- Boundary 13: boundary 12 pushed through the host stretch `main_part2_ops1`. -/
abbrev W13 : Dev nD → Valuation τ sig (Elt F) := fun c => StableHlo.after main_part2_ops1 (W12 m ρ c)
/-- Boundary 13 read at the TensorCore's references. -/
abbrev V13 : (c : Dev nD) → (b : Ref sig .tc) → Buf (Elt F) ((c : Thread nD τ).loc b) := fun c b => W13 m ρ c b

/-- Boundary 14, the exit of pallas call 6: each of its window arrays holds what the pipeline leaves there after
    the last grid point (an operand as entered, the result with every write-back folded in), and every other
    buffer holds what it held at boundary 13. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- Boundary 14 read at the TensorCore's references. -/
abbrev V14 : (c : Dev nD) → (b : Ref sig .tc) → Buf (Elt F) ((c : Thread nD τ).loc b) := fun c b => W14 m ρ c b
/-- At the exit of pallas call 6 each window array holds the pipeline's final contents. -/
theorem hF6 (c : Dev nD) (w : Fin cfg6.W) : (dat6 (V13 m ρ) c).arrAt w cfg6.N = V14 m ρ c (Pipeline.arrRef spec6 w) :=
  (W14_arr m ρ c w).symm
/-- At the exit of pallas call 6 a buffer that is none of its window arrays is unchanged. -/
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- Boundary 15: boundary 14 pushed through the host stretch `main_part2_ops2`. -/
abbrev W15 : Dev nD → Valuation τ sig (Elt F) := fun c => StableHlo.after main_part2_ops2 (W14 m ρ c)
/-- Boundary 15 read at the TensorCore's references. -/
abbrev V15 : (c : Dev nD) → (b : Ref sig .tc) → Buf (Elt F) ((c : Thread nD τ).loc b) := fun c b => W15 m ρ c b

end Cert.KernelIdeal.Fr

end
-- ==== Proof.KI.Segs.lean ====
/-
  The program's run cut into fifteen pieces the launch theorem for several pallas calls composes: a host piece per
  stretch of host operations and a region piece per pallas call, each entered from the thread state the piece before
  it leaves. The thread state between pieces is: every unscoped TensorCore buffer at the boundary's contents, the
  core's generator register at some state, and the core owing no signal to any other core. A host piece carries
  that state through its operations. A region piece splits its window arrays out of the unscoped buffers on entry,
  hands the generator register to the pipeline's invariant and takes it back, and on exit puts the arrays back at
  the contents the pipeline left. The last fact of the file: the program is the run of these pieces, in order.
-/
import proofs.«148738_j38654705664133_1_alg».proof.Proof.KI.Bounds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of all seven pipelines and the thread state -/

/-- No pipeline has a prefetched table, so every table assignment is admissible. -/
abbrev adm : (p : Fin 7) → (pcfgs (F := F) p).Adm := fun p => (cfgs p).toPCfg_adm
/-- Every pipeline's proof data, each taken at the contents its pallas call is entered from. A literal case split,
    so that the launch theorem's configuration at a numeral reduces to that pallas call's own. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V7 m ρ) c
  | ⟨4, _⟩ => fun c => dat4 (V8 m ρ) c
  | ⟨5, _⟩ => fun c => dat5 (V11 m ρ) c
  | ⟨6, _⟩ => fun c => dat6 (V13 m ρ) c
abbrev 𝒱₀ : Variants := Variants.none
/-- No core owes another core a signal, so no semaphore pair is assigned a level. -/
abbrev L : GSem nD τ sig → Finset Unit := fun _ => ∅
abbrev lv : GSem nD τ sig → Unit → ℕ := fun _ _ => 0
/-- What accompanies the buffers through every piece: the generator register at some state, and the core's record
    of signals owed, at nothing. -/
abbrev R (c : Dev nD) : sProp 𝕄 := iprop((∃ r, prngReg c r) ∗ ∃ W, owes (c : Thread nD τ) (0 : CellTallies nD τ sig Unit) W)
/-- A stretch of host operations as a piece of the run: from every unscoped buffer at contents `W` to every unscoped
    buffer at those contents pushed through the operations, `R` unchanged beside them. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## No host operation allocates a buffer -/

theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part2_ops1_fresh : (main_part2_ops1 : List (HloOp τ sig (Elt F))).Forall fun op => op.fresh = ∅ := by
  simp only [List.Forall]; repeat' constructor
theorem main_part2_ops2_fresh : (main_part2_ops2 : List (HloOp τ sig (Elt F))).Forall fun op => op.fresh = ∅ := by
  simp only [List.Forall]; repeat' constructor

/-- The thread state the run ends in, without the record of signals owed: every unscoped buffer at the last
    boundary's contents and the generator register at some state. -/
abbrev Tₙ (c : Dev nD) : sProp 𝕄 := iprop(StableHlo.held (c : Thread nD τ) (Pipeline.ucRefs τ sig) (W15 m ρ c) ∗ ∃ r, prngReg c r)

/-! ## The pallas calls as pieces of the run -/

-- applying a library lemma stated over the pinned configuration needs unification to unfold plain definitions
-- inside the types of unassigned terms
set_option backward.isDefEq.respectTransparency.types false in
/-- Pallas call 0: entered from every unscoped buffer at boundary 1, left with every unscoped buffer at boundary
    2. On entry its window arrays are split out of the unscoped buffers and the generator register goes into the
    pipeline's invariant. On exit the register comes back and the arrays rejoin the other buffers at the exit
    contents. Nothing is owed throughout and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions
-- inside the types of unassigned terms
set_option backward.isDefEq.respectTransparency.types false in
/-- Pallas call 1: entered from every unscoped buffer at boundary 2, left with every unscoped buffer at boundary
    3. On entry its window arrays are split out of the unscoped buffers and the generator register goes into the
    pipeline's invariant. On exit the register comes back and the arrays rejoin the other buffers at the exit
    contents. Nothing is owed throughout and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions
-- inside the types of unassigned terms
set_option backward.isDefEq.respectTransparency.types false in
/-- Pallas call 2: entered from every unscoped buffer at boundary 4, left with every unscoped buffer at boundary
    5. On entry its window arrays are split out of the unscoped buffers and the generator register goes into the
    pipeline's invariant. On exit the register comes back and the arrays rejoin the other buffers at the exit
    contents. Nothing is owed throughout and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions
-- inside the types of unassigned terms
set_option backward.isDefEq.respectTransparency.types false in
/-- Pallas call 3: entered from every unscoped buffer at boundary 7, left with every unscoped buffer at boundary
    8. On entry its window arrays are split out of the unscoped buffers and the generator register goes into the
    pipeline's invariant. On exit the register comes back and the arrays rejoin the other buffers at the exit
    contents. Nothing is owed throughout and the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions
-- inside the types of unassigned terms
set_option backward.isDefEq.respectTransparency.types false in
/-- Pallas call 4: entered from every unscoped buffer at boundary 8, left with every unscoped buffer at boundary
    9. On entry its window arrays are split out of the unscoped buffers and the generator register goes into the
    pipeline's invariant. On exit the register comes back and the arrays rejoin the other buffers at the exit
    contents. Nothing is owed throughout and the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions
-- inside the types of unassigned terms
set_option backward.isDefEq.respectTransparency.types false in
/-- Pallas call 5: entered from every unscoped buffer at boundary 11, left with every unscoped buffer at boundary
    12. On entry its window arrays are split out of the unscoped buffers and the generator register goes into the
    pipeline's invariant. On exit the register comes back and the arrays rejoin the other buffers at the exit
    contents. Nothing is owed throughout and the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions
-- inside the types of unassigned terms
set_option backward.isDefEq.respectTransparency.types false in
/-- Pallas call 6: entered from every unscoped buffer at boundary 13, left with every unscoped buffer at boundary
    14. On entry its window arrays are split out of the unscoped buffers and the generator register goes into the
    pipeline's invariant. On exit the register comes back and the arrays rejoin the other buffers at the exit
    contents. Nothing is owed throughout and the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its pieces -/

/-- The fifteen pieces in program order: a host piece per stretch from its boundary's contents, a region piece per
    pallas call. -/
abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .region (reg1 m ρ),
    .host (hseg main_part0_ops1 main_part0_ops1_sub main_part0_ops1_fresh (W3 m ρ)),
    .region (reg2 m ρ),
    .host (hseg main_part0_ops2 main_part0_ops2_sub main_part0_ops2_fresh (W5 m ρ)),
    .host (hseg main_part1_ops0 main_part1_ops0_sub main_part1_ops0_fresh (W6 m ρ)),
    .region (reg3 m ρ),
    .region (reg4 m ρ),
    .host (hseg main_part1_ops1 main_part1_ops1_sub main_part1_ops1_fresh (W9 m ρ)),
    .host (hseg main_part2_ops0 main_part2_ops0_sub main_part2_ops0_fresh (W10 m ρ)),
    .region (reg5 m ρ),
    .host (hseg main_part2_ops1 main_part2_ops1_sub main_part2_ops1_fresh (W12 m ρ)),
    .region (reg6 m ρ),
    .host (hseg main_part2_ops2 main_part2_ops2_sub main_part2_ops2_fresh (W14 m ρ)) ]
/-- The program is the run of its pieces: it is the chain of its items, and the run of the pieces is the same chain. -/
theorem main_run (c : Dev nD) : main (F := F) c = Pipeline.Seg.run (segs m ρ) := (main_chain_windows c).trans (by chain_rfl)

end Cert.KernelIdeal.Fr

end
-- ==== Proof.KI.Run.lean ====
/-
  The run of the whole program. From any launch memory, with every semaphore counter at zero, every weakly fair
  execution of the program on the TensorCores terminates without fault, and in every final state each unscoped
  TensorCore buffer holds the contents the sixteenth boundary names. The proof hands the fifteen pieces to the
  launch theorem for a program of several pallas calls: the pieces' thread states chain one into the next, the
  first is made from what the launch deals out, and the last is read against the final state buffer by buffer.
-/
import proofs.«148738_j38654705664133_1_alg».proof.Proof.KI.Segs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The exit state of the last piece is the final thread state beside the record of signals owed, at nothing: the
    same three conjuncts, bracketed the other way. -/
theorem last_link (c : Dev nD) :
    iprop(StableHlo.held (c : Thread nD τ) (Pipeline.ucRefs τ sig) (W15 m ρ c) ∗ R (F := F) c) ⊢
      iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

-- the launch theorem's implicit arguments are found by unifying its conclusion with the statement, which needs
-- unification to unfold plain definitions inside the types of unassigned terms
set_option backward.isDefEq.respectTransparency.types false in
/-- Every weakly fair execution of the program from launch memory `m` terminates, and every final state has each
    unscoped TensorCore buffer of each core at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

end Cert.KernelIdeal.Fr

end
-- ==== Proof.KI.Args.lean ====
/-
  The program's fourteen arguments end as launched. An argument is one of the first fourteen references in HBM.
  No host operation writes an argument: each writes one reference, and that reference comes after the fourteen.
  No pallas call changes an argument: an argument that is one of its window arrays is an operand, which the
  pipeline only reads, and an argument that is none of its window arrays is bypassed. So the contents of an
  argument's buffer at the last boundary walk back, boundary by boundary, to the launch memory.
-/
import proofs.«148738_j38654705664133_1_alg».proof.Proof.KI.Bounds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Host stretches -/

/-- A reference that fails `P` keeps its contents through a line of operations each of which writes exactly one
    reference, that reference satisfying `P`. -/
theorem after_keeps {P : Ref sig .tc → Prop} (ops : List (HloOp τ sig (Elt F))) (V : Valuation τ sig (Elt F))
    (hW : ops.Forall fun op => ∃ y : Ref sig .tc, P y ∧ op.writes = {Proc.devRef .tc y}) {r : Ref sig .tc} (hr : ¬ P r) :
    StableHlo.after ops V (Proc.devRef .tc r) = V (Proc.devRef .tc r) :=
  StableHlo.after_of_forall_not_mem ops V fun op hop hb => by
    obtain ⟨y, hy, he⟩ := (List.forall_iff_forall_mem.mp hW) op hop
    rw [he, Finset.mem_singleton] at hb
    obtain rfl : r = y := Proc.devRef_injective _ hb
    exact hr hy

/-- Each operation of `main_part0_ops0` writes one reference, and it is not among the first fourteen. -/
theorem main_part0_ops0_writes : (main_part0_ops0 : List (HloOp τ sig (Elt F))).Forall fun op =>
    ∃ y : Ref sig .tc, 14 ≤ y.idx.val ∧ op.writes = {Proc.devRef .tc y} :=
  ⟨⟨_, by decide, rfl⟩, ⟨_, by decide, rfl⟩, ⟨_, by decide, rfl⟩, ⟨_, by decide, rfl⟩⟩

/-- Each operation of `main_part0_ops1` writes one reference, and it is not among the first fourteen. -/
theorem main_part0_ops1_writes : (main_part0_ops1 : List (HloOp τ sig (Elt F))).Forall fun op =>
    ∃ y : Ref sig .tc, 14 ≤ y.idx.val ∧ op.writes = {Proc.devRef .tc y} :=
  ⟨⟨_, by decide, rfl⟩, ⟨_, by decide, rfl⟩⟩

/-- Each operation of `main_part0_ops2` writes one reference, and it is not among the first fourteen. -/
theorem main_part0_ops2_writes : (main_part0_ops2 : List (HloOp τ sig (Elt F))).Forall fun op =>
    ∃ y : Ref sig .tc, 14 ≤ y.idx.val ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩

/-- Each operation of `main_part1_ops0` writes one reference, and it is not among the first fourteen. -/
theorem main_part1_ops0_writes : (main_part1_ops0 : List (HloOp τ sig (Elt F))).Forall fun op =>
    ∃ y : Ref sig .tc, 14 ≤ y.idx.val ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩

/-- Each operation of `main_part1_ops1` writes one reference, and it is not among the first fourteen. -/
theorem main_part1_ops1_writes : (main_part1_ops1 : List (HloOp τ sig (Elt F))).Forall fun op =>
    ∃ y : Ref sig .tc, 14 ≤ y.idx.val ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩

/-- Each operation of `main_part2_ops0` writes one reference, and it is not among the first fourteen. -/
theorem main_part2_ops0_writes : (main_part2_ops0 : List (HloOp τ sig (Elt F))).Forall fun op =>
    ∃ y : Ref sig .tc, 14 ≤ y.idx.val ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩

/-- Each operation of `main_part2_ops1` writes one reference, and it is not among the first fourteen. -/
theorem main_part2_ops1_writes : (main_part2_ops1 : List (HloOp τ sig (Elt F))).Forall fun op =>
    ∃ y : Ref sig .tc, 14 ≤ y.idx.val ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩

/-- Each operation of `main_part2_ops2` writes one reference, and it is not among the first fourteen. -/
theorem main_part2_ops2_writes : (main_part2_ops2 : List (HloOp τ sig (Elt F))).Forall fun op =>
    ∃ y : Ref sig .tc, 14 ≤ y.idx.val ∧ op.writes = {Proc.devRef .tc y} :=
  ⟨_, by decide, rfl⟩

/-! ## Pallas calls -/

/-- A window array of pallas call 0 that is among the first fourteen references is an operand's. -/
theorem arg_in0 : ∀ w : Fin cfg0.W, (Pipeline.arrRef spec0 w).idx.val < 14 → (cfg0.win w).isOut = false := by decide
/-- Pallas call 0 leaves every argument's buffer as it found it. -/
theorem W2_arg (c : Dev nD) (r : Ref sig .tc) (hr : r.idx.val < 14) :
    W2 m ρ c (Proc.devRef .tc r) = W1 m ρ c (Proc.devRef .tc r) := by
  by_cases h : ∃ w, Pipeline.arrRef spec0 w = r
  · obtain ⟨w, rfl⟩ := h
    exact (W2_arr m ρ c w).trans (((dat0 (V1 m ρ) c).arrAt_in w (arg_in0 w hr) _).trans (A_eq0 (V1 m ρ) c w))
  · exact W2_of_ne m ρ c r fun w e => h ⟨w, e⟩

/-- A window array of pallas call 1 that is among the first fourteen references is an operand's. -/
theorem arg_in1 : ∀ w : Fin cfg1.W, (Pipeline.arrRef spec1 w).idx.val < 14 → (cfg1.win w).isOut = false := by decide
/-- Pallas call 1 leaves every argument's buffer as it found it. -/
theorem W3_arg (c : Dev nD) (r : Ref sig .tc) (hr : r.idx.val < 14) :
    W3 m ρ c (Proc.devRef .tc r) = W2 m ρ c (Proc.devRef .tc r) := by
  by_cases h : ∃ w, Pipeline.arrRef spec1 w = r
  · obtain ⟨w, rfl⟩ := h
    exact (W3_arr m ρ c w).trans (((dat1 (V2 m ρ) c).arrAt_in w (arg_in1 w hr) _).trans (A_eq1 (V2 m ρ) c w))
  · exact W3_of_ne m ρ c r fun w e => h ⟨w, e⟩

/-- A window array of pallas call 2 that is among the first fourteen references is an operand's. -/
theorem arg_in2 : ∀ w : Fin cfg2.W, (Pipeline.arrRef spec2 w).idx.val < 14 → (cfg2.win w).isOut = false := by decide
/-- Pallas call 2 leaves every argument's buffer as it found it. -/
theorem W5_arg (c : Dev nD) (r : Ref sig .tc) (hr : r.idx.val < 14) :
    W5 m ρ c (Proc.devRef .tc r) = W4 m ρ c (Proc.devRef .tc r) := by
  by_cases h : ∃ w, Pipeline.arrRef spec2 w = r
  · obtain ⟨w, rfl⟩ := h
    exact (W5_arr m ρ c w).trans (((dat2 (V4 m ρ) c).arrAt_in w (arg_in2 w hr) _).trans (A_eq2 (V4 m ρ) c w))
  · exact W5_of_ne m ρ c r fun w e => h ⟨w, e⟩

/-- A window array of pallas call 3 that is among the first fourteen references is an operand's. -/
theorem arg_in3 : ∀ w : Fin cfg3.W, (Pipeline.arrRef spec3 w).idx.val < 14 → (cfg3.win w).isOut = false := by decide
/-- Pallas call 3 leaves every argument's buffer as it found it. -/
theorem W8_arg (c : Dev nD) (r : Ref sig .tc) (hr : r.idx.val < 14) :
    W8 m ρ c (Proc.devRef .tc r) = W7 m ρ c (Proc.devRef .tc r) := by
  by_cases h : ∃ w, Pipeline.arrRef spec3 w = r
  · obtain ⟨w, rfl⟩ := h
    exact (W8_arr m ρ c w).trans (((dat3 (V7 m ρ) c).arrAt_in w (arg_in3 w hr) _).trans (A_eq3 (V7 m ρ) c w))
  · exact W8_of_ne m ρ c r fun w e => h ⟨w, e⟩

/-- A window array of pallas call 4 that is among the first fourteen references is an operand's. -/
theorem arg_in4 : ∀ w : Fin cfg4.W, (Pipeline.arrRef spec4 w).idx.val < 14 → (cfg4.win w).isOut = false := by decide
/-- Pallas call 4 leaves every argument's buffer as it found it. -/
theorem W9_arg (c : Dev nD) (r : Ref sig .tc) (hr : r.idx.val < 14) :
    W9 m ρ c (Proc.devRef .tc r) = W8 m ρ c (Proc.devRef .tc r) := by
  by_cases h : ∃ w, Pipeline.arrRef spec4 w = r
  · obtain ⟨w, rfl⟩ := h
    exact (W9_arr m ρ c w).trans (((dat4 (V8 m ρ) c).arrAt_in w (arg_in4 w hr) _).trans (A_eq4 (V8 m ρ) c w))
  · exact W9_of_ne m ρ c r fun w e => h ⟨w, e⟩

/-- A window array of pallas call 5 that is among the first fourteen references is an operand's. -/
theorem arg_in5 : ∀ w : Fin cfg5.W, (Pipeline.arrRef spec5 w).idx.val < 14 → (cfg5.win w).isOut = false := by decide
/-- Pallas call 5 leaves every argument's buffer as it found it. -/
theorem W12_arg (c : Dev nD) (r : Ref sig .tc) (hr : r.idx.val < 14) :
    W12 m ρ c (Proc.devRef .tc r) = W11 m ρ c (Proc.devRef .tc r) := by
  by_cases h : ∃ w, Pipeline.arrRef spec5 w = r
  · obtain ⟨w, rfl⟩ := h
    exact (W12_arr m ρ c w).trans (((dat5 (V11 m ρ) c).arrAt_in w (arg_in5 w hr) _).trans (A_eq5 (V11 m ρ) c w))
  · exact W12_of_ne m ρ c r fun w e => h ⟨w, e⟩

/-- A window array of pallas call 6 that is among the first fourteen references is an operand's. -/
theorem arg_in6 : ∀ w : Fin cfg6.W, (Pipeline.arrRef spec6 w).idx.val < 14 → (cfg6.win w).isOut = false := by decide
/-- Pallas call 6 leaves every argument's buffer as it found it. -/
theorem W14_arg (c : Dev nD) (r : Ref sig .tc) (hr : r.idx.val < 14) :
    W14 m ρ c (Proc.devRef .tc r) = W13 m ρ c (Proc.devRef .tc r) := by
  by_cases h : ∃ w, Pipeline.arrRef spec6 w = r
  · obtain ⟨w, rfl⟩ := h
    exact (W14_arr m ρ c w).trans (((dat6 (V13 m ρ) c).arrAt_in w (arg_in6 w hr) _).trans (A_eq6 (V13 m ρ) c w))
  · exact W14_of_ne m ρ c r fun w e => h ⟨w, e⟩

/-! ## From the last boundary back to the launch -/

/-- An argument's buffer holds at the last boundary what it held at launch. -/
theorem W15_arg (c : Dev nD) (r : Ref sig .tc) (hr : r.idx.val < 14) :
    W15 m ρ c (Proc.devRef .tc r) = W0 m ρ c (Proc.devRef .tc r) :=
  have hn : ¬ 14 ≤ r.idx.val := Nat.not_le.mpr hr
  calc W15 m ρ c (Proc.devRef .tc r)
    _ = W14 m ρ c (Proc.devRef .tc r) := after_keeps (P := fun y => 14 ≤ y.idx.val) main_part2_ops2 (W14 m ρ c) main_part2_ops2_writes hn
    _ = W13 m ρ c (Proc.devRef .tc r) := W14_arg m ρ c r hr
    _ = W12 m ρ c (Proc.devRef .tc r) := after_keeps (P := fun y => 14 ≤ y.idx.val) main_part2_ops1 (W12 m ρ c) main_part2_ops1_writes hn
    _ = W11 m ρ c (Proc.devRef .tc r) := W12_arg m ρ c r hr
    _ = W10 m ρ c (Proc.devRef .tc r) := after_keeps (P := fun y => 14 ≤ y.idx.val) main_part2_ops0 (W10 m ρ c) main_part2_ops0_writes hn
    _ = W9 m ρ c (Proc.devRef .tc r) := after_keeps (P := fun y => 14 ≤ y.idx.val) main_part1_ops1 (W9 m ρ c) main_part1_ops1_writes hn
    _ = W8 m ρ c (Proc.devRef .tc r) := W9_arg m ρ c r hr
    _ = W7 m ρ c (Proc.devRef .tc r) := W8_arg m ρ c r hr
    _ = W6 m ρ c (Proc.devRef .tc r) := after_keeps (P := fun y => 14 ≤ y.idx.val) main_part1_ops0 (W6 m ρ c) main_part1_ops0_writes hn
    _ = W5 m ρ c (Proc.devRef .tc r) := after_keeps (P := fun y => 14 ≤ y.idx.val) main_part0_ops2 (W5 m ρ c) main_part0_ops2_writes hn
    _ = W4 m ρ c (Proc.devRef .tc r) := W5_arg m ρ c r hr
    _ = W3 m ρ c (Proc.devRef .tc r) := after_keeps (P := fun y => 14 ≤ y.idx.val) main_part0_ops1 (W3 m ρ c) main_part0_ops1_writes hn
    _ = W2 m ρ c (Proc.devRef .tc r) := W3_arg m ρ c r hr
    _ = W1 m ρ c (Proc.devRef .tc r) := W2_arg m ρ c r hr
    _ = W0 m ρ c (Proc.devRef .tc r) := after_keeps (P := fun y => 14 ≤ y.idx.val) main_part0_ops0 (W0 m ρ c) main_part0_ops0_writes hn

theorem W15_main_arg0 (c : Dev nD) : W15 m ρ c (Proc.devRef .tc main_arg0) = m ((c : Thread nD τ).loc main_arg0) :=
  (W15_arg m ρ c main_arg0 (by decide)).trans rfl
theorem W15_main_arg1 (c : Dev nD) : W15 m ρ c (Proc.devRef .tc main_arg1) = m ((c : Thread nD τ).loc main_arg1) :=
  (W15_arg m ρ c main_arg1 (by decide)).trans rfl
theorem W15_main_arg2 (c : Dev nD) : W15 m ρ c (Proc.devRef .tc main_arg2) = m ((c : Thread nD τ).loc main_arg2) :=
  (W15_arg m ρ c main_arg2 (by decide)).trans rfl
theorem W15_main_arg3 (c : Dev nD) : W15 m ρ c (Proc.devRef .tc main_arg3) = m ((c : Thread nD τ).loc main_arg3) :=
  (W15_arg m ρ c main_arg3 (by decide)).trans rfl
theorem W15_main_arg4 (c : Dev nD) : W15 m ρ c (Proc.devRef .tc main_arg4) = m ((c : Thread nD τ).loc main_arg4) :=
  (W15_arg m ρ c main_arg4 (by decide)).trans rfl
theorem W15_main_arg5 (c : Dev nD) : W15 m ρ c (Proc.devRef .tc main_arg5) = m ((c : Thread nD τ).loc main_arg5) :=
  (W15_arg m ρ c main_arg5 (by decide)).trans rfl
theorem W15_main_arg6 (c : Dev nD) : W15 m ρ c (Proc.devRef .tc main_arg6) = m ((c : Thread nD τ).loc main_arg6) :=
  (W15_arg m ρ c main_arg6 (by decide)).trans rfl
theorem W15_main_arg7 (c : Dev nD) : W15 m ρ c (Proc.devRef .tc main_arg7) = m ((c : Thread nD τ).loc main_arg7) :=
  (W15_arg m ρ c main_arg7 (by decide)).trans rfl
theorem W15_main_arg8 (c : Dev nD) : W15 m ρ c (Proc.devRef .tc main_arg8) = m ((c : Thread nD τ).loc main_arg8) :=
  (W15_arg m ρ c main_arg8 (by decide)).trans rfl
theorem W15_main_arg9 (c : Dev nD) : W15 m ρ c (Proc.devRef .tc main_arg9) = m ((c : Thread nD τ).loc main_arg9) :=
  (W15_arg m ρ c main_arg9 (by decide)).trans rfl
theorem W15_main_arg10 (c : Dev nD) : W15 m ρ c (Proc.devRef .tc main_arg10) = m ((c : Thread nD τ).loc main_arg10) :=
  (W15_arg m ρ c main_arg10 (by decide)).trans rfl
theorem W15_main_arg11 (c : Dev nD) : W15 m ρ c (Proc.devRef .tc main_arg11) = m ((c : Thread nD τ).loc main_arg11) :=
  (W15_arg m ρ c main_arg11 (by decide)).trans rfl
theorem W15_main_arg12 (c : Dev nD) : W15 m ρ c (Proc.devRef .tc main_arg12) = m ((c : Thread nD τ).loc main_arg12) :=
  (W15_arg m ρ c main_arg12 (by decide)).trans rfl
theorem W15_main_arg13 (c : Dev nD) : W15 m ρ c (Proc.devRef .tc main_arg13) = m ((c : Thread nD τ).loc main_arg13) :=
  (W15_arg m ρ c main_arg13 (by decide)).trans rfl

end Cert.KernelIdeal.Fr

end
-- ==== Proof.FrameKI.lean ====
/-
  The frame of the idealized kernel program: under the precondition (not used) every weakly fair execution terminates
  without fault, and each of the fourteen argument arrays ends as launched. The run of the program ends with every
  unscoped buffer at the last boundary's contents; no host operation writes an argument and every pallas call only
  reads arguments, so the last boundary's contents at an argument are the launch contents.
-/
import proofs.«148738_j38654705664133_1_alg».proof.Defs
import proofs.«148738_j38654705664133_1_alg».proof.Proof.Gen.KernelIdeal
import proofs.«148738_j38654705664133_1_alg».proof.Proof.Gen.Pre_finite_inputs
import proofs.«148738_j38654705664133_1_alg».proof.Proof.KI.Run
import proofs.«148738_j38654705664133_1_alg».proof.Proof.KI.Args

set_option maxRecDepth 16384

noncomputable section

namespace Cert.Proof

open Idealize.ShloMosaic Idealize.ShloMosaic.TcCoe Idealize.SL.Sem

theorem frame_ki : Cert.frame_KernelIdeal := fun m ρ _ =>
  (θ_run (Cert.KernelIdeal.defs (F := Ideal)) _ _).mono (fun r h c => ⟨
    (h c _ (Cert.KernelIdeal.Fr.mem_uc Cert.KernelIdeal.main_arg0 (by decide))).trans (Cert.KernelIdeal.Fr.W15_main_arg0 m ρ c),
    (h c _ (Cert.KernelIdeal.Fr.mem_uc Cert.KernelIdeal.main_arg1 (by decide))).trans (Cert.KernelIdeal.Fr.W15_main_arg1 m ρ c),
    (h c _ (Cert.KernelIdeal.Fr.mem_uc Cert.KernelIdeal.main_arg2 (by decide))).trans (Cert.KernelIdeal.Fr.W15_main_arg2 m ρ c),
    (h c _ (Cert.KernelIdeal.Fr.mem_uc Cert.KernelIdeal.main_arg3 (by decide))).trans (Cert.KernelIdeal.Fr.W15_main_arg3 m ρ c),
    (h c _ (Cert.KernelIdeal.Fr.mem_uc Cert.KernelIdeal.main_arg4 (by decide))).trans (Cert.KernelIdeal.Fr.W15_main_arg4 m ρ c),
    (h c _ (Cert.KernelIdeal.Fr.mem_uc Cert.KernelIdeal.main_arg5 (by decide))).trans (Cert.KernelIdeal.Fr.W15_main_arg5 m ρ c),
    (h c _ (Cert.KernelIdeal.Fr.mem_uc Cert.KernelIdeal.main_arg6 (by decide))).trans (Cert.KernelIdeal.Fr.W15_main_arg6 m ρ c),
    (h c _ (Cert.KernelIdeal.Fr.mem_uc Cert.KernelIdeal.main_arg7 (by decide))).trans (Cert.KernelIdeal.Fr.W15_main_arg7 m ρ c),
    (h c _ (Cert.KernelIdeal.Fr.mem_uc Cert.KernelIdeal.main_arg8 (by decide))).trans (Cert.KernelIdeal.Fr.W15_main_arg8 m ρ c),
    (h c _ (Cert.KernelIdeal.Fr.mem_uc Cert.KernelIdeal.main_arg9 (by decide))).trans (Cert.KernelIdeal.Fr.W15_main_arg9 m ρ c),
    (h c _ (Cert.KernelIdeal.Fr.mem_uc Cert.KernelIdeal.main_arg10 (by decide))).trans (Cert.KernelIdeal.Fr.W15_main_arg10 m ρ c),
    (h c _ (Cert.KernelIdeal.Fr.mem_uc Cert.KernelIdeal.main_arg11 (by decide))).trans (Cert.KernelIdeal.Fr.W15_main_arg11 m ρ c),
    (h c _ (Cert.KernelIdeal.Fr.mem_uc Cert.KernelIdeal.main_arg12 (by decide))).trans (Cert.KernelIdeal.Fr.W15_main_arg12 m ρ c),
    (h c _ (Cert.KernelIdeal.Fr.mem_uc Cert.KernelIdeal.main_arg13 (by decide))).trans (Cert.KernelIdeal.Fr.W15_main_arg13 m ρ c)⟩)
    (Cert.KernelIdeal.Fr.run_main (F := Ideal) m ρ)

end Cert.Proof

end
-- ==== Proof.RefRunOps.lean ====
/-
  The reference's operation list cut into thirteen consecutive stretches.

  The cuts fall after the values that later operations read more than once (the two rows of the edge list, each
  dense stage, each aggregation, the node embeddings, the two gathered endpoint rows, the pair features, the score
  column).  Reading a stretch from an arbitrary memory then gives a small term, because what earlier stretches wrote
  enters as a variable.  Every operation writes exactly one reference and the references are numbered in program
  order, so a stretch that starts at operation p leaves every reference of index below 14 + p untouched.
-/
import proofs.«148738_j38654705664133_1_alg».proof.Proof.RefGen.RunCore
import Idealize.ShloMosaic.Lib.Pipeline.Frame

noncomputable section

namespace Cert.ReferenceIdeal.RefRun

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- A reference that fails `P` keeps its contents through a line of operations each of which writes exactly one
    reference, that reference satisfying `P`. -/
theorem after_keeps {P : Ref sig .tc → Prop} (l : List (HloOp τ sig (Elt F))) (V : Valuation τ sig (Elt F))
    (hW : l.Forall fun op => ∃ y : Ref sig .tc, P y ∧ op.writes = {Proc.devRef .tc y}) {r : Ref sig .tc} (hr : ¬ P r) :
    after l V (Proc.devRef .tc r) = V (Proc.devRef .tc r) :=
  after_of_forall_not_mem l V fun op hop hb => by
    obtain ⟨y, hy, he⟩ := (List.forall_iff_forall_mem.mp hW) op hop
    rw [he, Finset.mem_singleton] at hb
    obtain rfl : r = y := Proc.devRef_injective _ hb
    exact hr hy

/-- `nary` over a literal family of three references (a concatenation of three operands): the result with each
    operand's contents at its own reference, so that the operands' contents can be read on. -/
theorem nary3_result {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl
/-- The same, in the form a simplification pass can use. -/
theorem nary3_result' {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- Operations 1 to 4 of the reference, in order. -/
def s0 : List (HloOp τ sig (Elt F)) :=
  [
    unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- Operations 5 to 15 of the reference, in order. -/
def s1 : List (HloOp τ sig (Elt F)) :=
  [
    binary main_arg0 main_arg4 main_v4 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg5 main_v5 (broadcastInDim S1x128 ![1] bcast_S128_S1x128_1 : (⟨S128, .f32⟩ : BufTy).Contents (Elt F) → (⟨S1x128, .f32⟩ : BufTy).Contents (Elt F)),
    unary main_v5 main_v6 (broadcastInDim S100000x128 ![0, 1] bcast_S1x128_S100000x128_0_1 : (⟨S1x128, .f32⟩ : BufTy).Contents (Elt F) → (⟨S100000x128, .f32⟩ : BufTy).Contents (Elt F)),
    binary main_v4 main_v6 main_v7 (addf : (⟨S100000x128, .f32⟩ : BufTy).Contents (Elt F) → (⟨S100000x128, .f32⟩ : BufTy).Contents (Elt F) → (⟨S100000x128, .f32⟩ : BufTy).Contents (Elt F)),
    nullary main_cst (constant S_ .f32 0x00000000#32),
    unary main_cst main_v8 (broadcastInDim S100000x128 ![] bcast_S_S100000x128 : (⟨S_, .f32⟩ : BufTy).Contents (Elt F) → (⟨S100000x128, .f32⟩ : BufTy).Contents (Elt F)),
    binary main_v7 main_v8 main_v9 (cmpf .ogt : (⟨S100000x128, .f32⟩ : BufTy).Contents (Elt F) → (⟨S100000x128, .f32⟩ : BufTy).Contents (Elt F) → (⟨S100000x128, .i1⟩ : BufTy).Contents (Elt F)),
    nullary main_cst_0 (constant S_ .f32 0x3C23D70A#32),
    unary main_cst_0 main_v10 (broadcastInDim S100000x128 ![] bcast_S_S100000x128 : (⟨S_, .f32⟩ : BufTy).Contents (Elt F) → (⟨S100000x128, .f32⟩ : BufTy).Contents (Elt F)),
    binary main_v10 main_v7 main_v11 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v9) (TRef.of (T := ⟨S100000x128, .f32⟩) main_v7) (TRef.of (T := ⟨S100000x128, .f32⟩) main_v11) (TRef.of (T := ⟨S100000x128, .f32⟩) main_v12) select ]

/-- Operations 16 to 26 of the reference, in order. -/
def s2 : List (HloOp τ sig (Elt F)) :=
  [
    binary main_v12 main_arg6 main_v13 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg7 main_v14 (broadcastInDim S1x64 ![1] bcast_S64_S1x64_1 : (⟨S64, .f32⟩ : BufTy).Contents (Elt F) → (⟨S1x64, .f32⟩ : BufTy).Contents (Elt F)),
    unary main_v14 main_v15 (broadcastInDim S100000x64 ![0, 1] bcast_S1x64_S100000x64_0_1 : (⟨S1x64, .f32⟩ : BufTy).Contents (Elt F) → (⟨S100000x64, .f32⟩ : BufTy).Contents (Elt F)),
    binary main_v13 main_v15 main_v16 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x00000000#32),
    unary main_cst_1 main_v17 (broadcastInDim S100000x64 ![] bcast_S_S100000x64 : (⟨S_, .f32⟩ : BufTy).Contents (Elt F) → (⟨S100000x64, .f32⟩ : BufTy).Contents (Elt F)),
    binary main_v16 main_v17 main_v18 (cmpf .ogt : (⟨S100000x64, .f32⟩ : BufTy).Contents (Elt F) → (⟨S100000x64, .f32⟩ : BufTy).Contents (Elt F) → (⟨S100000x64, .i1⟩ : BufTy).Contents (Elt F)),
    nullary main_cst_2 (constant S_ .f32 0x3C23D70A#32),
    unary main_cst_2 main_v19 (broadcastInDim S100000x64 ![] bcast_S_S100000x64 : (⟨S_, .f32⟩ : BufTy).Contents (Elt F) → (⟨S100000x64, .f32⟩ : BufTy).Contents (Elt F)),
    binary main_v19 main_v16 main_v20 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v18) (TRef.of (T := ⟨S100000x64, .f32⟩) main_v16) (TRef.of (T := ⟨S100000x64, .f32⟩) main_v20) (TRef.of (T := ⟨S100000x64, .f32⟩) main_v21) select ]

/-- Operations 27 to 27 of the reference, in order. -/
def s3 : List (HloOp τ sig (Elt F)) :=
  [
    binary main_v21 main_arg8 main_v22 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Operations 28 to 93 of the reference, in order. -/
def s4 : List (HloOp τ sig (Elt F)) :=
  [
    nullary main_cst_3 (constant S_ .f32 0x00000000#32),
    unary main_cst_3 main_v23 (broadcastInDim S100000 ![] bcast_S_S100000 : (⟨S_, .f32⟩ : BufTy).Contents (Elt F) → (⟨S100000, .f32⟩ : BufTy).Contents (Elt F)),
    nullary main_c (constantI S_ 32 0#32),
    unary main_c main_v24 (broadcastInDim S1600000 ![] bcast_S_S1600000 : (⟨S_, .i32⟩ : BufTy).Contents (Elt F) → (⟨S1600000, .i32⟩ : BufTy).Contents (Elt F)),
    binary main_v3 main_v24 main_v25 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v26 (broadcastInDim S1600000 ![] bcast_S_S1600000 : (⟨S_, .i32⟩ : BufTy).Contents (Elt F) → (⟨S1600000, .i32⟩ : BufTy).Contents (Elt F)),
    binary main_v3 main_v26 main_v27 (addi : (⟨S1600000, .i32⟩ : BufTy).Contents (Elt F) → (⟨S1600000, .i32⟩ : BufTy).Contents (Elt F) → (⟨S1600000, .i32⟩ : BufTy).Contents (Elt F)),
    ternary main_v25 main_v27 main_v3 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v28 main_v29 (broadcastInDim S1600000x1 ![0] bcast_S1600000_S1600000x1_0 : (⟨S1600000, .i32⟩ : BufTy).Contents (Elt F) → (⟨S1600000x1, .i32⟩ : BufTy).Contents (Elt F)),
    nullary main_cst_5 (constant S_ .f32 0x3F800000#32),
    unary main_cst_5 main_v30 (broadcastInDim S1600000 ![] bcast_S_S1600000 : (⟨S_, .f32⟩ : BufTy).Contents (Elt F) → (⟨S1600000, .f32⟩ : BufTy).Contents (Elt F)),
    ternary main_v23 main_v29 main_v30 main_v31 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_6 (constant S_ .f32 0x3F800000#32),
    unary main_cst_6 main_v32 (broadcastInDim S100000 ![] bcast_S_S100000 : (⟨S_, .f32⟩ : BufTy).Contents (Elt F) → (⟨S100000, .f32⟩ : BufTy).Contents (Elt F)),
    binary main_v31 main_v32 main_v33 (addf : (⟨S100000, .f32⟩ : BufTy).Contents (Elt F) → (⟨S100000, .f32⟩ : BufTy).Contents (Elt F) → (⟨S100000, .f32⟩ : BufTy).Contents (Elt F)),
    unary main_v33 main_v34 (Host.rsqrt : (⟨S100000, .f32⟩ : BufTy).Contents (Elt F) → (⟨S100000, .f32⟩ : BufTy).Contents (Elt F)),
    nullary main_c_7 (constantI S_ 32 0#32),
    unary main_c_7 main_v35 (broadcastInDim S1600000 ![] bcast_S_S1600000 : (⟨S_, .i32⟩ : BufTy).Contents (Elt F) → (⟨S1600000, .i32⟩ : BufTy).Contents (Elt F)),
    binary main_v1 main_v35 main_v36 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v37 (broadcastInDim S1600000 ![] bcast_S_S1600000 : (⟨S_, .i32⟩ : BufTy).Contents (Elt F) → (⟨S1600000, .i32⟩ : BufTy).Contents (Elt F)),
    binary main_v1 main_v37 main_v38 (addi : (⟨S1600000, .i32⟩ : BufTy).Contents (Elt F) → (⟨S1600000, .i32⟩ : BufTy).Contents (Elt F) → (⟨S1600000, .i32⟩ : BufTy).Contents (Elt F)),
    ternary main_v36 main_v38 main_v1 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v39 main_v40 (broadcastInDim S1600000x1 ![0] bcast_S1600000_S1600000x1_0 : (⟨S1600000, .i32⟩ : BufTy).Contents (Elt F) → (⟨S1600000x1, .i32⟩ : BufTy).Contents (Elt F)),
    binary main_v34 main_v40 main_v41 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_9 (constantI S_ 32 0#32),
    unary main_c_9 main_v42 (broadcastInDim S1600000 ![] bcast_S_S1600000 : (⟨S_, .i32⟩ : BufTy).Contents (Elt F) → (⟨S1600000, .i32⟩ : BufTy).Contents (Elt F)),
    binary main_v3 main_v42 main_v43 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v44 (broadcastInDim S1600000 ![] bcast_S_S1600000 : (⟨S_, .i32⟩ : BufTy).Contents (Elt F) → (⟨S1600000, .i32⟩ : BufTy).Contents (Elt F)),
    binary main_v3 main_v44 main_v45 (addi : (⟨S1600000, .i32⟩ : BufTy).Contents (Elt F) → (⟨S1600000, .i32⟩ : BufTy).Contents (Elt F) → (⟨S1600000, .i32⟩ : BufTy).Contents (Elt F)),
    ternary main_v43 main_v45 main_v3 main_v46 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v46 main_v47 (broadcastInDim S1600000x1 ![0] bcast_S1600000_S1600000x1_0 : (⟨S1600000, .i32⟩ : BufTy).Contents (Elt F) → (⟨S1600000x1, .i32⟩ : BufTy).Contents (Elt F)),
    binary main_v34 main_v47 main_v48 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v41 main_v48 main_v49 (mulf : (⟨S1600000, .f32⟩ : BufTy).Contents (Elt F) → (⟨S1600000, .f32⟩ : BufTy).Contents (Elt F) → (⟨S1600000, .f32⟩ : BufTy).Contents (Elt F)),
    nullary main_cst_11 (constant S_ .f32 0x00000000#32),
    unary main_cst_11 main_v50 (broadcastInDim S100000x64 ![] bcast_S_S100000x64 : (⟨S_, .f32⟩ : BufTy).Contents (Elt F) → (⟨S100000x64, .f32⟩ : BufTy).Contents (Elt F)),
    unary main_v49 main_v51 (broadcastInDim S1600000x1 ![0] bcast_S1600000_S1600000x1_0 : (⟨S1600000, .f32⟩ : BufTy).Contents (Elt F) → (⟨S1600000x1, .f32⟩ : BufTy).Contents (Elt F)),
    nullary main_c_12 (constantI S_ 32 0#32),
    unary main_c_12 main_v52 (broadcastInDim S1600000 ![] bcast_S_S1600000 : (⟨S_, .i32⟩ : BufTy).Contents (Elt F) → (⟨S1600000, .i32⟩ : BufTy).Contents (Elt F)),
    binary main_v1 main_v52 main_v53 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v54 (broadcastInDim S1600000 ![] bcast_S_S1600000 : (⟨S_, .i32⟩ : BufTy).Contents (Elt F) → (⟨S1600000, .i32⟩ : BufTy).Contents (Elt F)),
    binary main_v1 main_v54 main_v55 (addi : (⟨S1600000, .i32⟩ : BufTy).Contents (Elt F) → (⟨S1600000, .i32⟩ : BufTy).Contents (Elt F) → (⟨S1600000, .i32⟩ : BufTy).Contents (Elt F)),
    ternary main_v53 main_v55 main_v1 main_v56 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v56 main_v57 (broadcastInDim S1600000x1 ![0] bcast_S1600000_S1600000x1_0 : (⟨S1600000, .i32⟩ : BufTy).Contents (Elt F) → (⟨S1600000x1, .i32⟩ : BufTy).Contents (Elt F)),
    binary main_v22 main_v57 main_v58 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v51 main_v59 (broadcastInDim S1600000x64 ![0, 1] bcast_S1600000x1_S1600000x64_0_1 : (⟨S1600000x1, .f32⟩ : BufTy).Contents (Elt F) → (⟨S1600000x64, .f32⟩ : BufTy).Contents (Elt F)),
    binary main_v59 main_v58 main_v60 (mulf : (⟨S1600000x64, .f32⟩ : BufTy).Contents (Elt F) → (⟨S1600000x64, .f32⟩ : BufTy).Contents (Elt F) → (⟨S1600000x64, .f32⟩ : BufTy).Contents (Elt F)),
    nullary main_c_14 (constantI S_ 32 0#32),
    unary main_c_14 main_v61 (broadcastInDim S1600000 ![] bcast_S_S1600000 : (⟨S_, .i32⟩ : BufTy).Contents (Elt F) → (⟨S1600000, .i32⟩ : BufTy).Contents (Elt F)),
    binary main_v3 main_v61 main_v62 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v63 (broadcastInDim S1600000 ![] bcast_S_S1600000 : (⟨S_, .i32⟩ : BufTy).Contents (Elt F) → (⟨S1600000, .i32⟩ : BufTy).Contents (Elt F)),
    binary main_v3 main_v63 main_v64 (addi : (⟨S1600000, .i32⟩ : BufTy).Contents (Elt F) → (⟨S1600000, .i32⟩ : BufTy).Contents (Elt F) → (⟨S1600000, .i32⟩ : BufTy).Contents (Elt F)),
    ternary main_v62 main_v64 main_v3 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v65 main_v66 (broadcastInDim S1600000x1 ![0] bcast_S1600000_S1600000x1_0 : (⟨S1600000, .i32⟩ : BufTy).Contents (Elt F) → (⟨S1600000x1, .i32⟩ : BufTy).Contents (Elt F)),
    ternary main_v50 main_v66 main_v60 main_v67 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_16 (constant S_ .f32 0x3F800000#32),
    unary main_cst_16 main_v68 (broadcastInDim S100000 ![] bcast_S_S100000 : (⟨S_, .f32⟩ : BufTy).Contents (Elt F) → (⟨S100000, .f32⟩ : BufTy).Contents (Elt F)),
    binary main_v68 main_v33 main_v69 (Host.divf : (⟨S100000, .f32⟩ : BufTy).Contents (Elt F) → (⟨S100000, .f32⟩ : BufTy).Contents (Elt F) → (⟨S100000, .f32⟩ : BufTy).Contents (Elt F)),
    unary main_v69 main_v70 (broadcastInDim S100000x1 ![0] bcast_S100000_S100000x1_0 : (⟨S100000, .f32⟩ : BufTy).Contents (Elt F) → (⟨S100000x1, .f32⟩ : BufTy).Contents (Elt F)),
    unary main_v70 main_v71 (broadcastInDim S100000x64 ![0, 1] bcast_S100000x1_S100000x64_0_1 : (⟨S100000x1, .f32⟩ : BufTy).Contents (Elt F) → (⟨S100000x64, .f32⟩ : BufTy).Contents (Elt F)),
    binary main_v22 main_v71 main_v72 (mulf : (⟨S100000x64, .f32⟩ : BufTy).Contents (Elt F) → (⟨S100000x64, .f32⟩ : BufTy).Contents (Elt F) → (⟨S100000x64, .f32⟩ : BufTy).Contents (Elt F)),
    binary main_v67 main_v72 main_v73 (addf : (⟨S100000x64, .f32⟩ : BufTy).Contents (Elt F) → (⟨S100000x64, .f32⟩ : BufTy).Contents (Elt F) → (⟨S100000x64, .f32⟩ : BufTy).Contents (Elt F)) ]

/-- Operations 94 to 103 of the reference, in order. -/
def s5 : List (HloOp τ sig (Elt F)) :=
  [
    unary main_arg9 main_v74 (broadcastInDim S1x64 ![1] bcast_S64_S1x64_1 : (⟨S64, .f32⟩ : BufTy).Contents (Elt F) → (⟨S1x64, .f32⟩ : BufTy).Contents (Elt F)),
    unary main_v74 main_v75 (broadcastInDim S100000x64 ![0, 1] bcast_S1x64_S100000x64_0_1 : (⟨S1x64, .f32⟩ : BufTy).Contents (Elt F) → (⟨S100000x64, .f32⟩ : BufTy).Contents (Elt F)),
    binary main_v73 main_v75 main_v76 (addf : (⟨S100000x64, .f32⟩ : BufTy).Contents (Elt F) → (⟨S100000x64, .f32⟩ : BufTy).Contents (Elt F) → (⟨S100000x64, .f32⟩ : BufTy).Contents (Elt F)),
    nullary main_cst_17 (constant S_ .f32 0x00000000#32),
    unary main_cst_17 main_v77 (broadcastInDim S100000x64 ![] bcast_S_S100000x64 : (⟨S_, .f32⟩ : BufTy).Contents (Elt F) → (⟨S100000x64, .f32⟩ : BufTy).Contents (Elt F)),
    binary main_v76 main_v77 main_v78 (cmpf .ogt : (⟨S100000x64, .f32⟩ : BufTy).Contents (Elt F) → (⟨S100000x64, .f32⟩ : BufTy).Contents (Elt F) → (⟨S100000x64, .i1⟩ : BufTy).Contents (Elt F)),
    nullary main_cst_18 (constant S_ .f32 0x3C23D70A#32),
    unary main_cst_18 main_v79 (broadcastInDim S100000x64 ![] bcast_S_S100000x64 : (⟨S_, .f32⟩ : BufTy).Contents (Elt F) → (⟨S100000x64, .f32⟩ : BufTy).Contents (Elt F)),
    binary main_v79 main_v76 main_v80 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v78) (TRef.of (T := ⟨S100000x64, .f32⟩) main_v76) (TRef.of (T := ⟨S100000x64, .f32⟩) main_v80) (TRef.of (T := ⟨S100000x64, .f32⟩) main_v81) select ]

/-- Operations 104 to 104 of the reference, in order. -/
def s6 : List (HloOp τ sig (Elt F)) :=
  [
    binary main_v81 main_arg10 main_v82 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Operations 105 to 170 of the reference, in order. -/
def s7 : List (HloOp τ sig (Elt F)) :=
  [
    nullary main_cst_19 (constant S_ .f32 0x00000000#32),
    unary main_cst_19 main_v83 (broadcastInDim S100000 ![] bcast_S_S100000 : (⟨S_, .f32⟩ : BufTy).Contents (Elt F) → (⟨S100000, .f32⟩ : BufTy).Contents (Elt F)),
    nullary main_c_20 (constantI S_ 32 0#32),
    unary main_c_20 main_v84 (broadcastInDim S1600000 ![] bcast_S_S1600000 : (⟨S_, .i32⟩ : BufTy).Contents (Elt F) → (⟨S1600000, .i32⟩ : BufTy).Contents (Elt F)),
    binary main_v3 main_v84 main_v85 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v86 (broadcastInDim S1600000 ![] bcast_S_S1600000 : (⟨S_, .i32⟩ : BufTy).Contents (Elt F) → (⟨S1600000, .i32⟩ : BufTy).Contents (Elt F)),
    binary main_v3 main_v86 main_v87 (addi : (⟨S1600000, .i32⟩ : BufTy).Contents (Elt F) → (⟨S1600000, .i32⟩ : BufTy).Contents (Elt F) → (⟨S1600000, .i32⟩ : BufTy).Contents (Elt F)),
    ternary main_v85 main_v87 main_v3 main_v88 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v88 main_v89 (broadcastInDim S1600000x1 ![0] bcast_S1600000_S1600000x1_0 : (⟨S1600000, .i32⟩ : BufTy).Contents (Elt F) → (⟨S1600000x1, .i32⟩ : BufTy).Contents (Elt F)),
    nullary main_cst_22 (constant S_ .f32 0x3F800000#32),
    unary main_cst_22 main_v90 (broadcastInDim S1600000 ![] bcast_S_S1600000 : (⟨S_, .f32⟩ : BufTy).Contents (Elt F) → (⟨S1600000, .f32⟩ : BufTy).Contents (Elt F)),
    ternary main_v83 main_v89 main_v90 main_v91 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_23 (constant S_ .f32 0x3F800000#32),
    unary main_cst_23 main_v92 (broadcastInDim S100000 ![] bcast_S_S100000 : (⟨S_, .f32⟩ : BufTy).Contents (Elt F) → (⟨S100000, .f32⟩ : BufTy).Contents (Elt F)),
    binary main_v91 main_v92 main_v93 (addf : (⟨S100000, .f32⟩ : BufTy).Contents (Elt F) → (⟨S100000, .f32⟩ : BufTy).Contents (Elt F) → (⟨S100000, .f32⟩ : BufTy).Contents (Elt F)),
    unary main_v93 main_v94 (Host.rsqrt : (⟨S100000, .f32⟩ : BufTy).Contents (Elt F) → (⟨S100000, .f32⟩ : BufTy).Contents (Elt F)),
    nullary main_c_24 (constantI S_ 32 0#32),
    unary main_c_24 main_v95 (broadcastInDim S1600000 ![] bcast_S_S1600000 : (⟨S_, .i32⟩ : BufTy).Contents (Elt F) → (⟨S1600000, .i32⟩ : BufTy).Contents (Elt F)),
    binary main_v1 main_v95 main_v96 (cmpi .slt : (⟨S1600000, .i32⟩ : BufTy).Contents (Elt F) → (⟨S1600000, .i32⟩ : BufTy).Contents (Elt F) → (⟨S1600000, .i1⟩ : BufTy).Contents (Elt F)),
    nullary main_c_25 (constantI S_ 32 100000#32),
    unary main_c_25 main_v97 (broadcastInDim S1600000 ![] bcast_S_S1600000 : (⟨S_, .i32⟩ : BufTy).Contents (Elt F) → (⟨S1600000, .i32⟩ : BufTy).Contents (Elt F)),
    binary main_v1 main_v97 main_v98 (addi : (⟨S1600000, .i32⟩ : BufTy).Contents (Elt F) → (⟨S1600000, .i32⟩ : BufTy).Contents (Elt F) → (⟨S1600000, .i32⟩ : BufTy).Contents (Elt F)),
    ternary main_v96 main_v98 main_v1 main_v99 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v99 main_v100 (broadcastInDim S1600000x1 ![0] bcast_S1600000_S1600000x1_0 : (⟨S1600000, .i32⟩ : BufTy).Contents (Elt F) → (⟨S1600000x1, .i32⟩ : BufTy).Contents (Elt F)),
    binary main_v94 main_v100 main_v101 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_26 (constantI S_ 32 0#32),
    unary main_c_26 main_v102 (broadcastInDim S1600000 ![] bcast_S_S1600000 : (⟨S_, .i32⟩ : BufTy).Contents (Elt F) → (⟨S1600000, .i32⟩ : BufTy).Contents (Elt F)),
    binary main_v3 main_v102 main_v103 (cmpi .slt : (⟨S1600000, .i32⟩ : BufTy).Contents (Elt F) → (⟨S1600000, .i32⟩ : BufTy).Contents (Elt F) → (⟨S1600000, .i1⟩ : BufTy).Contents (Elt F)),
    nullary main_c_27 (constantI S_ 32 100000#32),
    unary main_c_27 main_v104 (broadcastInDim S1600000 ![] bcast_S_S1600000 : (⟨S_, .i32⟩ : BufTy).Contents (Elt F) → (⟨S1600000, .i32⟩ : BufTy).Contents (Elt F)),
    binary main_v3 main_v104 main_v105 (addi : (⟨S1600000, .i32⟩ : BufTy).Contents (Elt F) → (⟨S1600000, .i32⟩ : BufTy).Contents (Elt F) → (⟨S1600000, .i32⟩ : BufTy).Contents (Elt F)),
    ternary main_v103 main_v105 main_v3 main_v106 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v106 main_v107 (broadcastInDim S1600000x1 ![0] bcast_S1600000_S1600000x1_0 : (⟨S1600000, .i32⟩ : BufTy).Contents (Elt F) → (⟨S1600000x1, .i32⟩ : BufTy).Contents (Elt F)),
    binary main_v94 main_v107 main_v108 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v101 main_v108 main_v109 (mulf : (⟨S1600000, .f32⟩ : BufTy).Contents (Elt F) → (⟨S1600000, .f32⟩ : BufTy).Contents (Elt F) → (⟨S1600000, .f32⟩ : BufTy).Contents (Elt F)),
    nullary main_cst_28 (constant S_ .f32 0x00000000#32),
    unary main_cst_28 main_v110 (broadcastInDim S100000x64 ![] bcast_S_S100000x64 : (⟨S_, .f32⟩ : BufTy).Contents (Elt F) → (⟨S100000x64, .f32⟩ : BufTy).Contents (Elt F)),
    unary main_v109 main_v111 (broadcastInDim S1600000x1 ![0] bcast_S1600000_S1600000x1_0 : (⟨S1600000, .f32⟩ : BufTy).Contents (Elt F) → (⟨S1600000x1, .f32⟩ : BufTy).Contents (Elt F)),
    nullary main_c_29 (constantI S_ 32 0#32),
    unary main_c_29 main_v112 (broadcastInDim S1600000 ![] bcast_S_S1600000 : (⟨S_, .i32⟩ : BufTy).Contents (Elt F) → (⟨S1600000, .i32⟩ : BufTy).Contents (Elt F)),
    binary main_v1 main_v112 main_v113 (cmpi .slt : (⟨S1600000, .i32⟩ : BufTy).Contents (Elt F) → (⟨S1600000, .i32⟩ : BufTy).Contents (Elt F) → (⟨S1600000, .i1⟩ : BufTy).Contents (Elt F)),
    nullary main_c_30 (constantI S_ 32 100000#32),
    unary main_c_30 main_v114 (broadcastInDim S1600000 ![] bcast_S_S1600000 : (⟨S_, .i32⟩ : BufTy).Contents (Elt F) → (⟨S1600000, .i32⟩ : BufTy).Contents (Elt F)),
    binary main_v1 main_v114 main_v115 (addi : (⟨S1600000, .i32⟩ : BufTy).Contents (Elt F) → (⟨S1600000, .i32⟩ : BufTy).Contents (Elt F) → (⟨S1600000, .i32⟩ : BufTy).Contents (Elt F)),
    ternary main_v113 main_v115 main_v1 main_v116 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v116 main_v117 (broadcastInDim S1600000x1 ![0] bcast_S1600000_S1600000x1_0 : (⟨S1600000, .i32⟩ : BufTy).Contents (Elt F) → (⟨S1600000x1, .i32⟩ : BufTy).Contents (Elt F)),
    binary main_v82 main_v117 main_v118 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v111 main_v119 (broadcastInDim S1600000x64 ![0, 1] bcast_S1600000x1_S1600000x64_0_1 : (⟨S1600000x1, .f32⟩ : BufTy).Contents (Elt F) → (⟨S1600000x64, .f32⟩ : BufTy).Contents (Elt F)),
    binary main_v119 main_v118 main_v120 (mulf : (⟨S1600000x64, .f32⟩ : BufTy).Contents (Elt F) → (⟨S1600000x64, .f32⟩ : BufTy).Contents (Elt F) → (⟨S1600000x64, .f32⟩ : BufTy).Contents (Elt F)),
    nullary main_c_31 (constantI S_ 32 0#32),
    unary main_c_31 main_v121 (broadcastInDim S1600000 ![] bcast_S_S1600000 : (⟨S_, .i32⟩ : BufTy).Contents (Elt F) → (⟨S1600000, .i32⟩ : BufTy).Contents (Elt F)),
    binary main_v3 main_v121 main_v122 (cmpi .slt : (⟨S1600000, .i32⟩ : BufTy).Contents (Elt F) → (⟨S1600000, .i32⟩ : BufTy).Contents (Elt F) → (⟨S1600000, .i1⟩ : BufTy).Contents (Elt F)),
    nullary main_c_32 (constantI S_ 32 100000#32),
    unary main_c_32 main_v123 (broadcastInDim S1600000 ![] bcast_S_S1600000 : (⟨S_, .i32⟩ : BufTy).Contents (Elt F) → (⟨S1600000, .i32⟩ : BufTy).Contents (Elt F)),
    binary main_v3 main_v123 main_v124 (addi : (⟨S1600000, .i32⟩ : BufTy).Contents (Elt F) → (⟨S1600000, .i32⟩ : BufTy).Contents (Elt F) → (⟨S1600000, .i32⟩ : BufTy).Contents (Elt F)),
    ternary main_v122 main_v124 main_v3 main_v125 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v125 main_v126 (broadcastInDim S1600000x1 ![0] bcast_S1600000_S1600000x1_0 : (⟨S1600000, .i32⟩ : BufTy).Contents (Elt F) → (⟨S1600000x1, .i32⟩ : BufTy).Contents (Elt F)),
    ternary main_v110 main_v126 main_v120 main_v127 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_33 (constant S_ .f32 0x3F800000#32),
    unary main_cst_33 main_v128 (broadcastInDim S100000 ![] bcast_S_S100000 : (⟨S_, .f32⟩ : BufTy).Contents (Elt F) → (⟨S100000, .f32⟩ : BufTy).Contents (Elt F)),
    binary main_v128 main_v93 main_v129 (Host.divf : (⟨S100000, .f32⟩ : BufTy).Contents (Elt F) → (⟨S100000, .f32⟩ : BufTy).Contents (Elt F) → (⟨S100000, .f32⟩ : BufTy).Contents (Elt F)),
    unary main_v129 main_v130 (broadcastInDim S100000x1 ![0] bcast_S100000_S100000x1_0 : (⟨S100000, .f32⟩ : BufTy).Contents (Elt F) → (⟨S100000x1, .f32⟩ : BufTy).Contents (Elt F)),
    unary main_v130 main_v131 (broadcastInDim S100000x64 ![0, 1] bcast_S100000x1_S100000x64_0_1 : (⟨S100000x1, .f32⟩ : BufTy).Contents (Elt F) → (⟨S100000x64, .f32⟩ : BufTy).Contents (Elt F)),
    binary main_v82 main_v131 main_v132 (mulf : (⟨S100000x64, .f32⟩ : BufTy).Contents (Elt F) → (⟨S100000x64, .f32⟩ : BufTy).Contents (Elt F) → (⟨S100000x64, .f32⟩ : BufTy).Contents (Elt F)),
    binary main_v127 main_v132 main_v133 (addf : (⟨S100000x64, .f32⟩ : BufTy).Contents (Elt F) → (⟨S100000x64, .f32⟩ : BufTy).Contents (Elt F) → (⟨S100000x64, .f32⟩ : BufTy).Contents (Elt F)) ]

/-- Operations 171 to 180 of the reference, in order. -/
def s8 : List (HloOp τ sig (Elt F)) :=
  [
    unary main_arg11 main_v134 (broadcastInDim S1x64 ![1] bcast_S64_S1x64_1 : (⟨S64, .f32⟩ : BufTy).Contents (Elt F) → (⟨S1x64, .f32⟩ : BufTy).Contents (Elt F)),
    unary main_v134 main_v135 (broadcastInDim S100000x64 ![0, 1] bcast_S1x64_S100000x64_0_1 : (⟨S1x64, .f32⟩ : BufTy).Contents (Elt F) → (⟨S100000x64, .f32⟩ : BufTy).Contents (Elt F)),
    binary main_v133 main_v135 main_v136 (addf : (⟨S100000x64, .f32⟩ : BufTy).Contents (Elt F) → (⟨S100000x64, .f32⟩ : BufTy).Contents (Elt F) → (⟨S100000x64, .f32⟩ : BufTy).Contents (Elt F)),
    nullary main_cst_34 (constant S_ .f32 0x00000000#32),
    unary main_cst_34 main_v137 (broadcastInDim S100000x64 ![] bcast_S_S100000x64 : (⟨S_, .f32⟩ : BufTy).Contents (Elt F) → (⟨S100000x64, .f32⟩ : BufTy).Contents (Elt F)),
    binary main_v136 main_v137 main_v138 (cmpf .ogt : (⟨S100000x64, .f32⟩ : BufTy).Contents (Elt F) → (⟨S100000x64, .f32⟩ : BufTy).Contents (Elt F) → (⟨S100000x64, .i1⟩ : BufTy).Contents (Elt F)),
    nullary main_cst_35 (constant S_ .f32 0x3C23D70A#32),
    unary main_cst_35 main_v139 (broadcastInDim S100000x64 ![] bcast_S_S100000x64 : (⟨S_, .f32⟩ : BufTy).Contents (Elt F) → (⟨S100000x64, .f32⟩ : BufTy).Contents (Elt F)),
    binary main_v139 main_v136 main_v140 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v138) (TRef.of (T := ⟨S100000x64, .f32⟩) main_v136) (TRef.of (T := ⟨S100000x64, .f32⟩) main_v140) (TRef.of (T := ⟨S100000x64, .f32⟩) main_v141) select ]

/-- Operations 181 to 202 of the reference, in order. -/
def s9 : List (HloOp τ sig (Elt F)) :=
  [
    unary main_arg2 main_v142 ((extractStridedSlice S1x200000 ![0, 0] · slices_S2x200000_S1x200000_0_0) : (⟨S2x200000, .i32⟩ : BufTy).Contents (Elt F) → (⟨S1x200000, .i32⟩ : BufTy).Contents (Elt F)),
    reshape main_v142 main_v143 rfl shapeCasts_S1x200000_S200000,
    nullary main_c_36 (constantI S_ 32 0#32),
    unary main_c_36 main_v144 (broadcastInDim S200000 ![] bcast_S_S200000 : (⟨S_, .i32⟩ : BufTy).Contents (Elt F) → (⟨S200000, .i32⟩ : BufTy).Contents (Elt F)),
    binary main_v143 main_v144 main_v145 (cmpi .slt : (⟨S200000, .i32⟩ : BufTy).Contents (Elt F) → (⟨S200000, .i32⟩ : BufTy).Contents (Elt F) → (⟨S200000, .i1⟩ : BufTy).Contents (Elt F)),
    nullary main_c_37 (constantI S_ 32 100000#32),
    unary main_c_37 main_v146 (broadcastInDim S200000 ![] bcast_S_S200000 : (⟨S_, .i32⟩ : BufTy).Contents (Elt F) → (⟨S200000, .i32⟩ : BufTy).Contents (Elt F)),
    binary main_v143 main_v146 main_v147 (addi : (⟨S200000, .i32⟩ : BufTy).Contents (Elt F) → (⟨S200000, .i32⟩ : BufTy).Contents (Elt F) → (⟨S200000, .i32⟩ : BufTy).Contents (Elt F)),
    ternary main_v145 main_v147 main_v143 main_v148 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v148 main_v149 (broadcastInDim S200000x1 ![0] bcast_S200000_S200000x1_0 : (⟨S200000, .i32⟩ : BufTy).Contents (Elt F) → (⟨S200000x1, .i32⟩ : BufTy).Contents (Elt F)),
    binary main_v141 main_v149 main_v150 ((fun x i => Host.gather gather_S100000x64_S200000x1_S200000x64_1_0_n_n_0_1_164 x i) : (⟨S100000x64, .f32⟩ : BufTy).Contents (Elt F) → (⟨S200000x1, .i32⟩ : BufTy).Contents (Elt F) → (⟨S200000x64, .f32⟩ : BufTy).Contents (Elt F)),
    unary main_arg2 main_v151 ((extractStridedSlice S1x200000 ![1, 0] · slices_S2x200000_S1x200000_1_0) : (⟨S2x200000, .i32⟩ : BufTy).Contents (Elt F) → (⟨S1x200000, .i32⟩ : BufTy).Contents (Elt F)),
    reshape main_v151 main_v152 rfl shapeCasts_S1x200000_S200000,
    nullary main_c_38 (constantI S_ 32 0#32),
    unary main_c_38 main_v153 (broadcastInDim S200000 ![] bcast_S_S200000 : (⟨S_, .i32⟩ : BufTy).Contents (Elt F) → (⟨S200000, .i32⟩ : BufTy).Contents (Elt F)),
    binary main_v152 main_v153 main_v154 (cmpi .slt : (⟨S200000, .i32⟩ : BufTy).Contents (Elt F) → (⟨S200000, .i32⟩ : BufTy).Contents (Elt F) → (⟨S200000, .i1⟩ : BufTy).Contents (Elt F)),
    nullary main_c_39 (constantI S_ 32 100000#32),
    unary main_c_39 main_v155 (broadcastInDim S200000 ![] bcast_S_S200000 : (⟨S_, .i32⟩ : BufTy).Contents (Elt F) → (⟨S200000, .i32⟩ : BufTy).Contents (Elt F)),
    binary main_v152 main_v155 main_v156 (addi : (⟨S200000, .i32⟩ : BufTy).Contents (Elt F) → (⟨S200000, .i32⟩ : BufTy).Contents (Elt F) → (⟨S200000, .i32⟩ : BufTy).Contents (Elt F)),
    ternary main_v154 main_v156 main_v152 main_v157 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v157 main_v158 (broadcastInDim S200000x1 ![0] bcast_S200000_S200000x1_0 : (⟨S200000, .i32⟩ : BufTy).Contents (Elt F) → (⟨S200000x1, .i32⟩ : BufTy).Contents (Elt F)),
    binary main_v141 main_v158 main_v159 ((fun x i => Host.gather gather_S100000x64_S200000x1_S200000x64_1_0_n_n_0_1_164 x i) : (⟨S100000x64, .f32⟩ : BufTy).Contents (Elt F) → (⟨S200000x1, .i32⟩ : BufTy).Contents (Elt F) → (⟨S200000x64, .f32⟩ : BufTy).Contents (Elt F)) ]

/-- Operations 203 to 203 of the reference, in order. -/
def s10 : List (HloOp τ sig (Elt F)) :=
  [
    nary ![main_v150, main_v159, main_arg3] main_v160 (fun u => concatenate S200000x136 1 [⟨S200000x64, u 0⟩, ⟨S200000x64, u 1⟩, ⟨S200000x8, u 2⟩] concatenates_S200000x64_S200000x64_S200000x8_S200000x136_d1) ]

/-- Operations 204 to 207 of the reference, in order. -/
def s11 : List (HloOp τ sig (Elt F)) :=
  [
    binary main_v160 main_arg12 main_v161 ((fun l r => Host.dotGeneral dot_S200000x136_S136x1_S200000x1_1_0_0_1_n_n none l r) : (⟨S200000x136, .f32⟩ : BufTy).Contents (Elt F) → (⟨S136x1, .f32⟩ : BufTy).Contents (Elt F) → (⟨S200000x1, .f32⟩ : BufTy).Contents (Elt F)),
    unary main_arg13 main_v162 (broadcastInDim S1x1 ![1] bcast_S1_S1x1_1 : (⟨S1, .f32⟩ : BufTy).Contents (Elt F) → (⟨S1x1, .f32⟩ : BufTy).Contents (Elt F)),
    unary main_v162 main_v163 (broadcastInDim S200000x1 ![0, 1] bcast_S1x1_S200000x1_0_1 : (⟨S1x1, .f32⟩ : BufTy).Contents (Elt F) → (⟨S200000x1, .f32⟩ : BufTy).Contents (Elt F)),
    binary main_v161 main_v163 main_v164 (addf : (⟨S200000x1, .f32⟩ : BufTy).Contents (Elt F) → (⟨S200000x1, .f32⟩ : BufTy).Contents (Elt F) → (⟨S200000x1, .f32⟩ : BufTy).Contents (Elt F)) ]

/-- Operations 208 to 208 of the reference, in order. -/
def s12 : List (HloOp τ sig (Elt F)) :=
  [
    reshape main_v164 main_v165 rfl shapeCasts_S200000x1_S200000 ]

/-- The reference's operation list is these 13 stretches, one after the other. -/
theorem ops_split : (ops : List (HloOp τ sig (Elt F))) = s0 ++ (s1 ++ (s2 ++ (s3 ++ (s4 ++ (s5 ++ (s6 ++ (s7 ++ (s8 ++ (s9 ++ (s10 ++ (s11 ++ (s12)))))))))))) := rfl

/-- Each operation of stretch 0 writes one reference, whose index is at least 14. -/
theorem s0_writes : (s0 : List (HloOp τ sig (Elt F))).Forall fun op =>
    ∃ y : Ref sig .tc, 14 ≤ y.idx.val ∧ op.writes = {Proc.devRef .tc y} :=
  ⟨⟨_, by decide, rfl⟩, ⟨_, by decide, rfl⟩, ⟨_, by decide, rfl⟩, ⟨_, by decide, rfl⟩⟩

/-- Each operation of stretch 1 writes one reference, whose index is at least 18. -/
theorem s1_writes : (s1 : List (HloOp τ sig (Elt F))).Forall fun op =>
    ∃ y : Ref sig .tc, 18 ≤ y.idx.val ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩

/-- Each operation of stretch 2 writes one reference, whose index is at least 29. -/
theorem s2_writes : (s2 : List (HloOp τ sig (Elt F))).Forall fun op =>
    ∃ y : Ref sig .tc, 29 ≤ y.idx.val ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩

/-- Each operation of stretch 3 writes one reference, whose index is at least 40. -/
theorem s3_writes : (s3 : List (HloOp τ sig (Elt F))).Forall fun op =>
    ∃ y : Ref sig .tc, 40 ≤ y.idx.val ∧ op.writes = {Proc.devRef .tc y} :=
  ⟨_, by decide, rfl⟩

/-- Each operation of stretch 4 writes one reference, whose index is at least 41. -/
theorem s4_writes : (s4 : List (HloOp τ sig (Elt F))).Forall fun op =>
    ∃ y : Ref sig .tc, 41 ≤ y.idx.val ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩

/-- Each operation of stretch 5 writes one reference, whose index is at least 107. -/
theorem s5_writes : (s5 : List (HloOp τ sig (Elt F))).Forall fun op =>
    ∃ y : Ref sig .tc, 107 ≤ y.idx.val ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩

/-- Each operation of stretch 6 writes one reference, whose index is at least 117. -/
theorem s6_writes : (s6 : List (HloOp τ sig (Elt F))).Forall fun op =>
    ∃ y : Ref sig .tc, 117 ≤ y.idx.val ∧ op.writes = {Proc.devRef .tc y} :=
  ⟨_, by decide, rfl⟩

/-- Each operation of stretch 7 writes one reference, whose index is at least 118. -/
theorem s7_writes : (s7 : List (HloOp τ sig (Elt F))).Forall fun op =>
    ∃ y : Ref sig .tc, 118 ≤ y.idx.val ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩

/-- Each operation of stretch 8 writes one reference, whose index is at least 184. -/
theorem s8_writes : (s8 : List (HloOp τ sig (Elt F))).Forall fun op =>
    ∃ y : Ref sig .tc, 184 ≤ y.idx.val ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩

/-- Each operation of stretch 9 writes one reference, whose index is at least 194. -/
theorem s9_writes : (s9 : List (HloOp τ sig (Elt F))).Forall fun op =>
    ∃ y : Ref sig .tc, 194 ≤ y.idx.val ∧ op.writes = {Proc.devRef .tc y} :=
  ⟨⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩, ⟨_, by decide, rfl⟩⟩

/-- Each operation of stretch 10 writes one reference, whose index is at least 216. -/
theorem s10_writes : (s10 : List (HloOp τ sig (Elt F))).Forall fun op =>
    ∃ y : Ref sig .tc, 216 ≤ y.idx.val ∧ op.writes = {Proc.devRef .tc y} :=
  ⟨_, by decide, rfl⟩

/-- Each operation of stretch 11 writes one reference, whose index is at least 217. -/
theorem s11_writes : (s11 : List (HloOp τ sig (Elt F))).Forall fun op =>
    ∃ y : Ref sig .tc, 217 ≤ y.idx.val ∧ op.writes = {Proc.devRef .tc y} :=
  ⟨⟨_, by decide, rfl⟩, ⟨_, by decide, rfl⟩, ⟨_, by decide, rfl⟩, ⟨_, by decide, rfl⟩⟩

/-- Each operation of stretch 12 writes one reference, whose index is at least 221. -/
theorem s12_writes : (s12 : List (HloOp τ sig (Elt F))).Forall fun op =>
    ∃ y : Ref sig .tc, 221 ≤ y.idx.val ∧ op.writes = {Proc.devRef .tc y} :=
  ⟨_, by decide, rfl⟩

end Cert.ReferenceIdeal.RefRun

end
-- ==== Proof.RefRunStretchA.lean ====
/-
  What stretches 0 to 4 of the reference compute: the edge list's two rows, the three dense stages and the first aggregation.

  Read from an arbitrary memory W, a stretch leaves in its last reference the reference's stage function of the
  arguments, provided W holds the arguments and the earlier stages' values that the stretch reads.
-/
import proofs.«148738_j38654705664133_1_alg».proof.Proof.RefRunOps
import proofs.«148738_j38654705664133_1_alg».proof.Proof.RefGen.ReadCore

noncomputable section

namespace Cert.ReferenceIdeal.RefRun

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- Stretch 0 leaves in `main_v1` the reference's stage function of the arguments, given what it reads. -/
theorem s0_v1 (W : Valuation τ sig (Elt F)) (x1 : (⟨S2x1600000, .i32⟩ : BufTy).Contents (Elt F))  (ha1 : W (Proc.devRef .tc main_arg1) = x1) :
    after s0 W (Proc.devRef .tc main_v1) = Read.val_main_v1 (F := F) x1 := by
  unfold s0
  after_results_simp
  rw [ha1]
  rfl

/-- Stretch 0 leaves in `main_v3` the reference's stage function of the arguments, given what it reads. -/
theorem s0_v3 (W : Valuation τ sig (Elt F)) (x1 : (⟨S2x1600000, .i32⟩ : BufTy).Contents (Elt F))  (ha1 : W (Proc.devRef .tc main_arg1) = x1) :
    after s0 W (Proc.devRef .tc main_v3) = Read.val_main_v3 (F := F) x1 := by
  unfold s0
  after_results_simp
  rw [ha1]
  rfl

/-- Stretch 1 leaves in `main_v12` the reference's stage function of the arguments, given what it reads. -/
theorem s1_v12 (W : Valuation τ sig (Elt F)) (x0 : (⟨S100000x256, .f32⟩ : BufTy).Contents (Elt F)) (x4 : (⟨S256x128, .f32⟩ : BufTy).Contents (Elt F)) (x5 : (⟨S128, .f32⟩ : BufTy).Contents (Elt F))  (ha0 : W (Proc.devRef .tc main_arg0) = x0) (ha4 : W (Proc.devRef .tc main_arg4) = x4) (ha5 : W (Proc.devRef .tc main_arg5) = x5) :
    after s1 W (Proc.devRef .tc main_v12) = Read.val_main_v12 (F := F) x0 x4 x5 := by
  unfold s1
  after_results_simp
  rw [ha0, ha4, ha5]
  rfl

/-- Stretch 2 leaves in `main_v21` the reference's stage function of the arguments, given what it reads. -/
theorem s2_v21 (W : Valuation τ sig (Elt F)) (x0 : (⟨S100000x256, .f32⟩ : BufTy).Contents (Elt F)) (x4 : (⟨S256x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (hv12 : W (Proc.devRef .tc main_v12) = Read.val_main_v12 (F := F) x0 x4 x5) (ha6 : W (Proc.devRef .tc main_arg6) = x6) (ha7 : W (Proc.devRef .tc main_arg7) = x7) :
    after s2 W (Proc.devRef .tc main_v21) = Read.val_main_v21 (F := F) x0 x4 x5 x6 x7 := by
  unfold s2
  after_results_simp
  rw [hv12, ha6, ha7]
  rfl

/-- Stretch 3 leaves in `main_v22` the reference's stage function of the arguments, given what it reads. -/
theorem s3_v22 (W : Valuation τ sig (Elt F)) (x0 : (⟨S100000x256, .f32⟩ : BufTy).Contents (Elt F)) (x4 : (⟨S256x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S64x64, .f32⟩ : BufTy).Contents (Elt F)) (hv21 : W (Proc.devRef .tc main_v21) = Read.val_main_v21 (F := F) x0 x4 x5 x6 x7) (ha8 : W (Proc.devRef .tc main_arg8) = x8) :
    after s3 W (Proc.devRef .tc main_v22) = Read.val_main_v22 (F := F) x0 x4 x5 x6 x7 x8 := by
  unfold s3
  after_results_simp
  rw [hv21, ha8]
  rfl

/-- Stretch 4 leaves in `main_v73` the reference's stage function of the arguments, given what it reads. -/
theorem s4_v73 (W : Valuation τ sig (Elt F)) (x0 : (⟨S100000x256, .f32⟩ : BufTy).Contents (Elt F)) (x1 : (⟨S2x1600000, .i32⟩ : BufTy).Contents (Elt F)) (x4 : (⟨S256x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S64x64, .f32⟩ : BufTy).Contents (Elt F)) (hv22 : W (Proc.devRef .tc main_v22) = Read.val_main_v22 (F := F) x0 x4 x5 x6 x7 x8) (hv1 : W (Proc.devRef .tc main_v1) = Read.val_main_v1 (F := F) x1) (hv3 : W (Proc.devRef .tc main_v3) = Read.val_main_v3 (F := F) x1)  :
    after s4 W (Proc.devRef .tc main_v73) = Read.val_main_v73 (F := F) x0 x1 x4 x5 x6 x7 x8 := by
  unfold s4
  after_results_simp
  rw [hv22, hv1, hv3]
  rfl

end Cert.ReferenceIdeal.RefRun

end
-- ==== Proof.RefRunStretchB.lean ====
/-
  What stretches 5 to 8 of the reference compute: bias and rectifier, the fourth dense stage, the second aggregation, bias and rectifier.

  Read from an arbitrary memory W, a stretch leaves in its last reference the reference's stage function of the
  arguments, provided W holds the arguments and the earlier stages' values that the stretch reads.
-/
import proofs.«148738_j38654705664133_1_alg».proof.Proof.RefRunOps
import proofs.«148738_j38654705664133_1_alg».proof.Proof.RefGen.ReadCore

noncomputable section

namespace Cert.ReferenceIdeal.RefRun

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- Stretch 5 leaves in `main_v81` the reference's stage function of the arguments, given what it reads. -/
theorem s5_v81 (W : Valuation τ sig (Elt F)) (x0 : (⟨S100000x256, .f32⟩ : BufTy).Contents (Elt F)) (x1 : (⟨S2x1600000, .i32⟩ : BufTy).Contents (Elt F)) (x4 : (⟨S256x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (hv73 : W (Proc.devRef .tc main_v73) = Read.val_main_v73 (F := F) x0 x1 x4 x5 x6 x7 x8) (ha9 : W (Proc.devRef .tc main_arg9) = x9) :
    after s5 W (Proc.devRef .tc main_v81) = Read.val_main_v81 (F := F) x0 x1 x4 x5 x6 x7 x8 x9 := by
  unfold s5
  after_results_simp
  rw [hv73, ha9]
  rfl

/-- Stretch 6 leaves in `main_v82` the reference's stage function of the arguments, given what it reads. -/
theorem s6_v82 (W : Valuation τ sig (Elt F)) (x0 : (⟨S100000x256, .f32⟩ : BufTy).Contents (Elt F)) (x1 : (⟨S2x1600000, .i32⟩ : BufTy).Contents (Elt F)) (x4 : (⟨S256x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S64x64, .f32⟩ : BufTy).Contents (Elt F)) (hv81 : W (Proc.devRef .tc main_v81) = Read.val_main_v81 (F := F) x0 x1 x4 x5 x6 x7 x8 x9) (ha10 : W (Proc.devRef .tc main_arg10) = x10) :
    after s6 W (Proc.devRef .tc main_v82) = Read.val_main_v82 (F := F) x0 x1 x4 x5 x6 x7 x8 x9 x10 := by
  unfold s6
  after_results_simp
  rw [hv81, ha10]
  rfl

/-- Stretch 7 leaves in `main_v133` the reference's stage function of the arguments, given what it reads. -/
theorem s7_v133 (W : Valuation τ sig (Elt F)) (x0 : (⟨S100000x256, .f32⟩ : BufTy).Contents (Elt F)) (x1 : (⟨S2x1600000, .i32⟩ : BufTy).Contents (Elt F)) (x4 : (⟨S256x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S64x64, .f32⟩ : BufTy).Contents (Elt F)) (hv82 : W (Proc.devRef .tc main_v82) = Read.val_main_v82 (F := F) x0 x1 x4 x5 x6 x7 x8 x9 x10) (hv1 : W (Proc.devRef .tc main_v1) = Read.val_main_v1 (F := F) x1) (hv3 : W (Proc.devRef .tc main_v3) = Read.val_main_v3 (F := F) x1)  :
    after s7 W (Proc.devRef .tc main_v133) = Read.val_main_v133 (F := F) x0 x1 x4 x5 x6 x7 x8 x9 x10 := by
  unfold s7
  after_results_simp
  rw [hv82, hv1, hv3]
  rfl

/-- Stretch 8 leaves in `main_v141` the reference's stage function of the arguments, given what it reads. -/
theorem s8_v141 (W : Valuation τ sig (Elt F)) (x0 : (⟨S100000x256, .f32⟩ : BufTy).Contents (Elt F)) (x1 : (⟨S2x1600000, .i32⟩ : BufTy).Contents (Elt F)) (x4 : (⟨S256x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (hv133 : W (Proc.devRef .tc main_v133) = Read.val_main_v133 (F := F) x0 x1 x4 x5 x6 x7 x8 x9 x10) (ha11 : W (Proc.devRef .tc main_arg11) = x11) :
    after s8 W (Proc.devRef .tc main_v141) = Read.val_main_v141 (F := F) x0 x1 x4 x5 x6 x7 x8 x9 x10 x11 := by
  unfold s8
  after_results_simp
  rw [hv133, ha11]
  rfl

end Cert.ReferenceIdeal.RefRun

end
-- ==== Proof.RefRunStretchC.lean ====
/-
  What stretches 9 to 12 of the reference compute: the two gathered endpoint rows, their concatenation with the pair's own features, the score column and its flattening.

  Read from an arbitrary memory W, a stretch leaves in its last reference the reference's stage function of the
  arguments, provided W holds the arguments and the earlier stages' values that the stretch reads.
-/
import proofs.«148738_j38654705664133_1_alg».proof.Proof.RefRunOps
import proofs.«148738_j38654705664133_1_alg».proof.Proof.RefGen.ReadCore

noncomputable section

namespace Cert.ReferenceIdeal.RefRun

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- Stretch 9 leaves in `main_v150` the reference's stage function of the arguments, given what it reads. -/
theorem s9_v150 (W : Valuation τ sig (Elt F)) (x0 : (⟨S100000x256, .f32⟩ : BufTy).Contents (Elt F)) (x1 : (⟨S2x1600000, .i32⟩ : BufTy).Contents (Elt F)) (x2 : (⟨S2x200000, .i32⟩ : BufTy).Contents (Elt F)) (x4 : (⟨S256x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (hv141 : W (Proc.devRef .tc main_v141) = Read.val_main_v141 (F := F) x0 x1 x4 x5 x6 x7 x8 x9 x10 x11) (ha2 : W (Proc.devRef .tc main_arg2) = x2) :
    after s9 W (Proc.devRef .tc main_v150) = Read.val_main_v150 (F := F) x0 x1 x2 x4 x5 x6 x7 x8 x9 x10 x11 := by
  unfold s9
  after_results_simp
  rw [hv141, ha2]
  rfl

/-- Stretch 9 leaves in `main_v159` the reference's stage function of the arguments, given what it reads. -/
theorem s9_v159 (W : Valuation τ sig (Elt F)) (x0 : (⟨S100000x256, .f32⟩ : BufTy).Contents (Elt F)) (x1 : (⟨S2x1600000, .i32⟩ : BufTy).Contents (Elt F)) (x2 : (⟨S2x200000, .i32⟩ : BufTy).Contents (Elt F)) (x4 : (⟨S256x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (hv141 : W (Proc.devRef .tc main_v141) = Read.val_main_v141 (F := F) x0 x1 x4 x5 x6 x7 x8 x9 x10 x11) (ha2 : W (Proc.devRef .tc main_arg2) = x2) :
    after s9 W (Proc.devRef .tc main_v159) = Read.val_main_v159 (F := F) x0 x1 x2 x4 x5 x6 x7 x8 x9 x10 x11 := by
  unfold s9
  after_results_simp
  rw [hv141, ha2]
  rfl

/-- Stretch 10 leaves in `main_v160` the reference's stage function of the arguments, given what it reads. -/
theorem s10_v160 (W : Valuation τ sig (Elt F)) (x0 : (⟨S100000x256, .f32⟩ : BufTy).Contents (Elt F)) (x1 : (⟨S2x1600000, .i32⟩ : BufTy).Contents (Elt F)) (x2 : (⟨S2x200000, .i32⟩ : BufTy).Contents (Elt F)) (x3 : (⟨S200000x8, .f32⟩ : BufTy).Contents (Elt F)) (x4 : (⟨S256x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (hv150 : W (Proc.devRef .tc main_v150) = Read.val_main_v150 (F := F) x0 x1 x2 x4 x5 x6 x7 x8 x9 x10 x11) (hv159 : W (Proc.devRef .tc main_v159) = Read.val_main_v159 (F := F) x0 x1 x2 x4 x5 x6 x7 x8 x9 x10 x11) (ha3 : W (Proc.devRef .tc main_arg3) = x3) :
    after s10 W (Proc.devRef .tc main_v160) = Read.val_main_v160 (F := F) x0 x1 x2 x3 x4 x5 x6 x7 x8 x9 x10 x11 := by
  unfold s10
  simp only [after_cons, after_nil]
  rw [nary3_result]
  rw [hv150, hv159, ha3]
  rfl

/-- Stretch 11 leaves in `main_v164` the reference's stage function of the arguments, given what it reads. -/
theorem s11_v164 (W : Valuation τ sig (Elt F)) (x0 : (⟨S100000x256, .f32⟩ : BufTy).Contents (Elt F)) (x1 : (⟨S2x1600000, .i32⟩ : BufTy).Contents (Elt F)) (x2 : (⟨S2x200000, .i32⟩ : BufTy).Contents (Elt F)) (x3 : (⟨S200000x8, .f32⟩ : BufTy).Contents (Elt F)) (x4 : (⟨S256x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S136x1, .f32⟩ : BufTy).Contents (Elt F)) (x13 : (⟨S1, .f32⟩ : BufTy).Contents (Elt F)) (hv160 : W (Proc.devRef .tc main_v160) = Read.val_main_v160 (F := F) x0 x1 x2 x3 x4 x5 x6 x7 x8 x9 x10 x11) (ha12 : W (Proc.devRef .tc main_arg12) = x12) (ha13 : W (Proc.devRef .tc main_arg13) = x13) :
    after s11 W (Proc.devRef .tc main_v164) = Read.val_main_v164 (F := F) x0 x1 x2 x3 x4 x5 x6 x7 x8 x9 x10 x11 x12 x13 := by
  unfold s11
  after_results_simp
  rw [hv160, ha12, ha13]
  rfl

/-- Stretch 12 leaves in `main_v165` the reference's stage function of the arguments, given what it reads. -/
theorem s12_v165 (W : Valuation τ sig (Elt F)) (x0 : (⟨S100000x256, .f32⟩ : BufTy).Contents (Elt F)) (x1 : (⟨S2x1600000, .i32⟩ : BufTy).Contents (Elt F)) (x2 : (⟨S2x200000, .i32⟩ : BufTy).Contents (Elt F)) (x3 : (⟨S200000x8, .f32⟩ : BufTy).Contents (Elt F)) (x4 : (⟨S256x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S136x1, .f32⟩ : BufTy).Contents (Elt F)) (x13 : (⟨S1, .f32⟩ : BufTy).Contents (Elt F)) (hv164 : W (Proc.devRef .tc main_v164) = Read.val_main_v164 (F := F) x0 x1 x2 x3 x4 x5 x6 x7 x8 x9 x10 x11 x12 x13)  :
    after s12 W (Proc.devRef .tc main_v165) = Read.val_main_v165 (F := F) x0 x1 x2 x3 x4 x5 x6 x7 x8 x9 x10 x11 x12 x13 := by
  unfold s12
  after_results_simp
  rw [hv164]
  rfl

end Cert.ReferenceIdeal.RefRun

end
-- ==== Proof.RefRun.lean ====
/-
  The reference's run, stated at its stage functions.

  Every weakly fair execution of the reference ends with each buffer at the fold of the operations over the launch
  memory.  The fold over the whole list is the fold over the thirteen stretches in turn; each stretch's last
  reference holds the stage function of the arguments, every earlier value it reads having been kept by the
  stretches in between; the arguments are kept by all of them.  So the two results are the stage functions of the
  arguments' launch contents.
-/
import proofs.«148738_j38654705664133_1_alg».proof.Proof.RefRunStretchA
import proofs.«148738_j38654705664133_1_alg».proof.Proof.RefRunStretchB
import proofs.«148738_j38654705664133_1_alg».proof.Proof.RefRunStretchC

noncomputable section

namespace Cert.ReferenceIdeal.RefRun

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-! ## The memory after each stretch -/

variable (m : (ℓ : Loc nD τ sig) → Buf (Elt F) ℓ) (c : Dev nD)

/-- The device's buffer contents at the launch, and after stretches 0 … k - 1. -/
def V0 : Valuation τ sig (Elt F) := launchContents m c
def V1 : Valuation τ sig (Elt F) := after s0 (V0 m c)
def V2 : Valuation τ sig (Elt F) := after s1 (V1 m c)
def V3 : Valuation τ sig (Elt F) := after s2 (V2 m c)
def V4 : Valuation τ sig (Elt F) := after s3 (V3 m c)
def V5 : Valuation τ sig (Elt F) := after s4 (V4 m c)
def V6 : Valuation τ sig (Elt F) := after s5 (V5 m c)
def V7 : Valuation τ sig (Elt F) := after s6 (V6 m c)
def V8 : Valuation τ sig (Elt F) := after s7 (V7 m c)
def V9 : Valuation τ sig (Elt F) := after s8 (V8 m c)
def V10 : Valuation τ sig (Elt F) := after s9 (V9 m c)
def V11 : Valuation τ sig (Elt F) := after s10 (V10 m c)
def V12 : Valuation τ sig (Elt F) := after s11 (V11 m c)
def V13 : Valuation τ sig (Elt F) := after s12 (V12 m c)

/-- Running the whole list is running the stretches in turn. -/
theorem after_ops : after (ops : List (HloOp τ sig (Elt F))) (launchContents m c) = V13 m c := by
  rw [ops_split]
  simp only [StableHlo.after_append]
  rfl

/-- Stretch 0 keeps every reference of index below 14. -/
theorem V1_keep (r : Ref sig .tc) (hr : r.idx.val < 14) : V1 m c (Proc.devRef .tc r) = V0 m c (Proc.devRef .tc r) :=
  after_keeps (P := fun y => 14 ≤ y.idx.val) s0 (V0 m c) s0_writes (Nat.not_le.mpr hr)

/-- Stretch 1 keeps every reference of index below 18. -/
theorem V2_keep (r : Ref sig .tc) (hr : r.idx.val < 18) : V2 m c (Proc.devRef .tc r) = V1 m c (Proc.devRef .tc r) :=
  after_keeps (P := fun y => 18 ≤ y.idx.val) s1 (V1 m c) s1_writes (Nat.not_le.mpr hr)

/-- Stretch 2 keeps every reference of index below 29. -/
theorem V3_keep (r : Ref sig .tc) (hr : r.idx.val < 29) : V3 m c (Proc.devRef .tc r) = V2 m c (Proc.devRef .tc r) :=
  after_keeps (P := fun y => 29 ≤ y.idx.val) s2 (V2 m c) s2_writes (Nat.not_le.mpr hr)

/-- Stretch 3 keeps every reference of index below 40. -/
theorem V4_keep (r : Ref sig .tc) (hr : r.idx.val < 40) : V4 m c (Proc.devRef .tc r) = V3 m c (Proc.devRef .tc r) :=
  after_keeps (P := fun y => 40 ≤ y.idx.val) s3 (V3 m c) s3_writes (Nat.not_le.mpr hr)

/-- Stretch 4 keeps every reference of index below 41. -/
theorem V5_keep (r : Ref sig .tc) (hr : r.idx.val < 41) : V5 m c (Proc.devRef .tc r) = V4 m c (Proc.devRef .tc r) :=
  after_keeps (P := fun y => 41 ≤ y.idx.val) s4 (V4 m c) s4_writes (Nat.not_le.mpr hr)

/-- Stretch 5 keeps every reference of index below 107. -/
theorem V6_keep (r : Ref sig .tc) (hr : r.idx.val < 107) : V6 m c (Proc.devRef .tc r) = V5 m c (Proc.devRef .tc r) :=
  after_keeps (P := fun y => 107 ≤ y.idx.val) s5 (V5 m c) s5_writes (Nat.not_le.mpr hr)

/-- Stretch 6 keeps every reference of index below 117. -/
theorem V7_keep (r : Ref sig .tc) (hr : r.idx.val < 117) : V7 m c (Proc.devRef .tc r) = V6 m c (Proc.devRef .tc r) :=
  after_keeps (P := fun y => 117 ≤ y.idx.val) s6 (V6 m c) s6_writes (Nat.not_le.mpr hr)

/-- Stretch 7 keeps every reference of index below 118. -/
theorem V8_keep (r : Ref sig .tc) (hr : r.idx.val < 118) : V8 m c (Proc.devRef .tc r) = V7 m c (Proc.devRef .tc r) :=
  after_keeps (P := fun y => 118 ≤ y.idx.val) s7 (V7 m c) s7_writes (Nat.not_le.mpr hr)

/-- Stretch 8 keeps every reference of index below 184. -/
theorem V9_keep (r : Ref sig .tc) (hr : r.idx.val < 184) : V9 m c (Proc.devRef .tc r) = V8 m c (Proc.devRef .tc r) :=
  after_keeps (P := fun y => 184 ≤ y.idx.val) s8 (V8 m c) s8_writes (Nat.not_le.mpr hr)

/-- Stretch 9 keeps every reference of index below 194. -/
theorem V10_keep (r : Ref sig .tc) (hr : r.idx.val < 194) : V10 m c (Proc.devRef .tc r) = V9 m c (Proc.devRef .tc r) :=
  after_keeps (P := fun y => 194 ≤ y.idx.val) s9 (V9 m c) s9_writes (Nat.not_le.mpr hr)

/-- Stretch 10 keeps every reference of index below 216. -/
theorem V11_keep (r : Ref sig .tc) (hr : r.idx.val < 216) : V11 m c (Proc.devRef .tc r) = V10 m c (Proc.devRef .tc r) :=
  after_keeps (P := fun y => 216 ≤ y.idx.val) s10 (V10 m c) s10_writes (Nat.not_le.mpr hr)

/-- Stretch 11 keeps every reference of index below 217. -/
theorem V12_keep (r : Ref sig .tc) (hr : r.idx.val < 217) : V12 m c (Proc.devRef .tc r) = V11 m c (Proc.devRef .tc r) :=
  after_keeps (P := fun y => 217 ≤ y.idx.val) s11 (V11 m c) s11_writes (Nat.not_le.mpr hr)

/-- Stretch 12 keeps every reference of index below 221. -/
theorem V13_keep (r : Ref sig .tc) (hr : r.idx.val < 221) : V13 m c (Proc.devRef .tc r) = V12 m c (Proc.devRef .tc r) :=
  after_keeps (P := fun y => 221 ≤ y.idx.val) s12 (V12 m c) s12_writes (Nat.not_le.mpr hr)

/-- An argument's buffer holds its launch contents at every stage. -/
theorem V0_arg (r : Ref sig .tc) : V0 m c (Proc.devRef .tc r) = m ((c.tc : Thread nD τ).loc r) := rfl
theorem V1_arg (r : Ref sig .tc) (hr : r.idx.val < 14) : V1 m c (Proc.devRef .tc r) = m ((c.tc : Thread nD τ).loc r) :=
  (V1_keep m c r (by omega)).trans (V0_arg m c r)
theorem V2_arg (r : Ref sig .tc) (hr : r.idx.val < 14) : V2 m c (Proc.devRef .tc r) = m ((c.tc : Thread nD τ).loc r) :=
  (V2_keep m c r (by omega)).trans (V1_arg m c r hr)
theorem V3_arg (r : Ref sig .tc) (hr : r.idx.val < 14) : V3 m c (Proc.devRef .tc r) = m ((c.tc : Thread nD τ).loc r) :=
  (V3_keep m c r (by omega)).trans (V2_arg m c r hr)
theorem V4_arg (r : Ref sig .tc) (hr : r.idx.val < 14) : V4 m c (Proc.devRef .tc r) = m ((c.tc : Thread nD τ).loc r) :=
  (V4_keep m c r (by omega)).trans (V3_arg m c r hr)
theorem V5_arg (r : Ref sig .tc) (hr : r.idx.val < 14) : V5 m c (Proc.devRef .tc r) = m ((c.tc : Thread nD τ).loc r) :=
  (V5_keep m c r (by omega)).trans (V4_arg m c r hr)
theorem V6_arg (r : Ref sig .tc) (hr : r.idx.val < 14) : V6 m c (Proc.devRef .tc r) = m ((c.tc : Thread nD τ).loc r) :=
  (V6_keep m c r (by omega)).trans (V5_arg m c r hr)
theorem V7_arg (r : Ref sig .tc) (hr : r.idx.val < 14) : V7 m c (Proc.devRef .tc r) = m ((c.tc : Thread nD τ).loc r) :=
  (V7_keep m c r (by omega)).trans (V6_arg m c r hr)
theorem V8_arg (r : Ref sig .tc) (hr : r.idx.val < 14) : V8 m c (Proc.devRef .tc r) = m ((c.tc : Thread nD τ).loc r) :=
  (V8_keep m c r (by omega)).trans (V7_arg m c r hr)
theorem V9_arg (r : Ref sig .tc) (hr : r.idx.val < 14) : V9 m c (Proc.devRef .tc r) = m ((c.tc : Thread nD τ).loc r) :=
  (V9_keep m c r (by omega)).trans (V8_arg m c r hr)
theorem V10_arg (r : Ref sig .tc) (hr : r.idx.val < 14) : V10 m c (Proc.devRef .tc r) = m ((c.tc : Thread nD τ).loc r) :=
  (V10_keep m c r (by omega)).trans (V9_arg m c r hr)
theorem V11_arg (r : Ref sig .tc) (hr : r.idx.val < 14) : V11 m c (Proc.devRef .tc r) = m ((c.tc : Thread nD τ).loc r) :=
  (V11_keep m c r (by omega)).trans (V10_arg m c r hr)
theorem V12_arg (r : Ref sig .tc) (hr : r.idx.val < 14) : V12 m c (Proc.devRef .tc r) = m ((c.tc : Thread nD τ).loc r) :=
  (V12_keep m c r (by omega)).trans (V11_arg m c r hr)
theorem V13_arg (r : Ref sig .tc) (hr : r.idx.val < 14) : V13 m c (Proc.devRef .tc r) = m ((c.tc : Thread nD τ).loc r) :=
  (V13_keep m c r (by omega)).trans (V12_arg m c r hr)

/-! ## The stage values -/
theorem V1_v1 : V1 m c (Proc.devRef .tc main_v1) = Read.val_main_v1 (F := F) (m ((c.tc : Thread nD τ).loc main_arg1)) :=
  s0_v1 (V0 m c) (m ((c.tc : Thread nD τ).loc main_arg1))  (V0_arg m c main_arg1)
theorem V2_v1 : V2 m c (Proc.devRef .tc main_v1) = Read.val_main_v1 (F := F) (m ((c.tc : Thread nD τ).loc main_arg1)) :=
  (V2_keep m c main_v1 (by decide)).trans (V1_v1 m c)
theorem V3_v1 : V3 m c (Proc.devRef .tc main_v1) = Read.val_main_v1 (F := F) (m ((c.tc : Thread nD τ).loc main_arg1)) :=
  (V3_keep m c main_v1 (by decide)).trans (V2_v1 m c)
theorem V4_v1 : V4 m c (Proc.devRef .tc main_v1) = Read.val_main_v1 (F := F) (m ((c.tc : Thread nD τ).loc main_arg1)) :=
  (V4_keep m c main_v1 (by decide)).trans (V3_v1 m c)
theorem V5_v1 : V5 m c (Proc.devRef .tc main_v1) = Read.val_main_v1 (F := F) (m ((c.tc : Thread nD τ).loc main_arg1)) :=
  (V5_keep m c main_v1 (by decide)).trans (V4_v1 m c)
theorem V6_v1 : V6 m c (Proc.devRef .tc main_v1) = Read.val_main_v1 (F := F) (m ((c.tc : Thread nD τ).loc main_arg1)) :=
  (V6_keep m c main_v1 (by decide)).trans (V5_v1 m c)
theorem V7_v1 : V7 m c (Proc.devRef .tc main_v1) = Read.val_main_v1 (F := F) (m ((c.tc : Thread nD τ).loc main_arg1)) :=
  (V7_keep m c main_v1 (by decide)).trans (V6_v1 m c)
theorem V1_v3 : V1 m c (Proc.devRef .tc main_v3) = Read.val_main_v3 (F := F) (m ((c.tc : Thread nD τ).loc main_arg1)) :=
  s0_v3 (V0 m c) (m ((c.tc : Thread nD τ).loc main_arg1))  (V0_arg m c main_arg1)
theorem V2_v3 : V2 m c (Proc.devRef .tc main_v3) = Read.val_main_v3 (F := F) (m ((c.tc : Thread nD τ).loc main_arg1)) :=
  (V2_keep m c main_v3 (by decide)).trans (V1_v3 m c)
theorem V3_v3 : V3 m c (Proc.devRef .tc main_v3) = Read.val_main_v3 (F := F) (m ((c.tc : Thread nD τ).loc main_arg1)) :=
  (V3_keep m c main_v3 (by decide)).trans (V2_v3 m c)
theorem V4_v3 : V4 m c (Proc.devRef .tc main_v3) = Read.val_main_v3 (F := F) (m ((c.tc : Thread nD τ).loc main_arg1)) :=
  (V4_keep m c main_v3 (by decide)).trans (V3_v3 m c)
theorem V5_v3 : V5 m c (Proc.devRef .tc main_v3) = Read.val_main_v3 (F := F) (m ((c.tc : Thread nD τ).loc main_arg1)) :=
  (V5_keep m c main_v3 (by decide)).trans (V4_v3 m c)
theorem V6_v3 : V6 m c (Proc.devRef .tc main_v3) = Read.val_main_v3 (F := F) (m ((c.tc : Thread nD τ).loc main_arg1)) :=
  (V6_keep m c main_v3 (by decide)).trans (V5_v3 m c)
theorem V7_v3 : V7 m c (Proc.devRef .tc main_v3) = Read.val_main_v3 (F := F) (m ((c.tc : Thread nD τ).loc main_arg1)) :=
  (V7_keep m c main_v3 (by decide)).trans (V6_v3 m c)
theorem V2_v12 : V2 m c (Proc.devRef .tc main_v12) = Read.val_main_v12 (F := F) (m ((c.tc : Thread nD τ).loc main_arg0)) (m ((c.tc : Thread nD τ).loc main_arg4)) (m ((c.tc : Thread nD τ).loc main_arg5)) :=
  s1_v12 (V1 m c) (m ((c.tc : Thread nD τ).loc main_arg0)) (m ((c.tc : Thread nD τ).loc main_arg4)) (m ((c.tc : Thread nD τ).loc main_arg5))  (V1_arg m c main_arg0 (by decide)) (V1_arg m c main_arg4 (by decide)) (V1_arg m c main_arg5 (by decide))
theorem V3_v21 : V3 m c (Proc.devRef .tc main_v21) = Read.val_main_v21 (F := F) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) :=
  s2_v21 (V2 m c) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (V2_v12 m c) (V2_arg m c main_arg6 (by decide)) (V2_arg m c main_arg7 (by decide))
theorem V4_v22 : V4 m c (Proc.devRef .tc main_v22) = Read.val_main_v22 (F := F) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  s3_v22 (V3 m c) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (V3_v21 m c) (V3_arg m c main_arg8 (by decide))
theorem V5_v73 : V5 m c (Proc.devRef .tc main_v73) = Read.val_main_v73 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  s4_v73 (V4 m c) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (V4_v22 m c) (V4_v1 m c) (V4_v3 m c)
theorem V6_v81 : V6 m c (Proc.devRef .tc main_v81) = Read.val_main_v81 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  s5_v81 (V5 m c) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (V5_v73 m c) (V5_arg m c main_arg9 (by decide))
theorem V7_v82 : V7 m c (Proc.devRef .tc main_v82) = Read.val_main_v82 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  s6_v82 (V6 m c) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (V6_v81 m c) (V6_arg m c main_arg10 (by decide))
theorem V8_v133 : V8 m c (Proc.devRef .tc main_v133) = Read.val_main_v133 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  s7_v133 (V7 m c) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (V7_v82 m c) (V7_v1 m c) (V7_v3 m c)
theorem V9_v141 : V9 m c (Proc.devRef .tc main_v141) = Read.val_main_v141 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  s8_v141 (V8 m c) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (V8_v133 m c) (V8_arg m c main_arg11 (by decide))
theorem V10_v141 : V10 m c (Proc.devRef .tc main_v141) = Read.val_main_v141 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (V10_keep m c main_v141 (by decide)).trans (V9_v141 m c)
theorem V11_v141 : V11 m c (Proc.devRef .tc main_v141) = Read.val_main_v141 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (V11_keep m c main_v141 (by decide)).trans (V10_v141 m c)
theorem V12_v141 : V12 m c (Proc.devRef .tc main_v141) = Read.val_main_v141 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (V12_keep m c main_v141 (by decide)).trans (V11_v141 m c)
theorem V13_v141 : V13 m c (Proc.devRef .tc main_v141) = Read.val_main_v141 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (V13_keep m c main_v141 (by decide)).trans (V12_v141 m c)
theorem V10_v150 : V10 m c (Proc.devRef .tc main_v150) = Read.val_main_v150 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  s9_v150 (V9 m c) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (V9_v141 m c) (V9_arg m c main_arg2 (by decide))
theorem V10_v159 : V10 m c (Proc.devRef .tc main_v159) = Read.val_main_v159 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  s9_v159 (V9 m c) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (V9_v141 m c) (V9_arg m c main_arg2 (by decide))
theorem V11_v160 : V11 m c (Proc.devRef .tc main_v160) = Read.val_main_v160 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  s10_v160 (V10 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (V10_v150 m c) (V10_v159 m c) (V10_arg m c main_arg3 (by decide))
theorem V12_v164 : V12 m c (Proc.devRef .tc main_v164) = Read.val_main_v164 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  s11_v164 (V11 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (V11_v160 m c) (V11_arg m c main_arg12 (by decide)) (V11_arg m c main_arg13 (by decide))
theorem V13_v165 : V13 m c (Proc.devRef .tc main_v165) = Read.val_main_v165 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  s12_v165 (V12 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (V12_v164 m c)

/-! ## The run -/

/-- On every device, for any float values, from any memory with zero counters: every weakly fair execution of
    @main terminates with the two results at the reference's stage functions of the arguments' launch contents and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v165) = Read.val_main_v165 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v141) = Read.val_main_v141 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v165).trans ((congrFun (after_ops m c) _).trans (V13_v165 m c)),
      (h c main_v141).trans ((congrFun (after_ops m c) _).trans (V13_v141 m c)),
      (h c main_arg0).trans ((congrFun (after_ops m c) _).trans (V13_arg m c main_arg0 (by decide))),
      (h c main_arg1).trans ((congrFun (after_ops m c) _).trans (V13_arg m c main_arg1 (by decide))),
      (h c main_arg2).trans ((congrFun (after_ops m c) _).trans (V13_arg m c main_arg2 (by decide))),
      (h c main_arg3).trans ((congrFun (after_ops m c) _).trans (V13_arg m c main_arg3 (by decide))),
      (h c main_arg4).trans ((congrFun (after_ops m c) _).trans (V13_arg m c main_arg4 (by decide))),
      (h c main_arg5).trans ((congrFun (after_ops m c) _).trans (V13_arg m c main_arg5 (by decide))),
      (h c main_arg6).trans ((congrFun (after_ops m c) _).trans (V13_arg m c main_arg6 (by decide))),
      (h c main_arg7).trans ((congrFun (after_ops m c) _).trans (V13_arg m c main_arg7 (by decide))),
      (h c main_arg8).trans ((congrFun (after_ops m c) _).trans (V13_arg m c main_arg8 (by decide))),
      (h c main_arg9).trans ((congrFun (after_ops m c) _).trans (V13_arg m c main_arg9 (by decide))),
      (h c main_arg10).trans ((congrFun (after_ops m c) _).trans (V13_arg m c main_arg10 (by decide))),
      (h c main_arg11).trans ((congrFun (after_ops m c) _).trans (V13_arg m c main_arg11 (by decide))),
      (h c main_arg12).trans ((congrFun (after_ops m c) _).trans (V13_arg m c main_arg12 (by decide))),
      (h c main_arg13).trans ((congrFun (after_ops m c) _).trans (V13_arg m c main_arg13 (by decide)))⟩)
    (run_seq scopedRefs_eq scopedSems_eq defs main (fun _ => ops) main_eq (fun _ => ops_sub) m ρ)

end Cert.ReferenceIdeal.RefRun

end
-- ==== Proof.FrameRef.lean ====
/-
  The frame of the reference program: its run read back (every weakly fair execution terminates with each result at
  the value its operations compute from the arguments, and the arguments unchanged), with what it says of the
  results dropped.
-/
import proofs.«148738_j38654705664133_1_alg».proof.Defs
import proofs.«148738_j38654705664133_1_alg».proof.Proof.Gen.ReferenceIdeal
import proofs.«148738_j38654705664133_1_alg».proof.Proof.Gen.Pre_finite_inputs
import proofs.«148738_j38654705664133_1_alg».proof.Proof.RefRun

noncomputable section

namespace Cert.Proof

open Idealize.ShloMosaic Idealize.ShloMosaic.TcCoe Idealize.SL.Sem

theorem frame_ri : Cert.frame_ReferenceIdeal := fun m ρ _ =>
  (θ_run (Cert.ReferenceIdeal.defs (F := Ideal)) _ _).mono (fun _ h c => (h c).2.2)
    (Cert.ReferenceIdeal.RefRun.run (F := Ideal) m ρ)

end Cert.Proof

end
-- ==== Proof.KI.Spec.lean ====
/-
  What the program computes, as functions of arrays. Each kernel call walks the rows of its first operand 5000 at a
  time and overwrites the matching 5000 rows of its result with one value computed from that row block and from the
  small operands taken whole; so the result array is, row by row, the body's value on the row block the row lies in
  (R0 … R6). Between the calls the host aggregates node features over the graph's edges with the symmetric
  degree normalisation (agg), and before the last call it gathers the two endpoint feature rows of every queried
  pair and joins them with the pair's own features (pairFeat). The two results are the compositions KOut0, KOut1.
-/
import proofs.«148738_j38654705664133_1_alg».proof.Proof.Gen.KernelIdeal.Skeleton
import Idealize.ShloMosaic.Lib.ValueIdx

noncomputable section

namespace Cert.KernelIdeal.Fr

open Cert.KernelIdeal Cert.KernelIdeal.Gen
open Idealize.ShloMosaic Idealize.ShloMosaic.ValueIdx

variable {F : FTy → Type} [FloatOps F]

/-! ## Row blocks -/

/-- The row block (of 5000 rows) a row of a 100000-row array lies in. -/
def rowBlk {n1 : Nat} (i : (⟨2, ![100000, n1]⟩ : Shape).Idx) : Fin 20 :=
  ⟨(i 0).val / 5000, by have h := idx2_lt0 i; omega⟩

/-- A position of a 100000-row array, inside its row block. -/
def inBlk {n1 : Nat} (i : (⟨2, ![100000, n1]⟩ : Shape).Idx) : (⟨2, ![5000, n1]⟩ : Shape).Idx :=
  ix2 (⟨(i 0).val % 5000, Nat.mod_lt _ (by decide)⟩ : Fin 5000) (⟨(i 1).val, idx2_lt1 i⟩ : Fin n1)

/-- Row block q of a 100000-row array: rows 5000 q … 5000 q + 4999. -/
def rows {α : Type} {n1 : Nat} (a : (⟨2, ![100000, n1]⟩ : Shape).Idx → α) (q : Fin 20) : (⟨2, ![5000, n1]⟩ : Shape).Idx → α :=
  fun y => a (ix2 (⟨q.val * 5000 + (y 0).val, by have h := idx2_lt0 y; have hq := q.isLt; omega⟩ : Fin 100000) (⟨(y 1).val, idx2_lt1 y⟩ : Fin n1))

/-- A position whose row is row (j 0) of block q, and whose column is j's, lies in block q at j. -/
theorem blk_at {n1 : Nat} (i : (⟨2, ![100000, n1]⟩ : Shape).Idx) (q : Fin 20) (j : (⟨2, ![5000, n1]⟩ : Shape).Idx)
    (h0 : (i 0).val = q.val * 5000 + (j 0).val) (h1 : (i 1).val = (j 1).val) : rowBlk i = q ∧ inBlk i = j := by
  have hj := idx2_lt0 j
  refine ⟨Fin.ext (show (i 0).val / 5000 = q.val by omega), ?_⟩
  funext a
  match a with
  | ⟨0, _⟩ => exact Fin.ext (show (i 0).val % 5000 = (j 0).val by omega)
  | ⟨1, _⟩ => exact Fin.ext h1

/-- The same three for an array of 200000 rows (40 row blocks). -/
def rowBlk' {n1 : Nat} (i : (⟨2, ![200000, n1]⟩ : Shape).Idx) : Fin 40 :=
  ⟨(i 0).val / 5000, by have h := idx2_lt0 i; omega⟩

def inBlk' {n1 : Nat} (i : (⟨2, ![200000, n1]⟩ : Shape).Idx) : (⟨2, ![5000, n1]⟩ : Shape).Idx :=
  ix2 (⟨(i 0).val % 5000, Nat.mod_lt _ (by decide)⟩ : Fin 5000) (⟨(i 1).val, idx2_lt1 i⟩ : Fin n1)

def rows' {α : Type} {n1 : Nat} (a : (⟨2, ![200000, n1]⟩ : Shape).Idx → α) (q : Fin 40) : (⟨2, ![5000, n1]⟩ : Shape).Idx → α :=
  fun y => a (ix2 (⟨q.val * 5000 + (y 0).val, by have h := idx2_lt0 y; have hq := q.isLt; omega⟩ : Fin 200000) (⟨(y 1).val, idx2_lt1 y⟩ : Fin n1))

theorem blk_at' {n1 : Nat} (i : (⟨2, ![200000, n1]⟩ : Shape).Idx) (q : Fin 40) (j : (⟨2, ![5000, n1]⟩ : Shape).Idx)
    (h0 : (i 0).val = q.val * 5000 + (j 0).val) (h1 : (i 1).val = (j 1).val) : rowBlk' i = q ∧ inBlk' i = j := by
  have hj := idx2_lt0 j
  refine ⟨Fin.ext (show (i 0).val / 5000 = q.val by omega), ?_⟩
  funext a
  match a with
  | ⟨0, _⟩ => exact Fin.ext (show (i 0).val % 5000 = (j 0).val by omega)
  | ⟨1, _⟩ => exact Fin.ext h1

/-! ## The kernel calls as functions of their operand arrays -/

/-- Call 0 (a dense layer with leaky rectifier, 256 → 128 features): each row of the result is the body's value on
    the row block it lies in. -/
def R0 (a0 : S100000x256.Idx → Elt F .f32) (a1 : S256x128.Idx → Elt F .f32) (a2 : S128.Idx → Elt F .f32) : S100000x128.Idx → Elt F .f32 :=
  fun i => k0_pay1 (rows a0 (rowBlk i)) a1 a2 (inBlk i)

/-- Call 1 (a dense layer with leaky rectifier, 128 → 64 features). -/
def R1 (a0 : S100000x128.Idx → Elt F .f32) (a1 : S128x64.Idx → Elt F .f32) (a2 : S64.Idx → Elt F .f32) : S100000x64.Idx → Elt F .f32 :=
  fun i => k1_pay1 (rows a0 (rowBlk i)) a1 a2 (inBlk i)

/-- Call 2 (a dense layer, 64 → 64 features). -/
def R2 (a0 : S100000x64.Idx → Elt F .f32) (a1 : S64x64.Idx → Elt F .f32) (a2 : S64.Idx → Elt F .f32) : S100000x64.Idx → Elt F .f32 :=
  fun i => k2_pay1 (rows a0 (rowBlk i)) a1 a2 (inBlk i)

/-- Call 3 (add a bias row, then the leaky rectifier). -/
def R3 (a0 : S100000x64.Idx → Elt F .f32) (a1 : S64.Idx → Elt F .f32) : S100000x64.Idx → Elt F .f32 :=
  fun i => k3_pay1 (rows a0 (rowBlk i)) a1 (inBlk i)

/-- Call 4 (a dense layer, 64 → 64 features). -/
def R4 (a0 : S100000x64.Idx → Elt F .f32) (a1 : S64x64.Idx → Elt F .f32) (a2 : S64.Idx → Elt F .f32) : S100000x64.Idx → Elt F .f32 :=
  fun i => k4_pay1 (rows a0 (rowBlk i)) a1 a2 (inBlk i)

/-- Call 5 (add a bias row, then the leaky rectifier). -/
def R5 (a0 : S100000x64.Idx → Elt F .f32) (a1 : S64.Idx → Elt F .f32) : S100000x64.Idx → Elt F .f32 :=
  fun i => k5_pay1 (rows a0 (rowBlk i)) a1 (inBlk i)

/-- Call 6 (a dense layer, 136 features → 1 score, on the 200000 pair rows). -/
def R6 (a0 : S200000x136.Idx → Elt F .f32) (a1 : S136x1.Idx → Elt F .f32) (a2 : S1.Idx → Elt F .f32) : S200000x1.Idx → Elt F .f32 :=
  fun i => k6_pay1 (rows' a0 (rowBlk' i)) a1 a2 (inBlk' i)

/-! ## The host's composites -/

/-- A list of edge endpoints as a column of row indices: a negative entry counts from the end (100000 is added). -/
def wrapIdx (v : Vec F S1600000 .i32) : Vec F S1600000x1 .i32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The first and the second row of the 2 × 1600000 edge list (sources, targets). -/
def edgeSrc (e : Vec F S2x1600000 .i32) : Vec F S1600000 .i32 :=
  shapeCast S1600000 (extractStridedSlice S1x1600000 ![0, 0] e slices_S2x1600000_S1x1600000_0_0) shapeCasts_S1x1600000_S1600000
def edgeDst (e : Vec F S2x1600000 .i32) : Vec F S1600000 .i32 :=
  shapeCast S1600000 (extractStridedSlice S1x1600000 ![1, 0] e slices_S2x1600000_S1x1600000_1_0) shapeCasts_S1x1600000_S1600000

/-- The zero bias row of the two bias-free dense layers. -/
def zeros64 : Vec F S64 .f32 :=
  broadcastInDim S64 ![] bcast_S_S64 (constant (F := F) S_ .f32 0x00000000#32)

/-- Degree of every node, counting itself: one plus the number of edges that end at it. -/
def deg (dst : Vec F S1600000 .i32) : Vec F S100000 .f32 :=
  addf
    (Host.scatterAdd (F := F) scatter_S100000_S1600000x1_S1600000_n_0_0_1
      (broadcastInDim S100000 ![] bcast_S_S100000 (constant (F := F) S_ .f32 0x00000000#32))
      (wrapIdx (F := F) dst)
      (broadcastInDim S1600000 ![] bcast_S_S1600000 (constant (F := F) S_ .f32 0x3F800000#32)))
    (broadcastInDim S100000 ![] bcast_S_S100000 (constant (F := F) S_ .f32 0x3F800000#32))

/-- The weight of every edge: the product of the inverse square roots of its endpoints' degrees. -/
def edgeW (src dst : Vec F S1600000 .i32) : Vec F S1600000 .f32 :=
  mulf
    (Host.gather gather_S100000_S1600000x1_S1600000_n_0_n_n_0_1_1 (Host.rsqrt (F := F) (deg (F := F) dst)) (wrapIdx (F := F) src))
    (Host.gather gather_S100000_S1600000x1_S1600000_n_0_n_n_0_1_1 (Host.rsqrt (F := F) (deg (F := F) dst)) (wrapIdx (F := F) dst))

/-- What every edge carries: its source's feature row times the edge's weight. -/
def edgeMsg (x : Vec F S100000x64 .f32) (src dst : Vec F S1600000 .i32) : Vec F S1600000x64 .f32 :=
  mulf
    (broadcastInDim S1600000x64 ![0, 1] bcast_S1600000x1_S1600000x64_0_1
      (broadcastInDim S1600000x1 ![0] bcast_S1600000_S1600000x1_0 (edgeW (F := F) src dst)))
    (Host.gather gather_S100000x64_S1600000x1_S1600000x64_1_0_n_n_0_1_164 x (wrapIdx (F := F) src))

/-- The aggregation over the graph: every node sums what its incoming edges carry and adds its own feature row
    divided by its degree. -/
def agg (x : Vec F S100000x64 .f32) (src dst : Vec F S1600000 .i32) : Vec F S100000x64 .f32 :=
  addf
    (Host.scatterAdd (F := F) scatter_S100000x64_S1600000x1_S1600000x64_1_0_0_1
      (broadcastInDim S100000x64 ![] bcast_S_S100000x64 (constant (F := F) S_ .f32 0x00000000#32))
      (wrapIdx (F := F) dst)
      (edgeMsg (F := F) x src dst))
    (mulf x
      (broadcastInDim S100000x64 ![0, 1] bcast_S100000x1_S100000x64_0_1
        (broadcastInDim S100000x1 ![0] bcast_S100000_S100000x1_0
          (Host.divf (F := F) (broadcastInDim S100000 ![] bcast_S_S100000 (constant (F := F) S_ .f32 0x3F800000#32)) (deg (F := F) dst)))))

/-- A list of pair endpoints as a column of row indices (negative entries count from the end). -/
def wrapIdx' (v : Vec F S200000 .i32) : Vec F S200000x1 .i32 :=
  broadcastInDim S200000x1 ![0] bcast_S200000_S200000x1_0
    (select (cmpi .slt v (broadcastInDim S200000 ![] bcast_S_S200000 (constantI S_ 32 0#32)))
      (addi v (broadcastInDim S200000 ![] bcast_S_S200000 (constantI S_ 32 100000#32))) v)

/-- The features of every queried pair: the feature rows of its two endpoints, then the pair's own 8 features. -/
def pairFeat (h : Vec F S100000x64 .f32) (p : Vec F S2x200000 .i32) (ef : Vec F S200000x8 .f32) : Vec F S200000x136 .f32 :=
  concatenate S200000x136 1
    [⟨S200000x64, Host.gather gather_S100000x64_S200000x1_S200000x64_1_0_n_n_0_1_164 h
        (wrapIdx' (F := F) (shapeCast S200000 (extractStridedSlice S1x200000 ![0, 0] p slices_S2x200000_S1x200000_0_0) shapeCasts_S1x200000_S200000))⟩,
     ⟨S200000x64, Host.gather gather_S100000x64_S200000x1_S200000x64_1_0_n_n_0_1_164 h
        (wrapIdx' (F := F) (shapeCast S200000 (extractStridedSlice S1x200000 ![1, 0] p slices_S2x200000_S1x200000_1_0) shapeCasts_S1x200000_S200000))⟩,
     ⟨S200000x8, ef⟩]
    concatenates_S200000x64_S200000x64_S200000x8_S200000x136_d1

/-- The column of scores as a flat list. -/
def flat (s : Vec F S200000x1 .f32) : Vec F S200000 .f32 :=
  shapeCast S200000 s shapeCasts_S200000x1_S200000

/-! ## The two results as functions of the fourteen arguments -/

/-- The node embeddings: two dense layers, a third without bias, aggregation, bias and rectifier, a fourth dense
    layer without bias, aggregation, bias and rectifier. -/
def KOut1 (a0 : Vec F S100000x256 .f32) (a1 : Vec F S2x1600000 .i32)
    (a4 : Vec F S256x128 .f32) (a5 : Vec F S128 .f32) (a6 : Vec F S128x64 .f32) (a7 : Vec F S64 .f32)
    (a8 : Vec F S64x64 .f32) (a9 : Vec F S64 .f32) (a10 : Vec F S64x64 .f32) (a11 : Vec F S64 .f32) : Vec F S100000x64 .f32 :=
  R5 (agg (R4 (R3 (agg (R2 (R1 (R0 a0 a4 a5) a6 a7) a8 (zeros64 (F := F))) (edgeSrc (F := F) a1) (edgeDst (F := F) a1)) a9) a10 (zeros64 (F := F)))
    (edgeSrc (F := F) a1) (edgeDst (F := F) a1)) a11

/-- The pair scores: the last dense layer on the pair features built from the node embeddings. -/
def KOut0 (a0 : Vec F S100000x256 .f32) (a1 : Vec F S2x1600000 .i32) (a2 : Vec F S2x200000 .i32) (a3 : Vec F S200000x8 .f32)
    (a4 : Vec F S256x128 .f32) (a5 : Vec F S128 .f32) (a6 : Vec F S128x64 .f32) (a7 : Vec F S64 .f32)
    (a8 : Vec F S64x64 .f32) (a9 : Vec F S64 .f32) (a10 : Vec F S64x64 .f32) (a11 : Vec F S64 .f32)
    (a12 : Vec F S136x1 .f32) (a13 : Vec F S1 .f32) : Vec F S200000 .f32 :=
  flat (R6 (pairFeat (KOut1 a0 a1 a4 a5 a6 a7 a8 a9 a10 a11) a2 a3) a12 a13)

end Cert.KernelIdeal.Fr

end
-- ==== Proof.KI.ValR0.lean ====
/-
  Kernel call 0 (a dense layer with leaky rectifier, 256 to 128 features) block by block: the body's value on the operand blocks of a grid point is that point's
  block of the whole-array function R0; and the result window's blocks cover the result array (the point that
  covers row r is r / 5000).
-/
import proofs.«148738_j38654705664133_1_alg».proof.Proof.KI.Spec
import proofs.«148738_j38654705664133_1_alg».proof.Proof.Gen.KernelIdeal.Launch
import proofs.«148738_j38654705664133_1_alg».proof.Proof.Gen.KernelIdeal.Points
import Idealize.ShloMosaic.Lib.Pipeline.Value

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

variable {F : FTy → Type} [FloatOps F]

/-- The printed index maps over the grid: point t takes row block t of the first operand and of the result, and the
    small operands whole. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

/-- The body's value on the operands' blocks at point t is block t of R0 of the operand arrays. -/
theorem blkread0 (A0 : S100000x256.Idx → Elt F .f32) (A1 : S256x128.Idx → Elt F .f32) (A2 : S128.Idx → Elt F .f32) (t : Fin cfg0.N) :
    k0_pay1 (((cfg0.win 0).blk t).view.read (Elt F) A0) (((cfg0.win 1).blk t).view.read (Elt F) A1) (((cfg0.win 2).blk t).view.read (Elt F) A2)
      = ((cfg0.win 3).blk t).view.read (Elt F) (R0 A0 A1 A2) := by
  have hN : cfg0.N = 20 := N_0
  obtain ⟨e00, e01, e10, e11, e20, eo0, eo1⟩ := idx_facts0 t
  have ht : t.val < 20 := by have := t.isLt; omega
  have h0 : ((cfg0.win 0).blk t).view.read (Elt F) A0 = rows A0 ⟨t.val, ht⟩ := by
    funext y
    show A0 (((cfg0.win 0).blk t).view.emb y) = A0 _
    congr 1
    funext a; apply Fin.ext
    match a with
    | ⟨0, _⟩ => show win0_0.index t (0 : Fin 2) * 5000 + 1 * (y 0).val = t.val * 5000 + (y 0).val; rw [e00]; omega
    | ⟨1, _⟩ => show win0_0.index t (1 : Fin 2) * 256 + 1 * (y 1).val = (y 1).val; rw [e01]; omega
  have h1 : ((cfg0.win 1).blk t).view.read (Elt F) A1 = A1 := by
    funext y
    show A1 (((cfg0.win 1).blk t).view.emb y) = A1 y
    congr 1
    funext a; apply Fin.ext
    match a with
    | ⟨0, _⟩ => show win0_1.index t (0 : Fin 2) * 256 + 1 * (y 0).val = (y 0).val; rw [e10]; omega
    | ⟨1, _⟩ => show win0_1.index t (1 : Fin 2) * 128 + 1 * (y 1).val = (y 1).val; rw [e11]; omega
  have h2 : ((cfg0.win 2).blk t).view.read (Elt F) A2 = A2 := by
    funext y
    show A2 (((cfg0.win 2).blk t).view.emb y) = A2 y
    congr 1
    funext a; apply Fin.ext
    match a with
    | ⟨0, _⟩ => show win0_2.index t (0 : Fin 1) * 128 + 1 * (y 0).val = (y 0).val; rw [e20]; omega
  rw [h0, h1, h2]
  funext j
  show k0_pay1 (rows A0 ⟨t.val, ht⟩) A1 A2 j = R0 A0 A1 A2 (((cfg0.win 3).blk t).view.emb j)
  obtain ⟨hb, hi⟩ := blk_at (n1 := 128) (((cfg0.win 3).blk t).view.emb j) ⟨t.val, ht⟩ j
    (show win0_3.index t (0 : Fin 2) * 5000 + 1 * (j 0).val = t.val * 5000 + (j 0).val by rw [eo0]; omega)
    (show win0_3.index t (1 : Fin 2) * 128 + 1 * (j 1).val = (j 1).val by rw [eo1]; omega)
  unfold R0
  rw [hb, hi]

/-- An index of the result array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v4).slice (win0_3.rect t)).set ↔ _
  rw [View.set_slice_whole, Rect.mem_set_unit]
  exact Iff.rfl

/-- Every index of the result array lies in the block of the point its row block names, and that point writes back. -/
theorem covered0 (i : S100000x128.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  have ht : (i 0).val / 5000 < cfg0.N := by omega
  obtain ⟨e00, e01, e10, e11, e20, eo0, eo1⟩ := idx_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [eo0]; dsimp only; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [eo1]; omega

end Cert.KernelIdeal.Fr

end
-- ==== Proof.KI.Final0.lean ====
/-
  Kernel call 0 as a whole: what each grid point writes back is its block of R0 of the operand arrays as the call
  finds them, the blocks cover the result array, so the result array ends holding R0 of the operand arrays.
-/
import proofs.«148738_j38654705664133_1_alg».proof.Proof.KI.Region0
import proofs.«148738_j38654705664133_1_alg».proof.Proof.KI.ValR0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- What point t writes back is block t of R0 of the operand arrays as the call finds them. -/
theorem flushed0_eq (c : Dev nD) (t : Fin cfg0.N) :
    (dat0 V c).flushed 3 t = ((cfg0.win 3).blk t).view.read (Elt F) (R0 (V c (Pipeline.arrRef spec0 0)) (V c (Pipeline.arrRef spec0 1)) (V c (Pipeline.arrRef spec0 2))) := by
  have hz2 : (![0, 0] : Fin 2 → Nat) = fun _ => 0 := funext fun a => by fin_cases a <;> rfl
  have hz1 : (![0] : Fin 1 → Nat) = fun _ => 0 := funext fun a => by fin_cases a <;> rfl
  show (cfg0.win 3).cut (grid0.coords t) ((dat0 V c).after 3 t) = _
  rw [after0_3]
  unfold out0
  rw [View.canon_unit_zero hz2]
  simp only [View.ld_unit_zero (S := S5000x256) hz2, View.ld_unit_zero (S := S256x128) hz2, View.ld_unit_zero (S := S128) hz1]
  funext j
  show k0_pay1 (iblk0 V c 0 t) (iblk0 V c 1 t) (iblk0 V c 2 t) j = ((cfg0.win 3).blk t).view.read (Elt F) (R0 (V c (Pipeline.arrRef spec0 0)) (V c (Pipeline.arrRef spec0 1)) (V c (Pipeline.arrRef spec0 2))) j
  unfold iblk0
  exact congrFun (blkread0 (V c (Pipeline.arrRef spec0 0)) (V c (Pipeline.arrRef spec0 1)) (V c (Pipeline.arrRef spec0 2)) t) j

/-- The result array after the call is R0 of the operand arrays as the call finds them. -/
theorem final0 (c : Dev nD) : (dat0 V c).arrAt 3 cfg0.N = R0 (V c (Pipeline.arrRef spec0 0)) (V c (Pipeline.arrRef spec0 1)) (V c (Pipeline.arrRef spec0 2)) :=
  (dat0 V c).arrAt_eq_of_cover 3 _ (fun t _ => flushed0_eq V c t) covered0

end Cert.KernelIdeal.Fr

end
-- ==== Proof.KI.ValR1.lean ====
/-
  Kernel call 1 (a dense layer with leaky rectifier, 128 to 64 features) block by block: the body's value on the operand blocks of a grid point is that point's
  block of the whole-array function R1; and the result window's blocks cover the result array (the point that
  covers row r is r / 5000).
-/
import proofs.«148738_j38654705664133_1_alg».proof.Proof.KI.Spec
import proofs.«148738_j38654705664133_1_alg».proof.Proof.Gen.KernelIdeal.Launch
import proofs.«148738_j38654705664133_1_alg».proof.Proof.Gen.KernelIdeal.Points
import Idealize.ShloMosaic.Lib.Pipeline.Value

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

variable {F : FTy → Type} [FloatOps F]

/-- The printed index maps over the grid: point t takes row block t of the first operand and of the result, and the
    small operands whole. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = t.val
    ∧ win1_3.index t (1 : Fin 2) = 0 :=
  (by decide +kernel : ∀ t : Fin grid1.N, _)

/-- The body's value on the operands' blocks at point t is block t of R1 of the operand arrays. -/
theorem blkread1 (A0 : S100000x128.Idx → Elt F .f32) (A1 : S128x64.Idx → Elt F .f32) (A2 : S64.Idx → Elt F .f32) (t : Fin cfg1.N) :
    k1_pay1 (((cfg1.win 0).blk t).view.read (Elt F) A0) (((cfg1.win 1).blk t).view.read (Elt F) A1) (((cfg1.win 2).blk t).view.read (Elt F) A2)
      = ((cfg1.win 3).blk t).view.read (Elt F) (R1 A0 A1 A2) := by
  have hN : cfg1.N = 20 := N_1
  obtain ⟨e00, e01, e10, e11, e20, eo0, eo1⟩ := idx_facts1 t
  have ht : t.val < 20 := by have := t.isLt; omega
  have h0 : ((cfg1.win 0).blk t).view.read (Elt F) A0 = rows A0 ⟨t.val, ht⟩ := by
    funext y
    show A0 (((cfg1.win 0).blk t).view.emb y) = A0 _
    congr 1
    funext a; apply Fin.ext
    match a with
    | ⟨0, _⟩ => show win1_0.index t (0 : Fin 2) * 5000 + 1 * (y 0).val = t.val * 5000 + (y 0).val; rw [e00]; omega
    | ⟨1, _⟩ => show win1_0.index t (1 : Fin 2) * 128 + 1 * (y 1).val = (y 1).val; rw [e01]; omega
  have h1 : ((cfg1.win 1).blk t).view.read (Elt F) A1 = A1 := by
    funext y
    show A1 (((cfg1.win 1).blk t).view.emb y) = A1 y
    congr 1
    funext a; apply Fin.ext
    match a with
    | ⟨0, _⟩ => show win1_1.index t (0 : Fin 2) * 128 + 1 * (y 0).val = (y 0).val; rw [e10]; omega
    | ⟨1, _⟩ => show win1_1.index t (1 : Fin 2) * 64 + 1 * (y 1).val = (y 1).val; rw [e11]; omega
  have h2 : ((cfg1.win 2).blk t).view.read (Elt F) A2 = A2 := by
    funext y
    show A2 (((cfg1.win 2).blk t).view.emb y) = A2 y
    congr 1
    funext a; apply Fin.ext
    match a with
    | ⟨0, _⟩ => show win1_2.index t (0 : Fin 1) * 64 + 1 * (y 0).val = (y 0).val; rw [e20]; omega
  rw [h0, h1, h2]
  funext j
  show k1_pay1 (rows A0 ⟨t.val, ht⟩) A1 A2 j = R1 A0 A1 A2 (((cfg1.win 3).blk t).view.emb j)
  obtain ⟨hb, hi⟩ := blk_at (n1 := 64) (((cfg1.win 3).blk t).view.emb j) ⟨t.val, ht⟩ j
    (show win1_3.index t (0 : Fin 2) * 5000 + 1 * (j 0).val = t.val * 5000 + (j 0).val by rw [eo0]; omega)
    (show win1_3.index t (1 : Fin 2) * 64 + 1 * (j 1).val = (j 1).val by rw [eo1]; omega)
  unfold R1
  rw [hb, hi]

/-- An index of the result array is in point t's block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v5).slice (win1_3.rect t)).set ↔ _
  rw [View.set_slice_whole, Rect.mem_set_unit]
  exact Iff.rfl

/-- Every index of the result array lies in the block of the point its row block names, and that point writes back. -/
theorem covered1 (i : S100000x64.Idx) :
    ∃ t : Fin cfg1.N, (cfg1.win 3).flush t = true ∧ i ∈ ((cfg1.win 3).blk t).view.set := by
  have hN : cfg1.N = 20 := N_1
  have hi0 : (i 0).val < 100000 := (i 0).isLt
  have hi1 : (i 1).val < 64 := (i 1).isLt
  have ht : (i 0).val / 5000 < cfg1.N := by omega
  obtain ⟨e00, e01, e10, e11, e20, eo0, eo1⟩ := idx_facts1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [eo0]; dsimp only; omega
  | ⟨1, _⟩ =>
    show win1_3.index ⟨(i 0).val / 5000, ht⟩ (1 : Fin 2) * 64 ≤ (i 1).val ∧ (i 1).val < win1_3.index ⟨(i 0).val / 5000, ht⟩ (1 : Fin 2) * 64 + 64
    rw [eo1]; omega

end Cert.KernelIdeal.Fr

end
-- ==== Proof.KI.Final1.lean ====
/-
  Kernel call 1 as a whole: what each grid point writes back is its block of R1 of the operand arrays as the call
  finds them, the blocks cover the result array, so the result array ends holding R1 of the operand arrays.
-/
import proofs.«148738_j38654705664133_1_alg».proof.Proof.KI.Region1
import proofs.«148738_j38654705664133_1_alg».proof.Proof.KI.ValR1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- What point t writes back is block t of R1 of the operand arrays as the call finds them. -/
theorem flushed1_eq (c : Dev nD) (t : Fin cfg1.N) :
    (dat1 V c).flushed 3 t = ((cfg1.win 3).blk t).view.read (Elt F) (R1 (V c (Pipeline.arrRef spec1 0)) (V c (Pipeline.arrRef spec1 1)) (V c (Pipeline.arrRef spec1 2))) := by
  have hz2 : (![0, 0] : Fin 2 → Nat) = fun _ => 0 := funext fun a => by fin_cases a <;> rfl
  have hz1 : (![0] : Fin 1 → Nat) = fun _ => 0 := funext fun a => by fin_cases a <;> rfl
  show (cfg1.win 3).cut (grid1.coords t) ((dat1 V c).after 3 t) = _
  rw [after1_3]
  unfold out1
  rw [View.canon_unit_zero hz2]
  simp only [View.ld_unit_zero (S := S5000x128) hz2, View.ld_unit_zero (S := S128x64) hz2, View.ld_unit_zero (S := S64) hz1]
  funext j
  show k1_pay1 (iblk1 V c 0 t) (iblk1 V c 1 t) (iblk1 V c 2 t) j = ((cfg1.win 3).blk t).view.read (Elt F) (R1 (V c (Pipeline.arrRef spec1 0)) (V c (Pipeline.arrRef spec1 1)) (V c (Pipeline.arrRef spec1 2))) j
  unfold iblk1
  exact congrFun (blkread1 (V c (Pipeline.arrRef spec1 0)) (V c (Pipeline.arrRef spec1 1)) (V c (Pipeline.arrRef spec1 2)) t) j

/-- The result array after the call is R1 of the operand arrays as the call finds them. -/
theorem final1 (c : Dev nD) : (dat1 V c).arrAt 3 cfg1.N = R1 (V c (Pipeline.arrRef spec1 0)) (V c (Pipeline.arrRef spec1 1)) (V c (Pipeline.arrRef spec1 2)) :=
  (dat1 V c).arrAt_eq_of_cover 3 _ (fun t _ => flushed1_eq V c t) covered1

end Cert.KernelIdeal.Fr

end
-- ==== Proof.KI.ValR2.lean ====
/-
  Kernel call 2 (a dense layer, 64 to 64 features) block by block: the body's value on the operand blocks of a grid point is that point's
  block of the whole-array function R2; and the result window's blocks cover the result array (the point that
  covers row r is r / 5000).
-/
import proofs.«148738_j38654705664133_1_alg».proof.Proof.KI.Spec
import proofs.«148738_j38654705664133_1_alg».proof.Proof.Gen.KernelIdeal.Launch
import proofs.«148738_j38654705664133_1_alg».proof.Proof.Gen.KernelIdeal.Points
import Idealize.ShloMosaic.Lib.Pipeline.Value

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

variable {F : FTy → Type} [FloatOps F]

/-- The printed index maps over the grid: point t takes row block t of the first operand and of the result, and the
    small operands whole. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 1) = 0
    ∧ win2_3.index t (0 : Fin 2) = t.val
    ∧ win2_3.index t (1 : Fin 2) = 0 :=
  (by decide +kernel : ∀ t : Fin grid2.N, _)

/-- The body's value on the operands' blocks at point t is block t of R2 of the operand arrays. -/
theorem blkread2 (A0 : S100000x64.Idx → Elt F .f32) (A1 : S64x64.Idx → Elt F .f32) (A2 : S64.Idx → Elt F .f32) (t : Fin cfg2.N) :
    k2_pay1 (((cfg2.win 0).blk t).view.read (Elt F) A0) (((cfg2.win 1).blk t).view.read (Elt F) A1) (((cfg2.win 2).blk t).view.read (Elt F) A2)
      = ((cfg2.win 3).blk t).view.read (Elt F) (R2 A0 A1 A2) := by
  have hN : cfg2.N = 20 := N_2
  obtain ⟨e00, e01, e10, e11, e20, eo0, eo1⟩ := idx_facts2 t
  have ht : t.val < 20 := by have := t.isLt; omega
  have h0 : ((cfg2.win 0).blk t).view.read (Elt F) A0 = rows A0 ⟨t.val, ht⟩ := by
    funext y
    show A0 (((cfg2.win 0).blk t).view.emb y) = A0 _
    congr 1
    funext a; apply Fin.ext
    match a with
    | ⟨0, _⟩ => show win2_0.index t (0 : Fin 2) * 5000 + 1 * (y 0).val = t.val * 5000 + (y 0).val; rw [e00]; omega
    | ⟨1, _⟩ => show win2_0.index t (1 : Fin 2) * 64 + 1 * (y 1).val = (y 1).val; rw [e01]; omega
  have h1 : ((cfg2.win 1).blk t).view.read (Elt F) A1 = A1 := by
    funext y
    show A1 (((cfg2.win 1).blk t).view.emb y) = A1 y
    congr 1
    funext a; apply Fin.ext
    match a with
    | ⟨0, _⟩ => show win2_1.index t (0 : Fin 2) * 64 + 1 * (y 0).val = (y 0).val; rw [e10]; omega
    | ⟨1, _⟩ => show win2_1.index t (1 : Fin 2) * 64 + 1 * (y 1).val = (y 1).val; rw [e11]; omega
  have h2 : ((cfg2.win 2).blk t).view.read (Elt F) A2 = A2 := by
    funext y
    show A2 (((cfg2.win 2).blk t).view.emb y) = A2 y
    congr 1
    funext a; apply Fin.ext
    match a with
    | ⟨0, _⟩ => show win2_2.index t (0 : Fin 1) * 64 + 1 * (y 0).val = (y 0).val; rw [e20]; omega
  rw [h0, h1, h2]
  funext j
  show k2_pay1 (rows A0 ⟨t.val, ht⟩) A1 A2 j = R2 A0 A1 A2 (((cfg2.win 3).blk t).view.emb j)
  obtain ⟨hb, hi⟩ := blk_at (n1 := 64) (((cfg2.win 3).blk t).view.emb j) ⟨t.val, ht⟩ j
    (show win2_3.index t (0 : Fin 2) * 5000 + 1 * (j 0).val = t.val * 5000 + (j 0).val by rw [eo0]; omega)
    (show win2_3.index t (1 : Fin 2) * 64 + 1 * (j 1).val = (j 1).val by rw [eo1]; omega)
  unfold R2
  rw [hb, hi]

/-- An index of the result array is in point t's block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v7).slice (win2_3.rect t)).set ↔ _
  rw [View.set_slice_whole, Rect.mem_set_unit]
  exact Iff.rfl

/-- Every index of the result array lies in the block of the point its row block names, and that point writes back. -/
theorem covered2 (i : S100000x64.Idx) :
    ∃ t : Fin cfg2.N, (cfg2.win 3).flush t = true ∧ i ∈ ((cfg2.win 3).blk t).view.set := by
  have hN : cfg2.N = 20 := N_2
  have hi0 : (i 0).val < 100000 := (i 0).isLt
  have hi1 : (i 1).val < 64 := (i 1).isLt
  have ht : (i 0).val / 5000 < cfg2.N := by omega
  obtain ⟨e00, e01, e10, e11, e20, eo0, eo1⟩ := idx_facts2 ⟨(i 0).val / 5000, ht⟩
  refine ⟨⟨(i 0).val / 5000, ht⟩, flush2_3 _, ?_⟩
  rw [mem_blk2]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [eo0]; dsimp only; omega
  | ⟨1, _⟩ =>
    show win2_3.index ⟨(i 0).val / 5000, ht⟩ (1 : Fin 2) * 64 ≤ (i 1).val ∧ (i 1).val < win2_3.index ⟨(i 0).val / 5000, ht⟩ (1 : Fin 2) * 64 + 64
    rw [eo1]; omega

end Cert.KernelIdeal.Fr

end
-- ==== Proof.KI.Final2.lean ====
/-
  Kernel call 2 as a whole: what each grid point writes back is its block of R2 of the operand arrays as the call
  finds them, the blocks cover the result array, so the result array ends holding R2 of the operand arrays.
-/
import proofs.«148738_j38654705664133_1_alg».proof.Proof.KI.Region2
import proofs.«148738_j38654705664133_1_alg».proof.Proof.KI.ValR2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- What point t writes back is block t of R2 of the operand arrays as the call finds them. -/
theorem flushed2_eq (c : Dev nD) (t : Fin cfg2.N) :
    (dat2 V c).flushed 3 t = ((cfg2.win 3).blk t).view.read (Elt F) (R2 (V c (Pipeline.arrRef spec2 0)) (V c (Pipeline.arrRef spec2 1)) (V c (Pipeline.arrRef spec2 2))) := by
  have hz2 : (![0, 0] : Fin 2 → Nat) = fun _ => 0 := funext fun a => by fin_cases a <;> rfl
  have hz1 : (![0] : Fin 1 → Nat) = fun _ => 0 := funext fun a => by fin_cases a <;> rfl
  show (cfg2.win 3).cut (grid2.coords t) ((dat2 V c).after 3 t) = _
  rw [after2_3]
  unfold out2
  rw [View.canon_unit_zero hz2]
  simp only [View.ld_unit_zero (S := S5000x64) hz2, View.ld_unit_zero (S := S64x64) hz2, View.ld_unit_zero (S := S64) hz1]
  funext j
  show k2_pay1 (iblk2 V c 0 t) (iblk2 V c 1 t) (iblk2 V c 2 t) j = ((cfg2.win 3).blk t).view.read (Elt F) (R2 (V c (Pipeline.arrRef spec2 0)) (V c (Pipeline.arrRef spec2 1)) (V c (Pipeline.arrRef spec2 2))) j
  unfold iblk2
  exact congrFun (blkread2 (V c (Pipeline.arrRef spec2 0)) (V c (Pipeline.arrRef spec2 1)) (V c (Pipeline.arrRef spec2 2)) t) j

/-- The result array after the call is R2 of the operand arrays as the call finds them. -/
theorem final2 (c : Dev nD) : (dat2 V c).arrAt 3 cfg2.N = R2 (V c (Pipeline.arrRef spec2 0)) (V c (Pipeline.arrRef spec2 1)) (V c (Pipeline.arrRef spec2 2)) :=
  (dat2 V c).arrAt_eq_of_cover 3 _ (fun t _ => flushed2_eq V c t) covered2

end Cert.KernelIdeal.Fr

end
-- ==== Proof.KI.ValR3.lean ====
/-
  Kernel call 3 (bias and leaky rectifier) block by block: the body's value on the operand blocks of a grid point is that point's
  block of the whole-array function R3; and the result window's blocks cover the result array (the point that
  covers row r is r / 5000).
-/
import proofs.«148738_j38654705664133_1_alg».proof.Proof.KI.Spec
import proofs.«148738_j38654705664133_1_alg».proof.Proof.Gen.KernelIdeal.Launch
import proofs.«148738_j38654705664133_1_alg».proof.Proof.Gen.KernelIdeal.Points
import Idealize.ShloMosaic.Lib.Pipeline.Value

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

variable {F : FTy → Type} [FloatOps F]

/-- The printed index maps over the grid: point t takes row block t of the first operand and of the result, and the
    small operands whole. -/
theorem idx_facts3 : ∀ t : Fin cfg3.N, win3_0.index t (0 : Fin 2) = t.val
    ∧ win3_0.index t (1 : Fin 2) = 0
    ∧ win3_1.index t (0 : Fin 1) = 0
    ∧ win3_2.index t (0 : Fin 2) = t.val
    ∧ win3_2.index t (1 : Fin 2) = 0 :=
  (by decide +kernel : ∀ t : Fin grid3.N, _)

/-- The body's value on the operands' blocks at point t is block t of R3 of the operand arrays. -/
theorem blkread3 (A0 : S100000x64.Idx → Elt F .f32) (A1 : S64.Idx → Elt F .f32) (t : Fin cfg3.N) :
    k3_pay1 (((cfg3.win 0).blk t).view.read (Elt F) A0) (((cfg3.win 1).blk t).view.read (Elt F) A1)
      = ((cfg3.win 2).blk t).view.read (Elt F) (R3 A0 A1) := by
  have hN : cfg3.N = 20 := N_3
  obtain ⟨e00, e01, e10, eo0, eo1⟩ := idx_facts3 t
  have ht : t.val < 20 := by have := t.isLt; omega
  have h0 : ((cfg3.win 0).blk t).view.read (Elt F) A0 = rows A0 ⟨t.val, ht⟩ := by
    funext y
    show A0 (((cfg3.win 0).blk t).view.emb y) = A0 _
    congr 1
    funext a; apply Fin.ext
    match a with
    | ⟨0, _⟩ => show win3_0.index t (0 : Fin 2) * 5000 + 1 * (y 0).val = t.val * 5000 + (y 0).val; rw [e00]; omega
    | ⟨1, _⟩ => show win3_0.index t (1 : Fin 2) * 64 + 1 * (y 1).val = (y 1).val; rw [e01]; omega
  have h1 : ((cfg3.win 1).blk t).view.read (Elt F) A1 = A1 := by
    funext y
    show A1 (((cfg3.win 1).blk t).view.emb y) = A1 y
    congr 1
    funext a; apply Fin.ext
    match a with
    | ⟨0, _⟩ => show win3_1.index t (0 : Fin 1) * 64 + 1 * (y 0).val = (y 0).val; rw [e10]; omega
  rw [h0, h1]
  funext j
  show k3_pay1 (rows A0 ⟨t.val, ht⟩) A1 j = R3 A0 A1 (((cfg3.win 2).blk t).view.emb j)
  obtain ⟨hb, hi⟩ := blk_at (n1 := 64) (((cfg3.win 2).blk t).view.emb j) ⟨t.val, ht⟩ j
    (show win3_2.index t (0 : Fin 2) * 5000 + 1 * (j 0).val = t.val * 5000 + (j 0).val by rw [eo0]; omega)
    (show win3_2.index t (1 : Fin 2) * 64 + 1 * (j 1).val = (j 1).val by rw [eo1]; omega)
  unfold R3
  rw [hb, hi]

/-- An index of the result array is in point t's block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v59).slice (win3_2.rect t)).set ↔ _
  rw [View.set_slice_whole, Rect.mem_set_unit]
  exact Iff.rfl

/-- Every index of the result array lies in the block of the point its row block names, and that point writes back. -/
theorem covered3 (i : S100000x64.Idx) :
    ∃ t : Fin cfg3.N, (cfg3.win 2).flush t = true ∧ i ∈ ((cfg3.win 2).blk t).view.set := by
  have hN : cfg3.N = 20 := N_3
  have hi0 : (i 0).val < 100000 := (i 0).isLt
  have hi1 : (i 1).val < 64 := (i 1).isLt
  have ht : (i 0).val / 5000 < cfg3.N := by omega
  obtain ⟨e00, e01, e10, eo0, eo1⟩ := idx_facts3 ⟨(i 0).val / 5000, ht⟩
  refine ⟨⟨(i 0).val / 5000, ht⟩, flush3_2 _, ?_⟩
  rw [mem_blk3]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [eo0]; dsimp only; omega
  | ⟨1, _⟩ =>
    show win3_2.index ⟨(i 0).val / 5000, ht⟩ (1 : Fin 2) * 64 ≤ (i 1).val ∧ (i 1).val < win3_2.index ⟨(i 0).val / 5000, ht⟩ (1 : Fin 2) * 64 + 64
    rw [eo1]; omega

end Cert.KernelIdeal.Fr

end
-- ==== Proof.KI.Final3.lean ====
/-
  Kernel call 3 as a whole: what each grid point writes back is its block of R3 of the operand arrays as the call
  finds them, the blocks cover the result array, so the result array ends holding R3 of the operand arrays.
-/
import proofs.«148738_j38654705664133_1_alg».proof.Proof.KI.Region3
import proofs.«148738_j38654705664133_1_alg».proof.Proof.KI.ValR3

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- What point t writes back is block t of R3 of the operand arrays as the call finds them. -/
theorem flushed3_eq (c : Dev nD) (t : Fin cfg3.N) :
    (dat3 V c).flushed 2 t = ((cfg3.win 2).blk t).view.read (Elt F) (R3 (V c (Pipeline.arrRef spec3 0)) (V c (Pipeline.arrRef spec3 1))) := by
  have hz2 : (![0, 0] : Fin 2 → Nat) = fun _ => 0 := funext fun a => by fin_cases a <;> rfl
  have hz1 : (![0] : Fin 1 → Nat) = fun _ => 0 := funext fun a => by fin_cases a <;> rfl
  show (cfg3.win 2).cut (grid3.coords t) ((dat3 V c).after 2 t) = _
  rw [after3_2]
  unfold out3
  rw [View.canon_unit_zero hz2]
  simp only [View.ld_unit_zero (S := S5000x64) hz2, View.ld_unit_zero (S := S64) hz1]
  funext j
  show k3_pay1 (iblk3 V c 0 t) (iblk3 V c 1 t) j = ((cfg3.win 2).blk t).view.read (Elt F) (R3 (V c (Pipeline.arrRef spec3 0)) (V c (Pipeline.arrRef spec3 1))) j
  unfold iblk3
  exact congrFun (blkread3 (V c (Pipeline.arrRef spec3 0)) (V c (Pipeline.arrRef spec3 1)) t) j

/-- The result array after the call is R3 of the operand arrays as the call finds them. -/
theorem final3 (c : Dev nD) : (dat3 V c).arrAt 2 cfg3.N = R3 (V c (Pipeline.arrRef spec3 0)) (V c (Pipeline.arrRef spec3 1)) :=
  (dat3 V c).arrAt_eq_of_cover 2 _ (fun t _ => flushed3_eq V c t) covered3

end Cert.KernelIdeal.Fr

end
-- ==== Proof.KI.ValR4.lean ====
/-
  Kernel call 4 (a dense layer, 64 to 64 features) block by block: the body's value on the operand blocks of a grid point is that point's
  block of the whole-array function R4; and the result window's blocks cover the result array (the point that
  covers row r is r / 5000).
-/
import proofs.«148738_j38654705664133_1_alg».proof.Proof.KI.Spec
import proofs.«148738_j38654705664133_1_alg».proof.Proof.Gen.KernelIdeal.Launch
import proofs.«148738_j38654705664133_1_alg».proof.Proof.Gen.KernelIdeal.Points
import Idealize.ShloMosaic.Lib.Pipeline.Value

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

variable {F : FTy → Type} [FloatOps F]

/-- The printed index maps over the grid: point t takes row block t of the first operand and of the result, and the
    small operands whole. -/
theorem idx_facts4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 1) = 0
    ∧ win4_3.index t (0 : Fin 2) = t.val
    ∧ win4_3.index t (1 : Fin 2) = 0 :=
  (by decide +kernel : ∀ t : Fin grid4.N, _)

/-- The body's value on the operands' blocks at point t is block t of R4 of the operand arrays. -/
theorem blkread4 (A0 : S100000x64.Idx → Elt F .f32) (A1 : S64x64.Idx → Elt F .f32) (A2 : S64.Idx → Elt F .f32) (t : Fin cfg4.N) :
    k4_pay1 (((cfg4.win 0).blk t).view.read (Elt F) A0) (((cfg4.win 1).blk t).view.read (Elt F) A1) (((cfg4.win 2).blk t).view.read (Elt F) A2)
      = ((cfg4.win 3).blk t).view.read (Elt F) (R4 A0 A1 A2) := by
  have hN : cfg4.N = 20 := N_4
  obtain ⟨e00, e01, e10, e11, e20, eo0, eo1⟩ := idx_facts4 t
  have ht : t.val < 20 := by have := t.isLt; omega
  have h0 : ((cfg4.win 0).blk t).view.read (Elt F) A0 = rows A0 ⟨t.val, ht⟩ := by
    funext y
    show A0 (((cfg4.win 0).blk t).view.emb y) = A0 _
    congr 1
    funext a; apply Fin.ext
    match a with
    | ⟨0, _⟩ => show win4_0.index t (0 : Fin 2) * 5000 + 1 * (y 0).val = t.val * 5000 + (y 0).val; rw [e00]; omega
    | ⟨1, _⟩ => show win4_0.index t (1 : Fin 2) * 64 + 1 * (y 1).val = (y 1).val; rw [e01]; omega
  have h1 : ((cfg4.win 1).blk t).view.read (Elt F) A1 = A1 := by
    funext y
    show A1 (((cfg4.win 1).blk t).view.emb y) = A1 y
    congr 1
    funext a; apply Fin.ext
    match a with
    | ⟨0, _⟩ => show win4_1.index t (0 : Fin 2) * 64 + 1 * (y 0).val = (y 0).val; rw [e10]; omega
    | ⟨1, _⟩ => show win4_1.index t (1 : Fin 2) * 64 + 1 * (y 1).val = (y 1).val; rw [e11]; omega
  have h2 : ((cfg4.win 2).blk t).view.read (Elt F) A2 = A2 := by
    funext y
    show A2 (((cfg4.win 2).blk t).view.emb y) = A2 y
    congr 1
    funext a; apply Fin.ext
    match a with
    | ⟨0, _⟩ => show win4_2.index t (0 : Fin 1) * 64 + 1 * (y 0).val = (y 0).val; rw [e20]; omega
  rw [h0, h1, h2]
  funext j
  show k4_pay1 (rows A0 ⟨t.val, ht⟩) A1 A2 j = R4 A0 A1 A2 (((cfg4.win 3).blk t).view.emb j)
  obtain ⟨hb, hi⟩ := blk_at (n1 := 64) (((cfg4.win 3).blk t).view.emb j) ⟨t.val, ht⟩ j
    (show win4_3.index t (0 : Fin 2) * 5000 + 1 * (j 0).val = t.val * 5000 + (j 0).val by rw [eo0]; omega)
    (show win4_3.index t (1 : Fin 2) * 64 + 1 * (j 1).val = (j 1).val by rw [eo1]; omega)
  unfold R4
  rw [hb, hi]

/-- An index of the result array is in point t's block iff each coordinate is in the block's range on its axis. -/
theorem mem_blk4 (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v60).slice (win4_3.rect t)).set ↔ _
  rw [View.set_slice_whole, Rect.mem_set_unit]
  exact Iff.rfl

/-- Every index of the result array lies in the block of the point its row block names, and that point writes back. -/
theorem covered4 (i : S100000x64.Idx) :
    ∃ t : Fin cfg4.N, (cfg4.win 3).flush t = true ∧ i ∈ ((cfg4.win 3).blk t).view.set := by
  have hN : cfg4.N = 20 := N_4
  have hi0 : (i 0).val < 100000 := (i 0).isLt
  have hi1 : (i 1).val < 64 := (i 1).isLt
  have ht : (i 0).val / 5000 < cfg4.N := by omega
  obtain ⟨e00, e01, e10, e11, e20, eo0, eo1⟩ := idx_facts4 ⟨(i 0).val / 5000, ht⟩
  refine ⟨⟨(i 0).val / 5000, ht⟩, flush4_3 _, ?_⟩
  rw [mem_blk4]
  intro a
  match a with
  | ⟨0, _⟩ =>
    show win4_3.index ⟨(i 0).val / 5000, ht⟩ (0 : Fin 2) * 5000 ≤ (i 0).val ∧ (i 0).val < win4_3.index ⟨(i 0).val / 5000, ht⟩ (0 : Fin 2) * 5000 + 5000
    rw [eo0]; dsimp only; omega
  | ⟨1, _⟩ =>
    show win4_3.index ⟨(i 0).val / 5000, ht⟩ (1 : Fin 2) * 64 ≤ (i 1).val ∧ (i 1).val < win4_3.index ⟨(i 0).val / 5000, ht⟩ (1 : Fin 2) * 64 + 64
    rw [eo1]; omega

end Cert.KernelIdeal.Fr

end
-- ==== Proof.KI.Final4.lean ====
/-
  Kernel call 4 as a whole: what each grid point writes back is its block of R4 of the operand arrays as the call
  finds them, the blocks cover the result array, so the result array ends holding R4 of the operand arrays.
-/
import proofs.«148738_j38654705664133_1_alg».proof.Proof.KI.Region4
import proofs.«148738_j38654705664133_1_alg».proof.Proof.KI.ValR4

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- What point t writes back is block t of R4 of the operand arrays as the call finds them. -/
theorem flushed4_eq (c : Dev nD) (t : Fin cfg4.N) :
    (dat4 V c).flushed 3 t = ((cfg4.win 3).blk t).view.read (Elt F) (R4 (V c (Pipeline.arrRef spec4 0)) (V c (Pipeline.arrRef spec4 1)) (V c (Pipeline.arrRef spec4 2))) := by
  have hz2 : (![0, 0] : Fin 2 → Nat) = fun _ => 0 := funext fun a => by fin_cases a <;> rfl
  have hz1 : (![0] : Fin 1 → Nat) = fun _ => 0 := funext fun a => by fin_cases a <;> rfl
  show (cfg4.win 3).cut (grid4.coords t) ((dat4 V c).after 3 t) = _
  rw [after4_3]
  unfold out4
  rw [View.canon_unit_zero hz2]
  simp only [View.ld_unit_zero (S := S5000x64) hz2, View.ld_unit_zero (S := S64x64) hz2, View.ld_unit_zero (S := S64) hz1]
  funext j
  show k4_pay1 (iblk4 V c 0 t) (iblk4 V c 1 t) (iblk4 V c 2 t) j = ((cfg4.win 3).blk t).view.read (Elt F) (R4 (V c (Pipeline.arrRef spec4 0)) (V c (Pipeline.arrRef spec4 1)) (V c (Pipeline.arrRef spec4 2))) j
  unfold iblk4
  exact congrFun (blkread4 (V c (Pipeline.arrRef spec4 0)) (V c (Pipeline.arrRef spec4 1)) (V c (Pipeline.arrRef spec4 2)) t) j

/-- The result array after the call is R4 of the operand arrays as the call finds them. -/
theorem final4 (c : Dev nD) : (dat4 V c).arrAt 3 cfg4.N = R4 (V c (Pipeline.arrRef spec4 0)) (V c (Pipeline.arrRef spec4 1)) (V c (Pipeline.arrRef spec4 2)) :=
  (dat4 V c).arrAt_eq_of_cover 3 _ (fun t _ => flushed4_eq V c t) covered4

end Cert.KernelIdeal.Fr

end
-- ==== Proof.KI.ValR5.lean ====
/-
  Kernel call 5 (bias and leaky rectifier) block by block: the body's value on the operand blocks of a grid point is that point's
  block of the whole-array function R5; and the result window's blocks cover the result array (the point that
  covers row r is r / 5000).
-/
import proofs.«148738_j38654705664133_1_alg».proof.Proof.KI.Spec
import proofs.«148738_j38654705664133_1_alg».proof.Proof.Gen.KernelIdeal.Launch
import proofs.«148738_j38654705664133_1_alg».proof.Proof.Gen.KernelIdeal.Points
import Idealize.ShloMosaic.Lib.Pipeline.Value

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

variable {F : FTy → Type} [FloatOps F]

/-- The printed index maps over the grid: point t takes row block t of the first operand and of the result, and the
    small operands whole. -/
theorem idx_facts5 : ∀ t : Fin cfg5.N, win5_0.index t (0 : Fin 2) = t.val
    ∧ win5_0.index t (1 : Fin 2) = 0
    ∧ win5_1.index t (0 : Fin 1) = 0
    ∧ win5_2.index t (0 : Fin 2) = t.val
    ∧ win5_2.index t (1 : Fin 2) = 0 :=
  (by decide +kernel : ∀ t : Fin grid5.N, _)

/-- The body's value on the operands' blocks at point t is block t of R5 of the operand arrays. -/
theorem blkread5 (A0 : S100000x64.Idx → Elt F .f32) (A1 : S64.Idx → Elt F .f32) (t : Fin cfg5.N) :
    k5_pay1 (((cfg5.win 0).blk t).view.read (Elt F) A0) (((cfg5.win 1).blk t).view.read (Elt F) A1)
      = ((cfg5.win 2).blk t).view.read (Elt F) (R5 A0 A1) := by
  have hN : cfg5.N = 20 := N_5
  obtain ⟨e00, e01, e10, eo0, eo1⟩ := idx_facts5 t
  have ht : t.val < 20 := by have := t.isLt; omega
  have h0 : ((cfg5.win 0).blk t).view.read (Elt F) A0 = rows A0 ⟨t.val, ht⟩ := by
    funext y
    show A0 (((cfg5.win 0).blk t).view.emb y) = A0 _
    congr 1
    funext a; apply Fin.ext
    match a with
    | ⟨0, _⟩ => show win5_0.index t (0 : Fin 2) * 5000 + 1 * (y 0).val = t.val * 5000 + (y 0).val; rw [e00]; omega
    | ⟨1, _⟩ => show win5_0.index t (1 : Fin 2) * 64 + 1 * (y 1).val = (y 1).val; rw [e01]; omega
  have h1 : ((cfg5.win 1).blk t).view.read (Elt F) A1 = A1 := by
    funext y
    show A1 (((cfg5.win 1).blk t).view.emb y) = A1 y
    congr 1
    funext a; apply Fin.ext
    match a with
    | ⟨0, _⟩ => show win5_1.index t (0 : Fin 1) * 64 + 1 * (y 0).val = (y 0).val; rw [e10]; omega
  rw [h0, h1]
  funext j
  show k5_pay1 (rows A0 ⟨t.val, ht⟩) A1 j = R5 A0 A1 (((cfg5.win 2).blk t).view.emb j)
  obtain ⟨hb, hi⟩ := blk_at (n1 := 64) (((cfg5.win 2).blk t).view.emb j) ⟨t.val, ht⟩ j
    (show win5_2.index t (0 : Fin 2) * 5000 + 1 * (j 0).val = t.val * 5000 + (j 0).val by rw [eo0]; omega)
    (show win5_2.index t (1 : Fin 2) * 64 + 1 * (j 1).val = (j 1).val by rw [eo1]; omega)
  unfold R5
  rw [hb, hi]

/-- An index of the result array is in point t's block iff each coordinate is in the block's range on its axis. -/
theorem mem_blk5 (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v112).slice (win5_2.rect t)).set ↔ _
  rw [View.set_slice_whole, Rect.mem_set_unit]
  exact Iff.rfl

/-- Every index of the result array lies in the block of the point its row block names, and that point writes back. -/
theorem covered5 (i : S100000x64.Idx) :
    ∃ t : Fin cfg5.N, (cfg5.win 2).flush t = true ∧ i ∈ ((cfg5.win 2).blk t).view.set := by
  have hN : cfg5.N = 20 := N_5
  have hi0 : (i 0).val < 100000 := (i 0).isLt
  have hi1 : (i 1).val < 64 := (i 1).isLt
  have ht : (i 0).val / 5000 < cfg5.N := by omega
  obtain ⟨e00, e01, e10, eo0, eo1⟩ := idx_facts5 ⟨(i 0).val / 5000, ht⟩
  refine ⟨⟨(i 0).val / 5000, ht⟩, flush5_2 _, ?_⟩
  rw [mem_blk5]
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [eo0]; dsimp only; omega
  | ⟨1, _⟩ =>
    show win5_2.index ⟨(i 0).val / 5000, ht⟩ (1 : Fin 2) * 64 ≤ (i 1).val ∧ (i 1).val < win5_2.index ⟨(i 0).val / 5000, ht⟩ (1 : Fin 2) * 64 + 64
    rw [eo1]; omega

end Cert.KernelIdeal.Fr

end
-- ==== Proof.KI.Final5.lean ====
/-
  Kernel call 5 as a whole: what each grid point writes back is its block of R5 of the operand arrays as the call
  finds them, the blocks cover the result array, so the result array ends holding R5 of the operand arrays.
-/
import proofs.«148738_j38654705664133_1_alg».proof.Proof.KI.Region5
import proofs.«148738_j38654705664133_1_alg».proof.Proof.KI.ValR5

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- What point t writes back is block t of R5 of the operand arrays as the call finds them. -/
theorem flushed5_eq (c : Dev nD) (t : Fin cfg5.N) :
    (dat5 V c).flushed 2 t = ((cfg5.win 2).blk t).view.read (Elt F) (R5 (V c (Pipeline.arrRef spec5 0)) (V c (Pipeline.arrRef spec5 1))) := by
  have hz2 : (![0, 0] : Fin 2 → Nat) = fun _ => 0 := funext fun a => by fin_cases a <;> rfl
  have hz1 : (![0] : Fin 1 → Nat) = fun _ => 0 := funext fun a => by fin_cases a <;> rfl
  show (cfg5.win 2).cut (grid5.coords t) ((dat5 V c).after 2 t) = _
  rw [after5_2]
  unfold out5
  rw [View.canon_unit_zero hz2]
  simp only [View.ld_unit_zero (S := S5000x64) hz2, View.ld_unit_zero (S := S64) hz1]
  funext j
  show k5_pay1 (iblk5 V c 0 t) (iblk5 V c 1 t) j = ((cfg5.win 2).blk t).view.read (Elt F) (R5 (V c (Pipeline.arrRef spec5 0)) (V c (Pipeline.arrRef spec5 1))) j
  unfold iblk5
  exact congrFun (blkread5 (V c (Pipeline.arrRef spec5 0)) (V c (Pipeline.arrRef spec5 1)) t) j

/-- The result array after the call is R5 of the operand arrays as the call finds them. -/
theorem final5 (c : Dev nD) : (dat5 V c).arrAt 2 cfg5.N = R5 (V c (Pipeline.arrRef spec5 0)) (V c (Pipeline.arrRef spec5 1)) :=
  (dat5 V c).arrAt_eq_of_cover 2 _ (fun t _ => flushed5_eq V c t) covered5

end Cert.KernelIdeal.Fr

end
-- ==== Proof.KI.ValR6.lean ====
/-
  Kernel call 6 (a dense layer, 136 features to one score) block by block: the body's value on the operand blocks of a grid point is that point's
  block of the whole-array function R6; and the result window's blocks cover the result array (the point that
  covers row r is r / 5000).
-/
import proofs.«148738_j38654705664133_1_alg».proof.Proof.KI.Spec
import proofs.«148738_j38654705664133_1_alg».proof.Proof.Gen.KernelIdeal.Launch
import proofs.«148738_j38654705664133_1_alg».proof.Proof.Gen.KernelIdeal.Points
import Idealize.ShloMosaic.Lib.Pipeline.Value

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

variable {F : FTy → Type} [FloatOps F]

/-- The printed index maps over the grid: point t takes row block t of the first operand and of the result, and the
    small operands whole. -/
theorem idx_facts6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 1) = 0
    ∧ win6_3.index t (0 : Fin 2) = t.val
    ∧ win6_3.index t (1 : Fin 2) = 0 :=
  (by decide +kernel : ∀ t : Fin grid6.N, _)

/-- The body's value on the operands' blocks at point t is block t of R6 of the operand arrays. -/
theorem blkread6 (A0 : S200000x136.Idx → Elt F .f32) (A1 : S136x1.Idx → Elt F .f32) (A2 : S1.Idx → Elt F .f32) (t : Fin cfg6.N) :
    k6_pay1 (((cfg6.win 0).blk t).view.read (Elt F) A0) (((cfg6.win 1).blk t).view.read (Elt F) A1) (((cfg6.win 2).blk t).view.read (Elt F) A2)
      = ((cfg6.win 3).blk t).view.read (Elt F) (R6 A0 A1 A2) := by
  have hN : cfg6.N = 40 := N_6
  obtain ⟨e00, e01, e10, e11, e20, eo0, eo1⟩ := idx_facts6 t
  have ht : t.val < 40 := by have := t.isLt; omega
  have h0 : ((cfg6.win 0).blk t).view.read (Elt F) A0 = rows' A0 ⟨t.val, ht⟩ := by
    funext y
    show A0 (((cfg6.win 0).blk t).view.emb y) = A0 _
    congr 1
    funext a; apply Fin.ext
    match a with
    | ⟨0, _⟩ => show win6_0.index t (0 : Fin 2) * 5000 + 1 * (y 0).val = t.val * 5000 + (y 0).val; rw [e00]; omega
    | ⟨1, _⟩ => show win6_0.index t (1 : Fin 2) * 136 + 1 * (y 1).val = (y 1).val; rw [e01]; omega
  have h1 : ((cfg6.win 1).blk t).view.read (Elt F) A1 = A1 := by
    funext y
    show A1 (((cfg6.win 1).blk t).view.emb y) = A1 y
    congr 1
    funext a; apply Fin.ext
    match a with
    | ⟨0, _⟩ => show win6_1.index t (0 : Fin 2) * 136 + 1 * (y 0).val = (y 0).val; rw [e10]; omega
    | ⟨1, _⟩ => show win6_1.index t (1 : Fin 2) * 1 + 1 * (y 1).val = (y 1).val; rw [e11]; omega
  have h2 : ((cfg6.win 2).blk t).view.read (Elt F) A2 = A2 := by
    funext y
    show A2 (((cfg6.win 2).blk t).view.emb y) = A2 y
    congr 1
    funext a; apply Fin.ext
    match a with
    | ⟨0, _⟩ => show win6_2.index t (0 : Fin 1) * 1 + 1 * (y 0).val = (y 0).val; rw [e20]; omega
  rw [h0, h1, h2]
  funext j
  show k6_pay1 (rows' A0 ⟨t.val, ht⟩) A1 A2 j = R6 A0 A1 A2 (((cfg6.win 3).blk t).view.emb j)
  obtain ⟨hb, hi⟩ := blk_at' (n1 := 1) (((cfg6.win 3).blk t).view.emb j) ⟨t.val, ht⟩ j
    (show win6_3.index t (0 : Fin 2) * 5000 + 1 * (j 0).val = t.val * 5000 + (j 0).val by rw [eo0]; omega)
    (show win6_3.index t (1 : Fin 2) * 1 + 1 * (j 1).val = (j 1).val by rw [eo1]; omega)
  unfold R6
  rw [hb, hi]

/-- An index of the result array is in point t's block iff each coordinate is in the block's range on its axis. -/
theorem mem_blk6 (t : Fin cfg6.N) (i : S200000x1.Idx) :
    i ∈ ((cfg6.win 3).blk t).view.set ↔ ∀ a : Fin 2, win6_3.index t a * S5000x1.size a ≤ (i a).val ∧ (i a).val < win6_3.index t a * S5000x1.size a + S5000x1.size a := by
  show i ∈ ((View.whole main_v132).slice (win6_3.rect t)).set ↔ _
  rw [View.set_slice_whole, Rect.mem_set_unit]
  exact Iff.rfl

/-- Every index of the result array lies in the block of the point its row block names, and that point writes back. -/
theorem covered6 (i : S200000x1.Idx) :
    ∃ t : Fin cfg6.N, (cfg6.win 3).flush t = true ∧ i ∈ ((cfg6.win 3).blk t).view.set := by
  have hN : cfg6.N = 40 := N_6
  have hi0 : (i 0).val < 200000 := (i 0).isLt
  have hi1 : (i 1).val < 1 := (i 1).isLt
  have ht : (i 0).val / 5000 < cfg6.N := by omega
  obtain ⟨e00, e01, e10, e11, e20, eo0, eo1⟩ := idx_facts6 ⟨(i 0).val / 5000, ht⟩
  refine ⟨⟨(i 0).val / 5000, ht⟩, flush6_3 _, ?_⟩
  rw [mem_blk6]
  intro a
  match a with
  | ⟨0, _⟩ =>
    show win6_3.index ⟨(i 0).val / 5000, ht⟩ (0 : Fin 2) * 5000 ≤ (i 0).val ∧ (i 0).val < win6_3.index ⟨(i 0).val / 5000, ht⟩ (0 : Fin 2) * 5000 + 5000
    rw [eo0]; dsimp only; omega
  | ⟨1, _⟩ =>
    show win6_3.index ⟨(i 0).val / 5000, ht⟩ (1 : Fin 2) * 1 ≤ (i 1).val ∧ (i 1).val < win6_3.index ⟨(i 0).val / 5000, ht⟩ (1 : Fin 2) * 1 + 1
    rw [eo1]; omega

end Cert.KernelIdeal.Fr

end
-- ==== Proof.KI.Final6.lean ====
/-
  Kernel call 6 as a whole: what each grid point writes back is its block of R6 of the operand arrays as the call
  finds them, the blocks cover the result array, so the result array ends holding R6 of the operand arrays.
-/
import proofs.«148738_j38654705664133_1_alg».proof.Proof.KI.Region6
import proofs.«148738_j38654705664133_1_alg».proof.Proof.KI.ValR6

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- What point t writes back is block t of R6 of the operand arrays as the call finds them. -/
theorem flushed6_eq (c : Dev nD) (t : Fin cfg6.N) :
    (dat6 V c).flushed 3 t = ((cfg6.win 3).blk t).view.read (Elt F) (R6 (V c (Pipeline.arrRef spec6 0)) (V c (Pipeline.arrRef spec6 1)) (V c (Pipeline.arrRef spec6 2))) := by
  have hz2 : (![0, 0] : Fin 2 → Nat) = fun _ => 0 := funext fun a => by fin_cases a <;> rfl
  have hz1 : (![0] : Fin 1 → Nat) = fun _ => 0 := funext fun a => by fin_cases a <;> rfl
  show (cfg6.win 3).cut (grid6.coords t) ((dat6 V c).after 3 t) = _
  rw [after6_3]
  unfold out6
  rw [View.canon_unit_zero hz2]
  simp only [View.ld_unit_zero (S := S5000x136) hz2, View.ld_unit_zero (S := S136x1) hz2, View.ld_unit_zero (S := S1) hz1]
  funext j
  show k6_pay1 (iblk6 V c 0 t) (iblk6 V c 1 t) (iblk6 V c 2 t) j = ((cfg6.win 3).blk t).view.read (Elt F) (R6 (V c (Pipeline.arrRef spec6 0)) (V c (Pipeline.arrRef spec6 1)) (V c (Pipeline.arrRef spec6 2))) j
  unfold iblk6
  exact congrFun (blkread6 (V c (Pipeline.arrRef spec6 0)) (V c (Pipeline.arrRef spec6 1)) (V c (Pipeline.arrRef spec6 2)) t) j

/-- The result array after the call is R6 of the operand arrays as the call finds them. -/
theorem final6 (c : Dev nD) : (dat6 V c).arrAt 3 cfg6.N = R6 (V c (Pipeline.arrRef spec6 0)) (V c (Pipeline.arrRef spec6 1)) (V c (Pipeline.arrRef spec6 2)) :=
  (dat6 V c).arrAt_eq_of_cover 3 _ (fun t _ => flushed6_eq V c t) covered6

end Cert.KernelIdeal.Fr

end
-- ==== Proof.KI.ValHost0.lean ====
/-
  The three short host stretches, read at the buffers the next kernel call or the result takes, from any buffer
  contents: the first splits the edge list into its sources and its targets; the one before kernel call 2 writes
  the zero bias row and leaves the features alone; the last flattens the column of scores.
-/
import proofs.«148738_j38654705664133_1_alg».proof.Proof.KI.Spec
import proofs.«148738_j38654705664133_1_alg».proof.Proof.Gen.KernelIdeal.Launch

noncomputable section

namespace Cert.KernelIdeal.Fr

open Cert.KernelIdeal Cert.KernelIdeal.Gen
open Idealize.ShloMosaic Idealize.ShloMosaic.TcCoe Idealize.ShloMosaic.StableHlo

variable {F : FTy → Type} [FloatOps F]
variable (X : Valuation τ sig (Elt F))

/-- After the first stretch the edge sources are the first row of the edge list, -/
theorem src_read : StableHlo.after main_part0_ops0 X (Proc.devRef .tc main_v1) = edgeSrc (F := F) (X (Proc.devRef .tc main_arg1)) := by
  after_results
  rfl
/-- and the edge targets its second row. -/
theorem dst_read : StableHlo.after main_part0_ops0 X (Proc.devRef .tc main_v3) = edgeDst (F := F) (X (Proc.devRef .tc main_arg1)) := by
  after_results
  rfl

/-- The stretch before kernel call 2 writes the zero bias row, -/
theorem zeros_read : StableHlo.after main_part0_ops1 X (Proc.devRef .tc main_v6) = zeros64 (F := F) := by
  after_results
  rfl
/-- and leaves the features, the edge sources and the edge targets as it found them. -/
theorem zeros_keep_v5 : StableHlo.after main_part0_ops1 X (Proc.devRef .tc main_v5) = X (Proc.devRef .tc main_v5) := by
  after_results
theorem zeros_keep_v1 : StableHlo.after main_part0_ops1 X (Proc.devRef .tc main_v1) = X (Proc.devRef .tc main_v1) := by
  after_results
theorem zeros_keep_v3 : StableHlo.after main_part0_ops1 X (Proc.devRef .tc main_v3) = X (Proc.devRef .tc main_v3) := by
  after_results

/-- The last stretch flattens the column of scores, -/
theorem flat_read : StableHlo.after main_part2_ops2 X (Proc.devRef .tc main_v133) = flat (F := F) (X (Proc.devRef .tc main_v132)) := by
  after_results
  rfl
/-- and leaves the node embeddings as it found them. -/
theorem flat_keep_v112 : StableHlo.after main_part2_ops2 X (Proc.devRef .tc main_v112) = X (Proc.devRef .tc main_v112) := by
  after_results

end Cert.KernelIdeal.Fr

end
-- ==== Proof.KI.ValAggA.lean ====
/-
  The first aggregation as the host computes it: the two host stretches between kernel calls 2 and 3, run one after
  the other from any buffer contents, leave in the buffer kernel call 3 reads the aggregation (agg) of the feature
  array, the edge sources and the edge targets they found; and they leave those three, and the zero bias row, alone.
-/
import proofs.«148738_j38654705664133_1_alg».proof.Proof.KI.Spec
import proofs.«148738_j38654705664133_1_alg».proof.Proof.Gen.KernelIdeal.Launch

noncomputable section

namespace Cert.KernelIdeal.Fr

open Cert.KernelIdeal Cert.KernelIdeal.Gen
open Idealize.ShloMosaic Idealize.ShloMosaic.TcCoe Idealize.ShloMosaic.StableHlo

variable {F : FTy → Type} [FloatOps F]
variable (X : Valuation τ sig (Elt F))

set_option maxHeartbeats 4000000 in
/-- The buffer kernel call 3 reads holds the aggregation of what the stretches found. -/
theorem aggA_read : StableHlo.after main_part1_ops0 (StableHlo.after main_part0_ops2 X) (Proc.devRef .tc main_v58)
    = agg (F := F) (X (Proc.devRef .tc main_v7)) (X (Proc.devRef .tc main_v1)) (X (Proc.devRef .tc main_v3)) := by
  after_results_simp
  rfl

set_option maxHeartbeats 4000000 in
/-- The stretches leave the edge sources, the edge targets and the zero bias row as they found them. -/
theorem aggA_keep_v1 : StableHlo.after main_part1_ops0 (StableHlo.after main_part0_ops2 X) (Proc.devRef .tc main_v1) = X (Proc.devRef .tc main_v1) := by
  after_results_simp
set_option maxHeartbeats 4000000 in
theorem aggA_keep_v3 : StableHlo.after main_part1_ops0 (StableHlo.after main_part0_ops2 X) (Proc.devRef .tc main_v3) = X (Proc.devRef .tc main_v3) := by
  after_results_simp
set_option maxHeartbeats 4000000 in
theorem aggA_keep_v6 : StableHlo.after main_part1_ops0 (StableHlo.after main_part0_ops2 X) (Proc.devRef .tc main_v6) = X (Proc.devRef .tc main_v6) := by
  after_results_simp

end Cert.KernelIdeal.Fr

end
-- ==== Proof.KI.ValAggB.lean ====
/-
  The second aggregation as the host computes it: the two host stretches between kernel calls 4 and 5, run one after
  the other from any buffer contents, leave in the buffer kernel call 5 reads the aggregation (agg) of the feature
  array, the edge sources and the edge targets they found.
-/
import proofs.«148738_j38654705664133_1_alg».proof.Proof.KI.Spec
import proofs.«148738_j38654705664133_1_alg».proof.Proof.Gen.KernelIdeal.Launch

noncomputable section

namespace Cert.KernelIdeal.Fr

open Cert.KernelIdeal Cert.KernelIdeal.Gen
open Idealize.ShloMosaic Idealize.ShloMosaic.TcCoe Idealize.ShloMosaic.StableHlo

variable {F : FTy → Type} [FloatOps F]
variable (X : Valuation τ sig (Elt F))

set_option maxHeartbeats 4000000 in
/-- The buffer kernel call 5 reads holds the aggregation of what the stretches found. -/
theorem aggB_read : StableHlo.after main_part2_ops0 (StableHlo.after main_part1_ops1 X) (Proc.devRef .tc main_v111)
    = agg (F := F) (X (Proc.devRef .tc main_v60)) (X (Proc.devRef .tc main_v1)) (X (Proc.devRef .tc main_v3)) := by
  after_results_simp
  rfl

end Cert.KernelIdeal.Fr

end
-- ==== Proof.KI.ValPair.lean ====
/-
  The host stretch before the last kernel call, from any buffer contents: it leaves in the buffer that call reads
  the pair features (pairFeat) of the node embeddings, the pair list and the pairs' own features it found, and it
  leaves the node embeddings alone.
-/
import proofs.«148738_j38654705664133_1_alg».proof.Proof.KI.Spec
import proofs.«148738_j38654705664133_1_alg».proof.Proof.Gen.KernelIdeal.Launch

noncomputable section

namespace Cert.KernelIdeal.Fr

open Cert.KernelIdeal Cert.KernelIdeal.Gen
open Idealize.ShloMosaic Idealize.ShloMosaic.TcCoe Idealize.ShloMosaic.StableHlo

variable {F : FTy → Type} [FloatOps F]
variable (X : Valuation τ sig (Elt F))

/-- A joining of three literal references' contents, with each operand's contents at its own reference. -/
theorem nary3_result {x a b y : Ref sig .tc}
    (f : ((k : Fin 3) → ((![x, a, b] : Fin 3 → Ref sig .tc) k).ty.Contents (Elt F)) → y.ty.Contents (Elt F)) (hxs hy)
    (G : Valuation τ sig (Elt F)) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

set_option maxHeartbeats 4000000 in
/-- The buffer the last kernel call reads holds the pair features of what the stretch found. -/
theorem pair_read : StableHlo.after main_part2_ops1 X (Proc.devRef .tc main_v131)
    = pairFeat (F := F) (X (Proc.devRef .tc main_v112)) (X (Proc.devRef .tc main_arg2)) (X (Proc.devRef .tc main_arg3)) := by
  simp only [after_cons, after_nil]
  rw [nary3_result]
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)
    | (rw [nary_result_ne]; rotate_left; decide))
  rfl

set_option maxHeartbeats 4000000 in
/-- The stretch leaves the node embeddings as it found them. -/
theorem pair_keep_v112 : StableHlo.after main_part2_ops1 X (Proc.devRef .tc main_v112) = X (Proc.devRef .tc main_v112) := by
  after_results_simp

end Cert.KernelIdeal.Fr

end
-- ==== Proof.KI.ValKOut.lean ====
/-
  The two results of the program as functions of its fourteen arguments. Boundary by boundary: an argument's buffer
  holds the argument at every boundary; the edge sources, the edge targets and the zero bias row, once written, stay
  as written (no later kernel call has them as a window, no later host operation writes them); each kernel call's
  result array is its function R of its operand arrays; each host stretch leaves its composite of what it found. The
  node embeddings come out of kernel call 5 and the pair scores out of the last stretch.
-/
import proofs.«148738_j38654705664133_1_alg».proof.Proof.KI.Bounds
import proofs.«148738_j38654705664133_1_alg».proof.Proof.KI.Args
import proofs.«148738_j38654705664133_1_alg».proof.Proof.KI.Final0
import proofs.«148738_j38654705664133_1_alg».proof.Proof.KI.Final1
import proofs.«148738_j38654705664133_1_alg».proof.Proof.KI.Final2
import proofs.«148738_j38654705664133_1_alg».proof.Proof.KI.Final3
import proofs.«148738_j38654705664133_1_alg».proof.Proof.KI.Final4
import proofs.«148738_j38654705664133_1_alg».proof.Proof.KI.Final5
import proofs.«148738_j38654705664133_1_alg».proof.Proof.KI.Final6
import proofs.«148738_j38654705664133_1_alg».proof.Proof.KI.ValHost0
import proofs.«148738_j38654705664133_1_alg».proof.Proof.KI.ValAggA
import proofs.«148738_j38654705664133_1_alg».proof.Proof.KI.ValAggB
import proofs.«148738_j38654705664133_1_alg».proof.Proof.KI.ValPair

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## An argument's buffer holds the argument at every boundary -/

theorem argAt1 (c : Dev nD) (r : Ref sig .tc) (hr : r.idx.val < 14) : W1 m ρ c (Proc.devRef .tc r) = W0 m ρ c (Proc.devRef .tc r) :=
  after_keeps (P := fun y => 14 ≤ y.idx.val) main_part0_ops0 (W0 m ρ c) main_part0_ops0_writes (Nat.not_le.mpr hr)
theorem argAt2 (c : Dev nD) (r : Ref sig .tc) (hr : r.idx.val < 14) : W2 m ρ c (Proc.devRef .tc r) = W0 m ρ c (Proc.devRef .tc r) :=
  (W2_arg m ρ c r hr).trans (argAt1 m ρ c r hr)
theorem argAt3 (c : Dev nD) (r : Ref sig .tc) (hr : r.idx.val < 14) : W3 m ρ c (Proc.devRef .tc r) = W0 m ρ c (Proc.devRef .tc r) :=
  (W3_arg m ρ c r hr).trans (argAt2 m ρ c r hr)
theorem argAt4 (c : Dev nD) (r : Ref sig .tc) (hr : r.idx.val < 14) : W4 m ρ c (Proc.devRef .tc r) = W0 m ρ c (Proc.devRef .tc r) :=
  (after_keeps (P := fun y => 14 ≤ y.idx.val) main_part0_ops1 (W3 m ρ c) main_part0_ops1_writes (Nat.not_le.mpr hr)).trans (argAt3 m ρ c r hr)
theorem argAt5 (c : Dev nD) (r : Ref sig .tc) (hr : r.idx.val < 14) : W5 m ρ c (Proc.devRef .tc r) = W0 m ρ c (Proc.devRef .tc r) :=
  (W5_arg m ρ c r hr).trans (argAt4 m ρ c r hr)
theorem argAt6 (c : Dev nD) (r : Ref sig .tc) (hr : r.idx.val < 14) : W6 m ρ c (Proc.devRef .tc r) = W0 m ρ c (Proc.devRef .tc r) :=
  (after_keeps (P := fun y => 14 ≤ y.idx.val) main_part0_ops2 (W5 m ρ c) main_part0_ops2_writes (Nat.not_le.mpr hr)).trans (argAt5 m ρ c r hr)
theorem argAt7 (c : Dev nD) (r : Ref sig .tc) (hr : r.idx.val < 14) : W7 m ρ c (Proc.devRef .tc r) = W0 m ρ c (Proc.devRef .tc r) :=
  (after_keeps (P := fun y => 14 ≤ y.idx.val) main_part1_ops0 (W6 m ρ c) main_part1_ops0_writes (Nat.not_le.mpr hr)).trans (argAt6 m ρ c r hr)
theorem argAt8 (c : Dev nD) (r : Ref sig .tc) (hr : r.idx.val < 14) : W8 m ρ c (Proc.devRef .tc r) = W0 m ρ c (Proc.devRef .tc r) :=
  (W8_arg m ρ c r hr).trans (argAt7 m ρ c r hr)
theorem argAt9 (c : Dev nD) (r : Ref sig .tc) (hr : r.idx.val < 14) : W9 m ρ c (Proc.devRef .tc r) = W0 m ρ c (Proc.devRef .tc r) :=
  (W9_arg m ρ c r hr).trans (argAt8 m ρ c r hr)
theorem argAt10 (c : Dev nD) (r : Ref sig .tc) (hr : r.idx.val < 14) : W10 m ρ c (Proc.devRef .tc r) = W0 m ρ c (Proc.devRef .tc r) :=
  (after_keeps (P := fun y => 14 ≤ y.idx.val) main_part1_ops1 (W9 m ρ c) main_part1_ops1_writes (Nat.not_le.mpr hr)).trans (argAt9 m ρ c r hr)
theorem argAt11 (c : Dev nD) (r : Ref sig .tc) (hr : r.idx.val < 14) : W11 m ρ c (Proc.devRef .tc r) = W0 m ρ c (Proc.devRef .tc r) :=
  (after_keeps (P := fun y => 14 ≤ y.idx.val) main_part2_ops0 (W10 m ρ c) main_part2_ops0_writes (Nat.not_le.mpr hr)).trans (argAt10 m ρ c r hr)
theorem argAt12 (c : Dev nD) (r : Ref sig .tc) (hr : r.idx.val < 14) : W12 m ρ c (Proc.devRef .tc r) = W0 m ρ c (Proc.devRef .tc r) :=
  (W12_arg m ρ c r hr).trans (argAt11 m ρ c r hr)
theorem argAt13 (c : Dev nD) (r : Ref sig .tc) (hr : r.idx.val < 14) : W13 m ρ c (Proc.devRef .tc r) = W0 m ρ c (Proc.devRef .tc r) :=
  (after_keeps (P := fun y => 14 ≤ y.idx.val) main_part2_ops1 (W12 m ρ c) main_part2_ops1_writes (Nat.not_le.mpr hr)).trans (argAt12 m ρ c r hr)

/-! ## The edge sources, the edge targets and the zero bias row -/

/-- After the first stretch the edge sources and targets are the two rows of the edge list. -/
theorem src1 (c : Dev nD) : W1 m ρ c (Proc.devRef .tc main_v1) = edgeSrc (F := F) (m ((c : Thread nD τ).loc main_arg1)) := src_read (W0 m ρ c)
theorem dst1 (c : Dev nD) : W1 m ρ c (Proc.devRef .tc main_v3) = edgeDst (F := F) (m ((c : Thread nD τ).loc main_arg1)) := dst_read (W0 m ρ c)

/-- They are still that when the first aggregation starts, -/
theorem src5 (c : Dev nD) : W5 m ρ c (Proc.devRef .tc main_v1) = edgeSrc (F := F) (m ((c : Thread nD τ).loc main_arg1)) :=
  (W5_of_ne m ρ c main_v1 (by decide)).trans ((zeros_keep_v1 (W3 m ρ c)).trans ((W3_of_ne m ρ c main_v1 (by decide)).trans
    ((W2_of_ne m ρ c main_v1 (by decide)).trans (src1 m ρ c))))
theorem dst5 (c : Dev nD) : W5 m ρ c (Proc.devRef .tc main_v3) = edgeDst (F := F) (m ((c : Thread nD τ).loc main_arg1)) :=
  (W5_of_ne m ρ c main_v3 (by decide)).trans ((zeros_keep_v3 (W3 m ρ c)).trans ((W3_of_ne m ρ c main_v3 (by decide)).trans
    ((W2_of_ne m ρ c main_v3 (by decide)).trans (dst1 m ρ c))))
/-- and when the second starts. -/
theorem src9 (c : Dev nD) : W9 m ρ c (Proc.devRef .tc main_v1) = edgeSrc (F := F) (m ((c : Thread nD τ).loc main_arg1)) :=
  (W9_of_ne m ρ c main_v1 (by decide)).trans ((W8_of_ne m ρ c main_v1 (by decide)).trans ((aggA_keep_v1 (W5 m ρ c)).trans (src5 m ρ c)))
theorem dst9 (c : Dev nD) : W9 m ρ c (Proc.devRef .tc main_v3) = edgeDst (F := F) (m ((c : Thread nD τ).loc main_arg1)) :=
  (W9_of_ne m ρ c main_v3 (by decide)).trans ((W8_of_ne m ρ c main_v3 (by decide)).trans ((aggA_keep_v3 (W5 m ρ c)).trans (dst5 m ρ c)))

/-- The zero bias row when kernel call 2 starts, after it (the call only reads it), and still when kernel call 4 starts. -/
theorem zeros4 (c : Dev nD) : W4 m ρ c (Proc.devRef .tc main_v6) = zeros64 (F := F) := zeros_read (W3 m ρ c)
theorem zeros5 (c : Dev nD) : W5 m ρ c (Proc.devRef .tc main_v6) = zeros64 (F := F) :=
  (W5_arr m ρ c 2).trans (((dat2 (V4 m ρ) c).arrAt_in 2 (by decide) _).trans ((A_eq2 (V4 m ρ) c 2).trans (zeros4 m ρ c)))
theorem zeros8 (c : Dev nD) : W8 m ρ c (Proc.devRef .tc main_v6) = zeros64 (F := F) :=
  (W8_of_ne m ρ c main_v6 (by decide)).trans ((aggA_keep_v6 (W5 m ρ c)).trans (zeros5 m ρ c))

/-! ## The values, boundary by boundary -/

theorem val_v4 (c : Dev nD) :
    W2 m ρ c (Proc.devRef .tc main_v4) = R0 (m ((c : Thread nD τ).loc main_arg0)) (m ((c : Thread nD τ).loc main_arg4)) (m ((c : Thread nD τ).loc main_arg5)) := by
  have h0 : V1 m ρ c (Pipeline.arrRef spec0 0) = (m ((c : Thread nD τ).loc main_arg0)) := (argAt1 m ρ c main_arg0 (by decide)).trans rfl
  have h1 : V1 m ρ c (Pipeline.arrRef spec0 1) = (m ((c : Thread nD τ).loc main_arg4)) := (argAt1 m ρ c main_arg4 (by decide)).trans rfl
  have h2 : V1 m ρ c (Pipeline.arrRef spec0 2) = (m ((c : Thread nD τ).loc main_arg5)) := (argAt1 m ρ c main_arg5 (by decide)).trans rfl
  have hf := final0 (V1 m ρ) c
  rw [h0, h1, h2] at hf
  exact (W2_arr m ρ c 3).trans hf

theorem val_v5 (c : Dev nD) (x : Vec F S100000x128 .f32) (hx : W2 m ρ c (Proc.devRef .tc main_v4) = x) :
    W3 m ρ c (Proc.devRef .tc main_v5) = R1 x (m ((c : Thread nD τ).loc main_arg6)) (m ((c : Thread nD τ).loc main_arg7)) := by
  have h0 : V2 m ρ c (Pipeline.arrRef spec1 0) = x := hx
  have h1 : V2 m ρ c (Pipeline.arrRef spec1 1) = (m ((c : Thread nD τ).loc main_arg6)) := (argAt2 m ρ c main_arg6 (by decide)).trans rfl
  have h2 : V2 m ρ c (Pipeline.arrRef spec1 2) = (m ((c : Thread nD τ).loc main_arg7)) := (argAt2 m ρ c main_arg7 (by decide)).trans rfl
  have hf := final1 (V2 m ρ) c
  rw [h0, h1, h2] at hf
  exact (W3_arr m ρ c 3).trans hf

theorem val_v7 (c : Dev nD) (x : Vec F S100000x64 .f32) (hx : W3 m ρ c (Proc.devRef .tc main_v5) = x) :
    W5 m ρ c (Proc.devRef .tc main_v7) = R2 x (m ((c : Thread nD τ).loc main_arg8)) (zeros64 (F := F)) := by
  have h0 : V4 m ρ c (Pipeline.arrRef spec2 0) = x := (zeros_keep_v5 (W3 m ρ c)).trans hx
  have h1 : V4 m ρ c (Pipeline.arrRef spec2 1) = (m ((c : Thread nD τ).loc main_arg8)) := (argAt4 m ρ c main_arg8 (by decide)).trans rfl
  have h2 : V4 m ρ c (Pipeline.arrRef spec2 2) = (zeros64 (F := F)) := zeros4 m ρ c
  have hf := final2 (V4 m ρ) c
  rw [h0, h1, h2] at hf
  exact (W5_arr m ρ c 3).trans hf

theorem val_v58 (c : Dev nD) (x : Vec F S100000x64 .f32) (hx : W5 m ρ c (Proc.devRef .tc main_v7) = x) :
    W7 m ρ c (Proc.devRef .tc main_v58) = agg (F := F) x (edgeSrc (F := F) (m ((c : Thread nD τ).loc main_arg1))) (edgeDst (F := F) (m ((c : Thread nD τ).loc main_arg1))) := by
  have hf := aggA_read (W5 m ρ c)
  rw [hx, src5 m ρ c, dst5 m ρ c] at hf
  exact hf

theorem val_v59 (c : Dev nD) (x : Vec F S100000x64 .f32) (hx : W7 m ρ c (Proc.devRef .tc main_v58) = x) :
    W8 m ρ c (Proc.devRef .tc main_v59) = R3 x (m ((c : Thread nD τ).loc main_arg9)) := by
  have h0 : V7 m ρ c (Pipeline.arrRef spec3 0) = x := hx
  have h1 : V7 m ρ c (Pipeline.arrRef spec3 1) = (m ((c : Thread nD τ).loc main_arg9)) := (argAt7 m ρ c main_arg9 (by decide)).trans rfl
  have hf := final3 (V7 m ρ) c
  rw [h0, h1] at hf
  exact (W8_arr m ρ c 2).trans hf

theorem val_v60 (c : Dev nD) (x : Vec F S100000x64 .f32) (hx : W8 m ρ c (Proc.devRef .tc main_v59) = x) :
    W9 m ρ c (Proc.devRef .tc main_v60) = R4 x (m ((c : Thread nD τ).loc main_arg10)) (zeros64 (F := F)) := by
  have h0 : V8 m ρ c (Pipeline.arrRef spec4 0) = x := hx
  have h1 : V8 m ρ c (Pipeline.arrRef spec4 1) = (m ((c : Thread nD τ).loc main_arg10)) := (argAt8 m ρ c main_arg10 (by decide)).trans rfl
  have h2 : V8 m ρ c (Pipeline.arrRef spec4 2) = (zeros64 (F := F)) := zeros8 m ρ c
  have hf := final4 (V8 m ρ) c
  rw [h0, h1, h2] at hf
  exact (W9_arr m ρ c 3).trans hf

theorem val_v111 (c : Dev nD) (x : Vec F S100000x64 .f32) (hx : W9 m ρ c (Proc.devRef .tc main_v60) = x) :
    W11 m ρ c (Proc.devRef .tc main_v111) = agg (F := F) x (edgeSrc (F := F) (m ((c : Thread nD τ).loc main_arg1))) (edgeDst (F := F) (m ((c : Thread nD τ).loc main_arg1))) := by
  have hf := aggB_read (W9 m ρ c)
  rw [hx, src9 m ρ c, dst9 m ρ c] at hf
  exact hf

theorem val_v112 (c : Dev nD) (x : Vec F S100000x64 .f32) (hx : W11 m ρ c (Proc.devRef .tc main_v111) = x) :
    W12 m ρ c (Proc.devRef .tc main_v112) = R5 x (m ((c : Thread nD τ).loc main_arg11)) := by
  have h0 : V11 m ρ c (Pipeline.arrRef spec5 0) = x := hx
  have h1 : V11 m ρ c (Pipeline.arrRef spec5 1) = (m ((c : Thread nD τ).loc main_arg11)) := (argAt11 m ρ c main_arg11 (by decide)).trans rfl
  have hf := final5 (V11 m ρ) c
  rw [h0, h1] at hf
  exact (W12_arr m ρ c 2).trans hf

theorem val_v131 (c : Dev nD) (x : Vec F S100000x64 .f32) (hx : W12 m ρ c (Proc.devRef .tc main_v112) = x) :
    W13 m ρ c (Proc.devRef .tc main_v131) = pairFeat (F := F) x (m ((c : Thread nD τ).loc main_arg2)) (m ((c : Thread nD τ).loc main_arg3)) := by
  have hf := pair_read (W12 m ρ c)
  rw [hx, (argAt12 m ρ c main_arg2 (by decide)).trans rfl, (argAt12 m ρ c main_arg3 (by decide)).trans rfl] at hf
  exact hf

theorem val_v132 (c : Dev nD) (x : Vec F S200000x136 .f32) (hx : W13 m ρ c (Proc.devRef .tc main_v131) = x) :
    W14 m ρ c (Proc.devRef .tc main_v132) = R6 x (m ((c : Thread nD τ).loc main_arg12)) (m ((c : Thread nD τ).loc main_arg13)) := by
  have h0 : V13 m ρ c (Pipeline.arrRef spec6 0) = x := hx
  have h1 : V13 m ρ c (Pipeline.arrRef spec6 1) = (m ((c : Thread nD τ).loc main_arg12)) := (argAt13 m ρ c main_arg12 (by decide)).trans rfl
  have h2 : V13 m ρ c (Pipeline.arrRef spec6 2) = (m ((c : Thread nD τ).loc main_arg13)) := (argAt13 m ρ c main_arg13 (by decide)).trans rfl
  have hf := final6 (V13 m ρ) c
  rw [h0, h1, h2] at hf
  exact (W14_arr m ρ c 3).trans hf

/-! ## The two results -/

/-- The node embeddings when kernel call 5 has run. -/
theorem val_embed (c : Dev nD) : W12 m ρ c (Proc.devRef .tc main_v112) = KOut1 (F := F) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold KOut1
  exact val_v112 m ρ c _ (val_v111 m ρ c _ (val_v60 m ρ c _ (val_v59 m ρ c _ (val_v58 m ρ c _ (val_v7 m ρ c _ (val_v5 m ρ c _ (val_v4 m ρ c)))))))

/-- The second result: the node embeddings, which nothing after kernel call 5 writes. -/
theorem W15_res1 (c : Dev nD) : W15 m ρ c (Proc.devRef .tc main_v112) = KOut1 (F := F) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (flat_keep_v112 (W14 m ρ c)).trans ((W14_of_ne m ρ c main_v112 (by decide)).trans ((pair_keep_v112 (W12 m ρ c)).trans (val_embed m ρ c)))

/-- The first result: the pair scores. -/
theorem W15_res0 (c : Dev nD) : W15 m ρ c (Proc.devRef .tc main_v133) = KOut0 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  unfold KOut0
  exact (flat_read (W14 m ρ c)).trans (congrArg (flat (F := F)) (val_v132 m ρ c _ (val_v131 m ρ c _ (val_embed m ρ c))))

end Cert.KernelIdeal.Fr

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibLeaky.lean ====
/-
  The leaky rectifier on the extended reals.

  With slope word c (here the 32-bit word 0x3C23D70A, the float nearest to 1/100) the rectifier keeps a value that
  is greater than zero and multiplies any other value by c.  The comparison, the zero and the slope are the ideal
  instance's: an ordered "greater than" on extended reals and the exact values of the two words, which are never
  evaluated because both programs spell the same words.
-/
import Idealize.ShloMosaic.PureOps.Ideal
import Idealize.ShloMosaic.Lib.ValueIdx

noncomputable section

namespace Cert.Bridge

open Idealize.ShloMosaic

/-- y ↦ y if y > 0, else c · y, with c the value of the word 0x3C23D70A. -/
def leaky (y : EReal) : EReal :=
  Scalar.select (FloatOps.cmpf (F := Ideal) (φ := .f32) .ogt y (Ideal.ofBits .f32 0x00000000#32)) y
    (Ideal.ofBits .f32 0x3C23D70A#32 * y)

end Cert.Bridge

end
-- ==== Proof.RefPay.lean ====
/-
  Each kernel body's stored value, read at one entry of its 5000-row block.

  A dense body multiplies its block of rows by the whole weight matrix into a zero accumulator, adds the bias row and
  (for the two layers of the perceptron) applies the leaky rectifier; the conversions to the 16-bit format before the
  product are the identity on extended reals, and the product into zero is the inner product of a row with a column.
  So the entry (p, f) of the stored block is
      act (Σ_d x (p, d) · w (d, f) + b f)
  with act the rectifier or the identity.  A bias-and-rectifier body stores leaky (x (p, f) + b f).
-/
import proofs.«148738_j38654705664133_1_alg».proof.Proof.Gen.KernelIdeal.Skeleton
import proofs.«148738_j38654705664133_1_alg».proof.Proof.LibInnerProducts
import proofs.«148738_j38654705664133_1_alg».proof.Proof.LibLeaky
import Idealize.ShloMosaic.Lib.ValueLayout
import Idealize.ShloMosaic.Lib.Pipeline.Value

noncomputable section

namespace Cert.Bridge

open Idealize.ShloMosaic Idealize.ShloMosaic.ValueIdx Idealize.ShloMosaic.InnerProducts Cert.KernelIdeal Cert.KernelIdeal.Gen
open scoped BigOperators

/-- Entry (p, f) of the block stored by dense body 0: the rectifier of the inner product of row p with column f, plus the bias at f. -/
theorem k0_pay1_apply (x : Vec Ideal S5000x256 .f32) (w : Vec Ideal S256x128 .f32) (b : Vec Ideal S128 .f32)
    (p : Fin 5000) (f : Fin 128) :
    k0_pay1 x w b (ix2 p f) = leaky ((∑ d : Fin 256, x (ix2 p d) * w (ix2 d f)) + b (ix1 f)) := by
  unfold k0_pay1
  simp only [select_apply, cmpf_apply, mulf_apply, addf_apply, broadcast_apply]
  rw [matmul_zero_apply dot_S5000x256_S256x128_S5000x128_1_0_0_1_n_n rfl none (truncf .bf16 x bitsLt_bf16_f32)
    (truncf .bf16 w bitsLt_bf16_f32) p f, broadcastTo_1b_ab_apply, shapeCast_a_1a_apply]
  simp only [truncf_apply]
  rfl

/-- Entry (p, f) of the block stored by dense body 1: the rectifier of the inner product of row p with column f, plus the bias at f. -/
theorem k1_pay1_apply (x : Vec Ideal S5000x128 .f32) (w : Vec Ideal S128x64 .f32) (b : Vec Ideal S64 .f32)
    (p : Fin 5000) (f : Fin 64) :
    k1_pay1 x w b (ix2 p f) = leaky ((∑ d : Fin 128, x (ix2 p d) * w (ix2 d f)) + b (ix1 f)) := by
  unfold k1_pay1
  simp only [select_apply, cmpf_apply, mulf_apply, addf_apply, broadcast_apply]
  rw [shapeCast_self x]
  rw [matmul_zero_apply dot_S5000x128_S128x64_S5000x64_1_0_0_1_n_n rfl none (truncf .bf16 x bitsLt_bf16_f32)
    (truncf .bf16 w bitsLt_bf16_f32) p f, broadcastTo_1b_ab_apply, shapeCast_a_1a_apply]
  simp only [truncf_apply]
  rfl

/-- Entry (p, f) of the block stored by dense body 2: the inner product of row p with column f, plus the bias at f. -/
theorem k2_pay1_apply (x : Vec Ideal S5000x64 .f32) (w : Vec Ideal S64x64 .f32) (b : Vec Ideal S64 .f32)
    (p : Fin 5000) (f : Fin 64) :
    k2_pay1 x w b (ix2 p f) = (∑ d : Fin 64, x (ix2 p d) * w (ix2 d f)) + b (ix1 f) := by
  unfold k2_pay1
  simp only [addf_apply]
  rw [shapeCast_self x, shapeCast_self b]
  rw [matmul_zero_apply dot_S5000x64_S64x64_S5000x64_1_0_0_1_n_n rfl none (truncf .bf16 x bitsLt_bf16_f32)
    (truncf .bf16 w bitsLt_bf16_f32) p f, broadcastTo_1b_ab_apply, shapeCast_a_1a_apply]
  simp only [truncf_apply]

/-- Entry (p, f) of the block stored by bias-and-rectifier body 3. -/
theorem k3_pay1_apply (x : Vec Ideal S5000x64 .f32) (b : Vec Ideal S64 .f32) (p : Fin 5000) (f : Fin 64) :
    k3_pay1 x b (ix2 p f) = leaky (x (ix2 p f) + b (ix1 f)) := by
  unfold k3_pay1
  simp only [select_apply, cmpf_apply, mulf_apply, addf_apply, broadcast_apply]
  rw [shapeCast_self x, broadcastTo_1b_ab_apply, shapeCast_a_1a_apply]
  rfl

/-- Entry (p, f) of the block stored by dense body 4: the inner product of row p with column f, plus the bias at f. -/
theorem k4_pay1_apply (x : Vec Ideal S5000x64 .f32) (w : Vec Ideal S64x64 .f32) (b : Vec Ideal S64 .f32)
    (p : Fin 5000) (f : Fin 64) :
    k4_pay1 x w b (ix2 p f) = (∑ d : Fin 64, x (ix2 p d) * w (ix2 d f)) + b (ix1 f) := by
  unfold k4_pay1
  simp only [addf_apply]
  rw [shapeCast_self x, shapeCast_self b]
  rw [matmul_zero_apply dot_S5000x64_S64x64_S5000x64_1_0_0_1_n_n rfl none (truncf .bf16 x bitsLt_bf16_f32)
    (truncf .bf16 w bitsLt_bf16_f32) p f, broadcastTo_1b_ab_apply, shapeCast_a_1a_apply]
  simp only [truncf_apply]

/-- Entry (p, f) of the block stored by bias-and-rectifier body 5. -/
theorem k5_pay1_apply (x : Vec Ideal S5000x64 .f32) (b : Vec Ideal S64 .f32) (p : Fin 5000) (f : Fin 64) :
    k5_pay1 x b (ix2 p f) = leaky (x (ix2 p f) + b (ix1 f)) := by
  unfold k5_pay1
  simp only [select_apply, cmpf_apply, mulf_apply, addf_apply, broadcast_apply]
  rw [shapeCast_self x, broadcastTo_1b_ab_apply, shapeCast_a_1a_apply]
  rfl

/-- Entry (p, f) of the block stored by dense body 6: the inner product of row p with column f, plus the bias at f. -/
theorem k6_pay1_apply (x : Vec Ideal S5000x136 .f32) (w : Vec Ideal S136x1 .f32) (b : Vec Ideal S1 .f32)
    (p : Fin 5000) (f : Fin 1) :
    k6_pay1 x w b (ix2 p f) = (∑ d : Fin 136, x (ix2 p d) * w (ix2 d f)) + b (ix1 f) := by
  unfold k6_pay1
  simp only [addf_apply]
  rw [shapeCast_self x]
  rw [matmul_zero_apply dot_S5000x136_S136x1_S5000x1_1_0_0_1_n_n rfl none (truncf .bf16 x bitsLt_bf16_f32)
    (truncf .bf16 w bitsLt_bf16_f32) p f, broadcastTo_1b_ab_apply, shapeCast_a_1a_apply]
  simp only [truncf_apply]

end Cert.Bridge

end
-- ==== Proof.RefRegions.lean ====
/-
  Each kernel call's result array, read at an entry.

  A call's result at row r is the body's value on the block of 5000 rows that contains r, at the row's place
  r mod 5000 inside the block; the body reads the block's row r mod 5000, which is row r of the operand.  So the
  block structure disappears and the result at (r, f) is the layer's formula on row r of the operand.
-/
import proofs.«148738_j38654705664133_1_alg».proof.Proof.KI.Spec
import proofs.«148738_j38654705664133_1_alg».proof.Proof.RefPay

noncomputable section

namespace Cert.Bridge

open Idealize.ShloMosaic Idealize.ShloMosaic.ValueIdx Cert.KernelIdeal Cert.KernelIdeal.Gen Cert.KernelIdeal.Fr
open scoped BigOperators

/-- Row r mod 5000 of the row block that contains row r is row r (arrays of 100000 rows). -/
theorem rows_at {α : Type} {n1 n2 : ℕ} (a : (⟨2, ![100000, n1]⟩ : Shape).Idx → α) (r : Fin 100000) (f : Fin n2) (d : Fin n1) :
    rows a (rowBlk (ix2 r f)) (ix2 (⟨r.val % 5000, Nat.mod_lt _ (by decide)⟩ : Fin 5000) d) = a (ix2 r d) := by
  show a _ = a _
  refine congrArg a (funext fun ax => Fin.ext ?_)
  match ax with
  | ⟨0, _⟩ => show r.val / 5000 * 5000 + r.val % 5000 = r.val; omega
  | ⟨1, _⟩ => rfl

/-- The same for arrays of 200000 rows. -/
theorem rows'_at {α : Type} {n1 n2 : ℕ} (a : (⟨2, ![200000, n1]⟩ : Shape).Idx → α) (r : Fin 200000) (f : Fin n2) (d : Fin n1) :
    rows' a (rowBlk' (ix2 r f)) (ix2 (⟨r.val % 5000, Nat.mod_lt _ (by decide)⟩ : Fin 5000) d) = a (ix2 r d) := by
  show a _ = a _
  refine congrArg a (funext fun ax => Fin.ext ?_)
  match ax with
  | ⟨0, _⟩ => show r.val / 5000 * 5000 + r.val % 5000 = r.val; omega
  | ⟨1, _⟩ => rfl

/-- Call 0 at (r, f): the rectifier of row r of the operand against column f of the weights, plus the bias at f. -/
theorem R0_apply (x : Vec Ideal S100000x256 .f32) (w : Vec Ideal S256x128 .f32) (b : Vec Ideal S128 .f32)
    (r : Fin 100000) (f : Fin 128) :
    R0 x w b (ix2 r f) = leaky ((∑ d : Fin 256, x (ix2 r d) * w (ix2 d f)) + b (ix1 f)) := by
  show k0_pay1 (rows x (rowBlk (ix2 r f))) w b (ix2 (⟨r.val % 5000, Nat.mod_lt _ (by decide)⟩ : Fin 5000) f) = _
  rw [k0_pay1_apply]
  simp only [rows_at]

/-- Call 1 at (r, f): the rectifier of row r of the operand against column f of the weights, plus the bias at f. -/
theorem R1_apply (x : Vec Ideal S100000x128 .f32) (w : Vec Ideal S128x64 .f32) (b : Vec Ideal S64 .f32)
    (r : Fin 100000) (f : Fin 64) :
    R1 x w b (ix2 r f) = leaky ((∑ d : Fin 128, x (ix2 r d) * w (ix2 d f)) + b (ix1 f)) := by
  show k1_pay1 (rows x (rowBlk (ix2 r f))) w b (ix2 (⟨r.val % 5000, Nat.mod_lt _ (by decide)⟩ : Fin 5000) f) = _
  rw [k1_pay1_apply]
  simp only [rows_at]

/-- Call 2 at (r, f): row r of the operand against column f of the weights, plus the bias at f. -/
theorem R2_apply (x : Vec Ideal S100000x64 .f32) (w : Vec Ideal S64x64 .f32) (b : Vec Ideal S64 .f32)
    (r : Fin 100000) (f : Fin 64) :
    R2 x w b (ix2 r f) = (∑ d : Fin 64, x (ix2 r d) * w (ix2 d f)) + b (ix1 f) := by
  show k2_pay1 (rows x (rowBlk (ix2 r f))) w b (ix2 (⟨r.val % 5000, Nat.mod_lt _ (by decide)⟩ : Fin 5000) f) = _
  rw [k2_pay1_apply]
  simp only [rows_at]

/-- Call 3 at (r, f): the rectifier of the operand's entry plus the bias at f. -/
theorem R3_apply (x : Vec Ideal S100000x64 .f32) (b : Vec Ideal S64 .f32) (r : Fin 100000) (f : Fin 64) :
    R3 x b (ix2 r f) = leaky (x (ix2 r f) + b (ix1 f)) := by
  show k3_pay1 (rows x (rowBlk (ix2 r f))) b (ix2 (⟨r.val % 5000, Nat.mod_lt _ (by decide)⟩ : Fin 5000) f) = _
  rw [k3_pay1_apply, rows_at]

/-- Call 4 at (r, f): row r of the operand against column f of the weights, plus the bias at f. -/
theorem R4_apply (x : Vec Ideal S100000x64 .f32) (w : Vec Ideal S64x64 .f32) (b : Vec Ideal S64 .f32)
    (r : Fin 100000) (f : Fin 64) :
    R4 x w b (ix2 r f) = (∑ d : Fin 64, x (ix2 r d) * w (ix2 d f)) + b (ix1 f) := by
  show k4_pay1 (rows x (rowBlk (ix2 r f))) w b (ix2 (⟨r.val % 5000, Nat.mod_lt _ (by decide)⟩ : Fin 5000) f) = _
  rw [k4_pay1_apply]
  simp only [rows_at]

/-- Call 5 at (r, f): the rectifier of the operand's entry plus the bias at f. -/
theorem R5_apply (x : Vec Ideal S100000x64 .f32) (b : Vec Ideal S64 .f32) (r : Fin 100000) (f : Fin 64) :
    R5 x b (ix2 r f) = leaky (x (ix2 r f) + b (ix1 f)) := by
  show k5_pay1 (rows x (rowBlk (ix2 r f))) b (ix2 (⟨r.val % 5000, Nat.mod_lt _ (by decide)⟩ : Fin 5000) f) = _
  rw [k5_pay1_apply, rows_at]

/-- Call 6 at (r, u): row r of the pair features against the one column of the weights, plus the bias. -/
theorem R6_apply (x : Vec Ideal S200000x136 .f32) (w : Vec Ideal S136x1 .f32) (b : Vec Ideal S1 .f32)
    (r : Fin 200000) (f : Fin 1) :
    R6 x w b (ix2 r f) = (∑ d : Fin 136, x (ix2 r d) * w (ix2 d f)) + b (ix1 f) := by
  show k6_pay1 (rows' x (rowBlk' (ix2 r f))) w b (ix2 (⟨r.val % 5000, Nat.mod_lt _ (by decide)⟩ : Fin 5000) f) = _
  rw [k6_pay1_apply]
  simp only [rows'_at]

end Cert.Bridge

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibHostDense.lean ====
/-
  The host's spelling of a dense layer, read at an entry.

  On the host a dense layer is a contraction of the rows of x with the columns of w, a bias vector spread over the
  rows by two broadcasts (first onto a row [1, N], then over the M rows), a sum, and optionally the leaky
  rectifier spelt as a comparison with a splat zero, a product with a splat slope and a selection.  At an entry
  (i, f) all of this is
      act (Σ_d x (i, d) · w (d, f) + b f),
  the contraction being the exact sum at the ideal values.  The statements take the dimension-number and broadcast
  records as arguments, so they apply to whatever records a printed program names.
-/
import Idealize.ShloMosaic.Lib.Pipeline.Value
import Idealize.ShloMosaic.Lib.ValueIdx
import Idealize.ShloMosaic.Lib.ValueLayout
import proofs.«148738_j38654705664133_1_alg».proof.Proof.LibInnerProducts
import proofs.«148738_j38654705664133_1_alg».proof.Proof.LibInDimRow
import proofs.«148738_j38654705664133_1_alg».proof.Proof.LibLeaky

noncomputable section

namespace Cert.Bridge

open Idealize.ShloMosaic Idealize.ShloMosaic.ValueIdx Idealize.ShloMosaic.InnerProducts
open scoped BigOperators

/-- A splat of a float word over any shape reads the word's value everywhere. -/
theorem splat_apply (t : Shape) (h : (⟨0, ![]⟩ : Shape).BroadcastsInDim t ![]) (w : BitVec 32) (j : t.Idx) :
    broadcastInDim t ![] h (constant (F := Ideal) ⟨0, ![]⟩ .f32 w) j = Ideal.ofBits .f32 w :=
  broadcastInDim_apply _ h _ j ix0 (fun a => a.elim0)

/-- A bias vector spread over the rows of an [M, N] array reads b f at (i, f). -/
theorem biasRows_apply {M N : ℕ} {α : Type} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (i : Fin M) (f : Fin N) :
    broadcastInDim ⟨2, ![M, N]⟩ ![0, 1] h2 (broadcastInDim ⟨2, ![1, N]⟩ ![1] h1 b) (ix2 i f) = b (ix1 f) := by
  rw [Cert.LibInDimRow.inDim_1b_ab_apply, Cert.LibInDimRow.inDim_b_1b_apply]

/-- The host's rectifier (compare with a splat zero, multiply by a splat slope, select) is leaky entry by entry. -/
theorem hostLeaky_apply {t : Shape} (y : FVec Ideal t .f32) (h : (⟨0, ![]⟩ : Shape).BroadcastsInDim t ![]) (j : t.Idx) :
    select (cmpf .ogt y (broadcastInDim t ![] h (constant (F := Ideal) ⟨0, ![]⟩ .f32 0x00000000#32))) y
        (mulf (broadcastInDim t ![] h (constant (F := Ideal) ⟨0, ![]⟩ .f32 0x3C23D70A#32)) y) j
      = leaky (y j) := by
  simp only [select_apply, cmpf_apply, mulf_apply]
  rw [splat_apply, splat_apply]
  rfl

/-- Contraction plus bias rows at (i, f). -/
theorem hostDense_apply {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (i : Fin M) (f : Fin N) :
    addf (Host.dotGeneral D prec x w) (broadcastInDim ⟨2, ![M, N]⟩ ![0, 1] h2 (broadcastInDim ⟨2, ![1, N]⟩ ![1] h1 b)) (ix2 i f)
      = (∑ d : Fin K, x (ix2 i d) * w (ix2 d f)) + b (ix1 f) := by
  rw [addf_apply, dotGeneral_apply D hD, biasRows_apply]

/-- An array plus bias rows at (i, f). -/
theorem hostBias_apply {M N : ℕ} (y : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (i : Fin M) (f : Fin N) :
    addf y (broadcastInDim ⟨2, ![M, N]⟩ ![0, 1] h2 (broadcastInDim ⟨2, ![1, N]⟩ ![1] h1 b)) (ix2 i f)
      = y (ix2 i f) + b (ix1 f) := by
  rw [addf_apply, biasRows_apply]

end Cert.Bridge

end
-- ==== Proof.RefRead.lean ====
/-
  The reference's dense stages, read at an entry.

  Each stage of the reference is spelt with the host's operations: a contraction, a bias vector spread over the rows,
  a sum, and for the rectified stages a comparison with zero, a product with the slope and a selection.  Read at an
  entry (r, f), in terms of the previous stage's array y:
      stage 1, 2:      leaky (Σ_d y (r, d) · w (d, f) + b f)
      stage 3, 5:      Σ_d y (r, d) · w (d, f)                    (no bias)
      stage 4, 6:      leaky (y (r, f) + b f)                     (y the aggregated array)
      the score:       Σ_d y (r, d) · w (d, 0) + b 0.
-/
import proofs.«148738_j38654705664133_1_alg».proof.Proof.RefGen.ReadCore
import proofs.«148738_j38654705664133_1_alg».proof.Proof.LibHostDense

noncomputable section

namespace Cert.Bridge

open Idealize.ShloMosaic Idealize.ShloMosaic.ValueIdx Idealize.ShloMosaic.InnerProducts
open Cert.ReferenceIdeal Cert.ReferenceIdeal.Read
open scoped BigOperators

/-- Stage 1 (256 → 128 features, rectified) at (r, f). -/
theorem v12_at (x0 : (⟨S100000x256, .f32⟩ : BufTy).Contents (Elt Ideal)) (x4 : (⟨S256x128, .f32⟩ : BufTy).Contents (Elt Ideal)) (x5 : (⟨S128, .f32⟩ : BufTy).Contents (Elt Ideal)) (r : Fin 100000) (f : Fin 128) :
    val_main_v12 (F := Ideal) x0 x4 x5 (ix2 r f)
      = leaky ((∑ d : Fin 256, x0 (ix2 r d) * x4 (ix2 d f)) + x5 (ix1 f)) := by
  unfold val_main_v12 val_main_v9 val_main_v11 val_main_v8 val_main_v10 val_main_cst val_main_cst_0
  rw [hostLeaky_apply]
  unfold val_main_v7 val_main_v4 val_main_v6 val_main_v5
  rw [hostDense_apply dot_S100000x256_S256x128_S100000x128_1_0_0_1_n_n rfl]

/-- Stage 2 (128 → 64 features, rectified) at (r, f), from stage 1's array. -/
theorem v21_at (x0 : (⟨S100000x256, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (r : Fin 100000) (f : Fin 64) :
    val_main_v21 (F := Ideal) x0 x4 x5 x6 x7 (ix2 r f)
      = leaky ((∑ d : Fin 128, (val_main_v12 (F := Ideal) x0 x4 x5) (ix2 r d) * x6 (ix2 d f)) + x7 (ix1 f)) := by
  unfold val_main_v21 val_main_v18 val_main_v20 val_main_v17 val_main_v19 val_main_cst_1 val_main_cst_2
  rw [hostLeaky_apply]
  unfold val_main_v16 val_main_v13 val_main_v15 val_main_v14
  rw [hostDense_apply dot_S100000x128_S128x64_S100000x64_1_0_0_1_n_n rfl]

/-- Stage 3 (64 → 64 features, no bias) at (r, f), from stage 2's array. -/
theorem v22_at (x0 : (⟨S100000x256, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (r : Fin 100000) (f : Fin 64) :
    val_main_v22 (F := Ideal) x0 x4 x5 x6 x7 x8 (ix2 r f) = ∑ d : Fin 64, (val_main_v21 (F := Ideal) x0 x4 x5 x6 x7) (ix2 r d) * x8 (ix2 d f) := by
  unfold val_main_v22
  rw [dotGeneral_apply dot_S100000x64_S64x64_S100000x64_1_0_0_1_n_n rfl]

/-- Stage 4 (bias and rectifier after the first aggregation) at (r, f). -/
theorem v81_at (x0 : (⟨S100000x256, .f32⟩ : BufTy).Contents (Elt Ideal)) (x1 : (⟨S2x1600000, .i32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (r : Fin 100000) (f : Fin 64) :
    val_main_v81 (F := Ideal) x0 x1 x4 x5 x6 x7 x8 x9 (ix2 r f) = leaky ((val_main_v73 (F := Ideal) x0 x1 x4 x5 x6 x7 x8) (ix2 r f) + x9 (ix1 f)) := by
  unfold val_main_v81 val_main_v78 val_main_v80 val_main_v77 val_main_v79 val_main_cst_17 val_main_cst_18
  rw [hostLeaky_apply]
  unfold val_main_v76 val_main_v75 val_main_v74
  rw [hostBias_apply]

/-- Stage 5 (64 → 64 features, no bias) at (r, f), from stage 4's array. -/
theorem v82_at (x0 : (⟨S100000x256, .f32⟩ : BufTy).Contents (Elt Ideal)) (x1 : (⟨S2x1600000, .i32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (r : Fin 100000) (f : Fin 64) :
    val_main_v82 (F := Ideal) x0 x1 x4 x5 x6 x7 x8 x9 x10 (ix2 r f) = ∑ d : Fin 64, (val_main_v81 (F := Ideal) x0 x1 x4 x5 x6 x7 x8 x9) (ix2 r d) * x10 (ix2 d f) := by
  unfold val_main_v82
  rw [dotGeneral_apply dot_S100000x64_S64x64_S100000x64_1_0_0_1_n_n rfl]

/-- Stage 6 (bias and rectifier after the second aggregation) at (r, f): the node embeddings. -/
theorem v141_at (x0 : (⟨S100000x256, .f32⟩ : BufTy).Contents (Elt Ideal)) (x1 : (⟨S2x1600000, .i32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (r : Fin 100000) (f : Fin 64) :
    val_main_v141 (F := Ideal) x0 x1 x4 x5 x6 x7 x8 x9 x10 x11 (ix2 r f) = leaky ((val_main_v133 (F := Ideal) x0 x1 x4 x5 x6 x7 x8 x9 x10) (ix2 r f) + x11 (ix1 f)) := by
  unfold val_main_v141 val_main_v138 val_main_v140 val_main_v137 val_main_v139 val_main_cst_34 val_main_cst_35
  rw [hostLeaky_apply]
  unfold val_main_v136 val_main_v135 val_main_v134
  rw [hostBias_apply]

/-- The score column at (r, u): row r of the pair features against the one weight column, plus the bias. -/
theorem v164_at (x0 : (⟨S100000x256, .f32⟩ : BufTy).Contents (Elt Ideal)) (x1 : (⟨S2x1600000, .i32⟩ : BufTy).Contents (Elt Ideal)) (x2 : (⟨S2x200000, .i32⟩ : BufTy).Contents (Elt Ideal)) (x3 : (⟨S200000x8, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S136x1, .f32⟩ : BufTy).Contents (Elt Ideal)) (x13 : (⟨S1, .f32⟩ : BufTy).Contents (Elt Ideal)) (r : Fin 200000) (f : Fin 1) :
    val_main_v164 (F := Ideal) x0 x1 x2 x3 x4 x5 x6 x7 x8 x9 x10 x11 x12 x13 (ix2 r f)
      = (∑ d : Fin 136, (val_main_v160 (F := Ideal) x0 x1 x2 x3 x4 x5 x6 x7 x8 x9 x10 x11) (ix2 r d) * x12 (ix2 d f)) + x13 (ix1 f) := by
  unfold val_main_v164 val_main_v161 val_main_v163 val_main_v162
  rw [hostDense_apply dot_S200000x136_S136x1_S200000x1_1_0_0_1_n_n rfl]

end Cert.Bridge

end
-- ==== Proof.RefBridge.lean ====
/-
  The two programs compute the same arrays.

  Stage by stage the kernel program's array equals the reference's.  A dense or bias-and-rectifier stage is compared
  entry by entry: both sides are the same formula on row r of the previous stage's array, the kernel's zero bias
  row adding nothing (x + 0 = x on the extended reals).  The aggregation over the edges and the gathering of the
  pair features are the same host operations applied to equal arrays, so those stages agree as soon as their
  operands do.  Chaining the stages gives the node embeddings and the pair scores.
-/
import proofs.«148738_j38654705664133_1_alg».proof.Proof.KI.Spec
import proofs.«148738_j38654705664133_1_alg».proof.Proof.RefRegions
import proofs.«148738_j38654705664133_1_alg».proof.Proof.RefRead

noncomputable section

namespace Cert.Bridge

open Idealize.ShloMosaic Idealize.ShloMosaic.ValueIdx
open Cert.KernelIdeal.Fr
open Cert.ReferenceIdeal Cert.ReferenceIdeal.Read
open scoped BigOperators

/-- The kernel program's zero bias row is zero at every place. -/
theorem zeros64_at (f : Fin 64) : zeros64 (F := Ideal) (ix1 f) = 0 := by
  unfold zeros64
  rw [splat_apply, Ideal.ofBits_zero_f32]

/-! ## The dense and the bias-and-rectifier stages -/

/-- Stage 1: the first dense layer. -/
theorem stage1 (x0 : (⟨S100000x256, .f32⟩ : BufTy).Contents (Elt Ideal)) (x4 : (⟨S256x128, .f32⟩ : BufTy).Contents (Elt Ideal)) (x5 : (⟨S128, .f32⟩ : BufTy).Contents (Elt Ideal)) :
    R0 (F := Ideal) x0 x4 x5 = val_main_v12 (F := Ideal) x0 x4 x5 := by
  funext i
  obtain ⟨r, f, rfl⟩ : ∃ (r : Fin 100000) (f : Fin 128), i = ix2 r f := ⟨i 0, i 1, eq_ix2 i⟩
  rw [R0_apply, v12_at]

/-- Stage 2: the second dense layer, on equal operands. -/
theorem stage2 (x0 : (⟨S100000x256, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) :
    R1 (F := Ideal) (val_main_v12 (F := Ideal) x0 x4 x5) x6 x7 = val_main_v21 (F := Ideal) x0 x4 x5 x6 x7 := by
  funext i
  obtain ⟨r, f, rfl⟩ : ∃ (r : Fin 100000) (f : Fin 64), i = ix2 r f := ⟨i 0, i 1, eq_ix2 i⟩
  rw [R1_apply, v21_at]

/-- Stage 3: the bias-free dense layer; the kernel adds its zero row. -/
theorem stage3 (x0 : (⟨S100000x256, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) :
    R2 (F := Ideal) (val_main_v21 (F := Ideal) x0 x4 x5 x6 x7) x8 (zeros64 (F := Ideal)) = val_main_v22 (F := Ideal) x0 x4 x5 x6 x7 x8 := by
  funext i
  obtain ⟨r, f, rfl⟩ : ∃ (r : Fin 100000) (f : Fin 64), i = ix2 r f := ⟨i 0, i 1, eq_ix2 i⟩
  rw [R2_apply, v22_at, zeros64_at, add_zero]

/-- Stage 4: bias and rectifier after the first aggregation. -/
theorem stage4 (x0 : (⟨S100000x256, .f32⟩ : BufTy).Contents (Elt Ideal)) (x1 : (⟨S2x1600000, .i32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    R3 (F := Ideal) (val_main_v73 (F := Ideal) x0 x1 x4 x5 x6 x7 x8) x9 = val_main_v81 (F := Ideal) x0 x1 x4 x5 x6 x7 x8 x9 := by
  funext i
  obtain ⟨r, f, rfl⟩ : ∃ (r : Fin 100000) (f : Fin 64), i = ix2 r f := ⟨i 0, i 1, eq_ix2 i⟩
  rw [R3_apply, v81_at]

/-- Stage 5: the second bias-free dense layer. -/
theorem stage5 (x0 : (⟨S100000x256, .f32⟩ : BufTy).Contents (Elt Ideal)) (x1 : (⟨S2x1600000, .i32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) :
    R4 (F := Ideal) (val_main_v81 (F := Ideal) x0 x1 x4 x5 x6 x7 x8 x9) x10 (zeros64 (F := Ideal)) = val_main_v82 (F := Ideal) x0 x1 x4 x5 x6 x7 x8 x9 x10 := by
  funext i
  obtain ⟨r, f, rfl⟩ : ∃ (r : Fin 100000) (f : Fin 64), i = ix2 r f := ⟨i 0, i 1, eq_ix2 i⟩
  rw [R4_apply, v82_at, zeros64_at, add_zero]

/-- Stage 6: bias and rectifier after the second aggregation. -/
theorem stage6 (x0 : (⟨S100000x256, .f32⟩ : BufTy).Contents (Elt Ideal)) (x1 : (⟨S2x1600000, .i32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) :
    R5 (F := Ideal) (val_main_v133 (F := Ideal) x0 x1 x4 x5 x6 x7 x8 x9 x10) x11 = val_main_v141 (F := Ideal) x0 x1 x4 x5 x6 x7 x8 x9 x10 x11 := by
  funext i
  obtain ⟨r, f, rfl⟩ : ∃ (r : Fin 100000) (f : Fin 64), i = ix2 r f := ⟨i 0, i 1, eq_ix2 i⟩
  rw [R5_apply, v141_at]

/-- The score column. -/
theorem stage7 (x0 : (⟨S100000x256, .f32⟩ : BufTy).Contents (Elt Ideal)) (x1 : (⟨S2x1600000, .i32⟩ : BufTy).Contents (Elt Ideal)) (x2 : (⟨S2x200000, .i32⟩ : BufTy).Contents (Elt Ideal)) (x3 : (⟨S200000x8, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S136x1, .f32⟩ : BufTy).Contents (Elt Ideal)) (x13 : (⟨S1, .f32⟩ : BufTy).Contents (Elt Ideal)) :
    R6 (F := Ideal) (val_main_v160 (F := Ideal) x0 x1 x2 x3 x4 x5 x6 x7 x8 x9 x10 x11) x12 x13 = val_main_v164 (F := Ideal) x0 x1 x2 x3 x4 x5 x6 x7 x8 x9 x10 x11 x12 x13 := by
  funext i
  obtain ⟨r, f, rfl⟩ : ∃ (r : Fin 200000) (f : Fin 1), i = ix2 r f := ⟨i 0, i 1, eq_ix2 i⟩
  rw [R6_apply, v164_at]

/-! ## The host stages: the same operations on the same operands -/

/-- The first aggregation: the reference's operations from the degree count to the self term are the kernel
    program's, applied to the stage-3 array and the two rows of the edge list. -/
theorem aggregate1 (x0 : (⟨S100000x256, .f32⟩ : BufTy).Contents (Elt Ideal)) (x1 : (⟨S2x1600000, .i32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) :
    agg (F := Ideal) (val_main_v22 (F := Ideal) x0 x4 x5 x6 x7 x8) (edgeSrc (F := Ideal) x1) (edgeDst (F := Ideal) x1) = val_main_v73 (F := Ideal) x0 x1 x4 x5 x6 x7 x8 := by
  unfold val_main_v73 val_main_v72 val_main_v71 val_main_v70 val_main_v69 val_main_v68 val_main_cst_16 val_main_v67
  unfold val_main_v66 val_main_v65 val_main_v64 val_main_v63 val_main_c_15 val_main_v62 val_main_v61 val_main_c_14
  unfold val_main_v60 val_main_v59 val_main_v58 val_main_v57 val_main_v56 val_main_v55 val_main_v54 val_main_c_13
  unfold val_main_v53 val_main_v52 val_main_c_12 val_main_v51 val_main_v50 val_main_cst_11 val_main_v49 val_main_v48
  unfold val_main_v47 val_main_v46 val_main_v45 val_main_v44 val_main_c_10 val_main_v43 val_main_v42 val_main_c_9
  unfold val_main_v41 val_main_v40 val_main_v39 val_main_v38 val_main_v37 val_main_c_8 val_main_v36 val_main_v35
  unfold val_main_c_7 val_main_v34 val_main_v33 val_main_v32 val_main_cst_6 val_main_v31 val_main_v30 val_main_cst_5
  unfold val_main_v29 val_main_v28 val_main_v27 val_main_v26 val_main_c_4 val_main_v25 val_main_v24 val_main_c
  unfold val_main_v23 val_main_cst_3
  unfold val_main_v3 val_main_v2 val_main_v1 val_main_v0
  generalize val_main_v22 (F := Ideal) x0 x4 x5 x6 x7 x8 = y
  unfold agg edgeMsg edgeW deg wrapIdx edgeSrc edgeDst
  rfl

/-- The second aggregation, on the stage-5 array. -/
theorem aggregate2 (x0 : (⟨S100000x256, .f32⟩ : BufTy).Contents (Elt Ideal)) (x1 : (⟨S2x1600000, .i32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) :
    agg (F := Ideal) (val_main_v82 (F := Ideal) x0 x1 x4 x5 x6 x7 x8 x9 x10) (edgeSrc (F := Ideal) x1) (edgeDst (F := Ideal) x1) = val_main_v133 (F := Ideal) x0 x1 x4 x5 x6 x7 x8 x9 x10 := by
  unfold val_main_v133 val_main_v132 val_main_v131 val_main_v130 val_main_v129 val_main_v128 val_main_cst_33 val_main_v127
  unfold val_main_v126 val_main_v125 val_main_v124 val_main_v123 val_main_c_32 val_main_v122 val_main_v121 val_main_c_31
  unfold val_main_v120 val_main_v119 val_main_v118 val_main_v117 val_main_v116 val_main_v115 val_main_v114 val_main_c_30
  unfold val_main_v113 val_main_v112 val_main_c_29 val_main_v111 val_main_v110 val_main_cst_28 val_main_v109 val_main_v108
  unfold val_main_v107 val_main_v106 val_main_v105 val_main_v104 val_main_c_27 val_main_v103 val_main_v102 val_main_c_26
  unfold val_main_v101 val_main_v100 val_main_v99 val_main_v98 val_main_v97 val_main_c_25 val_main_v96 val_main_v95
  unfold val_main_c_24 val_main_v94 val_main_v93 val_main_v92 val_main_cst_23 val_main_v91 val_main_v90 val_main_cst_22
  unfold val_main_v89 val_main_v88 val_main_v87 val_main_v86 val_main_c_21 val_main_v85 val_main_v84 val_main_c_20
  unfold val_main_v83 val_main_cst_19
  unfold val_main_v3 val_main_v2 val_main_v1 val_main_v0
  generalize val_main_v82 (F := Ideal) x0 x1 x4 x5 x6 x7 x8 x9 x10 = y
  unfold agg edgeMsg edgeW deg wrapIdx edgeSrc edgeDst
  rfl

/-- The pair features: both programs gather the two endpoint rows of every pair and join them with the pair's own
    features. -/
theorem pairFeatures (x0 : (⟨S100000x256, .f32⟩ : BufTy).Contents (Elt Ideal)) (x1 : (⟨S2x1600000, .i32⟩ : BufTy).Contents (Elt Ideal)) (x2 : (⟨S2x200000, .i32⟩ : BufTy).Contents (Elt Ideal)) (x3 : (⟨S200000x8, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) :
    pairFeat (F := Ideal) (val_main_v141 (F := Ideal) x0 x1 x4 x5 x6 x7 x8 x9 x10 x11) x2 x3 = val_main_v160 (F := Ideal) x0 x1 x2 x3 x4 x5 x6 x7 x8 x9 x10 x11 := by
  unfold val_main_v160 val_main_v159 val_main_v158 val_main_v157 val_main_v156 val_main_v155 val_main_c_39 val_main_v154
  unfold val_main_v153 val_main_c_38 val_main_v152 val_main_v151 val_main_v150 val_main_v149 val_main_v148 val_main_v147
  unfold val_main_v146 val_main_c_37 val_main_v145 val_main_v144 val_main_c_36 val_main_v143 val_main_v142
  generalize val_main_v141 (F := Ideal) x0 x1 x4 x5 x6 x7 x8 x9 x10 x11 = y
  unfold pairFeat wrapIdx'
  rfl

/-! ## The two results -/

/-- The node embeddings of the kernel program are the reference's. -/
theorem kout1_eq (x0 : (⟨S100000x256, .f32⟩ : BufTy).Contents (Elt Ideal)) (x1 : (⟨S2x1600000, .i32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) :
    KOut1 (F := Ideal) x0 x1 x4 x5 x6 x7 x8 x9 x10 x11 = val_main_v141 (F := Ideal) x0 x1 x4 x5 x6 x7 x8 x9 x10 x11 := by
  unfold KOut1
  rw [stage1, stage2, stage3, aggregate1, stage4, stage5, aggregate2, stage6]

/-- The pair scores of the kernel program are the reference's. -/
theorem kout0_eq (x0 : (⟨S100000x256, .f32⟩ : BufTy).Contents (Elt Ideal)) (x1 : (⟨S2x1600000, .i32⟩ : BufTy).Contents (Elt Ideal)) (x2 : (⟨S2x200000, .i32⟩ : BufTy).Contents (Elt Ideal)) (x3 : (⟨S200000x8, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S136x1, .f32⟩ : BufTy).Contents (Elt Ideal)) (x13 : (⟨S1, .f32⟩ : BufTy).Contents (Elt Ideal)) :
    KOut0 (F := Ideal) x0 x1 x2 x3 x4 x5 x6 x7 x8 x9 x10 x11 x12 x13 = val_main_v165 (F := Ideal) x0 x1 x2 x3 x4 x5 x6 x7 x8 x9 x10 x11 x12 x13 := by
  unfold KOut0
  rw [kout1_eq, pairFeatures, stage7]
  unfold flat val_main_v165
  rfl

end Cert.Bridge

end
-- ==== Proof.Algebraic.lean ====
/-
  The two idealized programs agree. The kernel program's run ends with its two result buffers at the compositions
  KOut0, KOut1 of the fourteen launch arrays (the seven pallas calls as whole-array functions, row block by row block,
  between the host's aggregation over the edges and its gathering of the pair features); the reference's run ends
  with its results at its own operations' composed terms of its launch arrays. On the extended reals the two
  compositions are one function of the arguments: a cast to the narrower format is the identity, a matrix product
  into the zero accumulator is the sum over the contracted axis, adding the zero bias row changes nothing, and the
  host chains between the calls are the same terms on both sides. So from memories that agree on the arguments
  both programs end with equal results, and neither changes an argument.
-/
import proofs.«148738_j38654705664133_1_alg».proof.Defs
import proofs.«148738_j38654705664133_1_alg».proof.Proof.Gen.KernelIdeal
import proofs.«148738_j38654705664133_1_alg».proof.Proof.Gen.ReferenceIdeal
import proofs.«148738_j38654705664133_1_alg».proof.Proof.Gen.Pre_finite_inputs
import proofs.«148738_j38654705664133_1_alg».proof.Proof.KI.Run
import proofs.«148738_j38654705664133_1_alg».proof.Proof.KI.Args
import proofs.«148738_j38654705664133_1_alg».proof.Proof.KI.ValKOut
import proofs.«148738_j38654705664133_1_alg».proof.Proof.RefRun
import proofs.«148738_j38654705664133_1_alg».proof.Proof.RefBridge

set_option maxRecDepth 16384

noncomputable section

namespace Cert.Proof

open Idealize.ShloMosaic Idealize.ShloMosaic.TcCoe Idealize.SL.Sem

theorem algebraic : Cert.algebraic_KernelIdeal_ReferenceIdeal := by
  intro m ρ m' ρ' _ hagree
  refine ⟨fun c => Cert.KernelIdeal.Fr.KOut0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.KernelIdeal.Fr.KOut1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run (Cert.KernelIdeal.defs (F := Ideal)) _ _).mono (fun r h c => ⟨
      (h c _ (Cert.KernelIdeal.Fr.mem_uc Cert.KernelIdeal.main_v133 (by decide))).trans (Cert.KernelIdeal.Fr.W15_res0 m ρ c),
      (h c _ (Cert.KernelIdeal.Fr.mem_uc Cert.KernelIdeal.main_v112 (by decide))).trans (Cert.KernelIdeal.Fr.W15_res1 m ρ c),
      (h c _ (Cert.KernelIdeal.Fr.mem_uc Cert.KernelIdeal.main_arg0 (by decide))).trans (Cert.KernelIdeal.Fr.W15_main_arg0 m ρ c),
      (h c _ (Cert.KernelIdeal.Fr.mem_uc Cert.KernelIdeal.main_arg1 (by decide))).trans (Cert.KernelIdeal.Fr.W15_main_arg1 m ρ c),
      (h c _ (Cert.KernelIdeal.Fr.mem_uc Cert.KernelIdeal.main_arg2 (by decide))).trans (Cert.KernelIdeal.Fr.W15_main_arg2 m ρ c),
      (h c _ (Cert.KernelIdeal.Fr.mem_uc Cert.KernelIdeal.main_arg3 (by decide))).trans (Cert.KernelIdeal.Fr.W15_main_arg3 m ρ c),
      (h c _ (Cert.KernelIdeal.Fr.mem_uc Cert.KernelIdeal.main_arg4 (by decide))).trans (Cert.KernelIdeal.Fr.W15_main_arg4 m ρ c),
      (h c _ (Cert.KernelIdeal.Fr.mem_uc Cert.KernelIdeal.main_arg5 (by decide))).trans (Cert.KernelIdeal.Fr.W15_main_arg5 m ρ c),
      (h c _ (Cert.KernelIdeal.Fr.mem_uc Cert.KernelIdeal.main_arg6 (by decide))).trans (Cert.KernelIdeal.Fr.W15_main_arg6 m ρ c),
      (h c _ (Cert.KernelIdeal.Fr.mem_uc Cert.KernelIdeal.main_arg7 (by decide))).trans (Cert.KernelIdeal.Fr.W15_main_arg7 m ρ c),
      (h c _ (Cert.KernelIdeal.Fr.mem_uc Cert.KernelIdeal.main_arg8 (by decide))).trans (Cert.KernelIdeal.Fr.W15_main_arg8 m ρ c),
      (h c _ (Cert.KernelIdeal.Fr.mem_uc Cert.KernelIdeal.main_arg9 (by decide))).trans (Cert.KernelIdeal.Fr.W15_main_arg9 m ρ c),
      (h c _ (Cert.KernelIdeal.Fr.mem_uc Cert.KernelIdeal.main_arg10 (by decide))).trans (Cert.KernelIdeal.Fr.W15_main_arg10 m ρ c),
      (h c _ (Cert.KernelIdeal.Fr.mem_uc Cert.KernelIdeal.main_arg11 (by decide))).trans (Cert.KernelIdeal.Fr.W15_main_arg11 m ρ c),
      (h c _ (Cert.KernelIdeal.Fr.mem_uc Cert.KernelIdeal.main_arg12 (by decide))).trans (Cert.KernelIdeal.Fr.W15_main_arg12 m ρ c),
      (h c _ (Cert.KernelIdeal.Fr.mem_uc Cert.KernelIdeal.main_arg13 (by decide))).trans (Cert.KernelIdeal.Fr.W15_main_arg13 m ρ c)⟩)
      (Cert.KernelIdeal.Fr.run_main (F := Ideal) m ρ)
  · refine (θ_run (Cert.ReferenceIdeal.defs (F := Ideal)) _ _).mono (fun r h c => ⟨(h c).1.trans ?_, (h c).2.1.trans ?_, (h c).2.2⟩)
      (Cert.ReferenceIdeal.RefRun.run (F := Ideal) m' ρ')
    · obtain ⟨e0, e1, e2, e3, e4, e5, e6, e7, e8, e9, e10, e11, e12, e13⟩ := hagree c
      rw [e0, e1, e2, e3, e4, e5, e6, e7, e8, e9, e10, e11, e12, e13]
      exact (Cert.Bridge.kout0_eq _ _ _ _ _ _ _ _ _ _ _ _ _ _).symm
    · obtain ⟨e0, e1, e2, e3, e4, e5, e6, e7, e8, e9, e10, e11, e12, e13⟩ := hagree c
      rw [e0, e1, e4, e5, e6, e7, e8, e9, e10, e11]
      exact (Cert.Bridge.kout1_eq _ _ _ _ _ _ _ _ _ _).symm

end Cert.Proof

end
-- ==== Proof.lean ====
/-
  The certificate's claim, assembled: the three frames, the (empty) list of idealization rewrites, and the agreement of
  the two idealized programs on the extended reals. The kernel program is seven pallas calls — four dense layers with
  or without a leaky rectifier, two bias-and-rectifier stages, one scoring layer — between host stretches that
  aggregate node features over the graph's edges and gather the features of the queried pairs; its run is put
  together from the calls' own runs and the host stretches' folds, once for each reading of the floats.
-/
import proofs.«148738_j38654705664133_1_alg».proof.Defs
import proofs.«148738_j38654705664133_1_alg».proof.Proof.Gen.Kernel
import proofs.«148738_j38654705664133_1_alg».proof.Proof.Gen.KernelIdeal
import proofs.«148738_j38654705664133_1_alg».proof.Proof.Gen.ReferenceIdeal
import proofs.«148738_j38654705664133_1_alg».proof.Proof.Gen.Pre_finite_inputs
import proofs.«148738_j38654705664133_1_alg».proof.Proof.FrameKB
import proofs.«148738_j38654705664133_1_alg».proof.Proof.FrameKI
import proofs.«148738_j38654705664133_1_alg».proof.Proof.FrameRef
import proofs.«148738_j38654705664133_1_alg».proof.Proof.Algebraic

noncomputable section

namespace Cert.Proof

theorem claim : Cert.Claim := ⟨Cert.Kernel.Gen.facts, Cert.KernelIdeal.Gen.facts, Cert.ReferenceIdeal.Gen.facts, Cert.Pre_finite_inputs.Gen.facts,
  frame_kb, frame_ki, frame_ri, trivial, algebraic⟩

end Cert.Proof

end
